-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6400000x3 : Shape := ⟨2, ![6400000, 3]⟩
abbrev S2x6400000 : Shape := ⟨2, ![2, 6400000]⟩
abbrev S100000 : Shape := ⟨1, ![100000]⟩
abbrev S512x3x3 : Shape := ⟨3, ![512, 3, 3]⟩
abbrev S_ : Shape := ⟨0, ![]⟩

class Facts : Prop where
  bcast_S_S6400000x3 : S_.BroadcastsInDim S6400000x3 (![] : Fin 0 → Fin S6400000x3.rank)
  reducesTo_S6400000x3_S_d0_1 : S6400000x3.ReducesTo [0, 1] S_
  h_S_ : 0 < S_.numel
  bcast_S_S512x3x3 : S_.BroadcastsInDim S512x3x3 (![] : Fin 0 → Fin S512x3x3.rank)
  reducesTo_S512x3x3_S_d0_1_2 : S512x3x3.ReducesTo [0, 1, 2] S_

variable [Facts]

def fn {F : FTy → Type} [FloatOps F] (main_arg0 : FVec F S6400000x3 .f32) (main_arg1 : FVec F S6400000x3 .f32) (main_arg2 : IVec S2x6400000 32) (main_arg3 : IVec S100000 32) (main_arg4 : FVec F S512x3x3 .f32) : IVec S_ 1 :=
  let main_v0 : FVec F S6400000x3 .f32 := Host.absf main_arg0
  let main_cst : FVec F S_ .f32 := constant S_ .f32 0x7F800000#32
  let main_v1 : FVec F S6400000x3 .f32 := broadcastInDim S6400000x3 ![] bcast_S_S6400000x3 main_cst
  let main_v2 : IVec S6400000x3 1 := cmpf .olt main_v0 main_v1
  let main_c : IVec S_ 1 := constantI S_ 1 1#1
  let main_v3 : IVec S_ 1 := (fun x v => Host.reduce IntOp.andi x v reducesTo_S6400000x3_S_d0_1 h_S_) main_v2 main_c
  let main_v4 : FVec F S6400000x3 .f32 := Host.absf main_arg1
  let main_cst_0 : FVec F S_ .f32 := constant S_ .f32 0x7F800000#32
  let main_v5 : FVec F S6400000x3 .f32 := broadcastInDim S6400000x3 ![] bcast_S_S6400000x3 main_cst_0
  let main_v6 : IVec S6400000x3 1 := cmpf .olt main_v4 main_v5
  let main_c_1 : IVec S_ 1 := constantI S_ 1 1#1
  let main_v7 : IVec S_ 1 := (fun x v => Host.reduce IntOp.andi x v reducesTo_S6400000x3_S_d0_1 h_S_) main_v6 main_c_1
  let main_v8 : IVec S_ 1 := andi main_v3 main_v7
  let main_v9 : FVec F S512x3x3 .f32 := Host.absf main_arg4
  let main_cst_2 : FVec F S_ .f32 := constant S_ .f32 0x7F800000#32
  let main_v10 : FVec F S512x3x3 .f32 := broadcastInDim S512x3x3 ![] bcast_S_S512x3x3 main_cst_2
  let main_v11 : IVec S512x3x3 1 := cmpf .olt main_v9 main_v10
  let main_c_3 : IVec S_ 1 := constantI S_ 1 1#1
  let main_v12 : IVec S_ 1 := (fun x v => Host.reduce IntOp.andi x v reducesTo_S512x3x3_S_d0_1_2 h_S_) main_v11 main_c_3
  let main_v13 : IVec S_ 1 := andi main_v8 main_v12
  main_v13
-- ==== Kernel.lean ====
abbrev S6400000x3 : Shape := ⟨2, ![6400000, 3]⟩
abbrev S2x6400000 : Shape := ⟨2, ![2, 6400000]⟩
abbrev S100000 : Shape := ⟨1, ![100000]⟩
abbrev S512x3x3 : Shape := ⟨3, ![512, 3, 3]⟩
abbrev S6400000x9 : Shape := ⟨2, ![6400000, 9]⟩
abbrev S10000x3 : Shape := ⟨2, ![10000, 3]⟩
abbrev S10000x9 : Shape := ⟨2, ![10000, 9]⟩
abbrev S10000x1 : Shape := ⟨2, ![10000, 1]⟩
abbrev S10000 : Shape := ⟨1, ![10000]⟩
abbrev S10000x6 : Shape := ⟨2, ![10000, 6]⟩
abbrev S1x6400000 : Shape := ⟨2, ![1, 6400000]⟩
abbrev S6400000 : Shape := ⟨1, ![6400000]⟩
abbrev S_ : Shape := ⟨0, ![]⟩
abbrev S100000x9 : Shape := ⟨2, ![100000, 9]⟩
abbrev S6400000x1 : Shape := ⟨2, ![6400000, 1]⟩
abbrev S100000x3 : Shape := ⟨2, ![100000, 3]⟩
abbrev S100000x6 : Shape := ⟨2, ![100000, 6]⟩
abbrev S512x6 : Shape := ⟨2, ![512, 6]⟩
abbrev S100000x1 : Shape := ⟨2, ![100000, 1]⟩
abbrev S512x1x1 : Shape := ⟨3, ![512, 1, 1]⟩
abbrev S512 : Shape := ⟨1, ![512]⟩
abbrev S512x1 : Shape := ⟨2, ![512, 1]⟩
abbrev S512x1x3 : Shape := ⟨3, ![512, 1, 3]⟩
abbrev S512x3 : Shape := ⟨2, ![512, 3]⟩

abbrev nBuf : Space → Nat
  | .hbm => 167
  | .vmem => 6
  | .smem => 0
  | _ => 0

abbrev hbmTy0_0 (i : Nat) : BufTy := match i % 128 with
  | 0 => ⟨S6400000x3, .f32⟩
  | 1 => ⟨S6400000x3, .f32⟩
  | 2 => ⟨S2x6400000, .i32⟩
  | 3 => ⟨S100000, .i32⟩
  | 4 => ⟨S512x3x3, .f32⟩
  | 5 => ⟨S6400000x9, .f32⟩
  | 6 => ⟨S1x6400000, .i32⟩
  | 7 => ⟨S6400000, .i32⟩
  | 8 => ⟨S_, .f32⟩
  | 9 => ⟨S100000x9, .f32⟩
  | 10 => ⟨S6400000x1, .i32⟩
  | 11 => ⟨S100000x9, .f32⟩
  | 12 => ⟨S100000x3, .f32⟩
  | 13 => ⟨S100000x6, .f32⟩
  | 14 => ⟨S1x6400000, .i32⟩
  | 15 => ⟨S6400000, .i32⟩
  | 16 => ⟨S_, .f32⟩
  | 17 => ⟨S100000x3, .f32⟩
  | 18 => ⟨S6400000x1, .i32⟩
  | 19 => ⟨S100000x3, .f32⟩
  | 20 => ⟨S100000x3, .f32⟩
  | 21 => ⟨S_, .f32⟩
  | 22 => ⟨S512x6, .f32⟩
  | 23 => ⟨S100000x1, .i32⟩
  | 24 => ⟨S512x6, .f32⟩
  | 25 => ⟨S512x1x1, .f32⟩
  | 26 => ⟨S512, .f32⟩
  | 27 => ⟨S512, .f32⟩
  | 28 => ⟨S512x1x1, .f32⟩
  | 29 => ⟨S512, .f32⟩
  | 30 => ⟨S512, .f32⟩
  | 31 => ⟨S512, .i1⟩
  | 32 => ⟨S512x1, .i1⟩
  | 33 => ⟨S512x1x3, .f32⟩
  | 34 => ⟨S512x3, .f32⟩
  | 35 => ⟨S512x1x3, .f32⟩
  | 36 => ⟨S512x3, .f32⟩
  | 37 => ⟨S512x3, .i1⟩
  | 38 => ⟨S512x3, .f32⟩
  | 39 => ⟨S512x1, .i1⟩
  | 40 => ⟨S512x1x3, .f32⟩
  | 41 => ⟨S512x3, .f32⟩
  | 42 => ⟨S512x1x3, .f32⟩
  | 43 => ⟨S512x3, .f32⟩
  | 44 => ⟨S512x3, .i1⟩
  | 45 => ⟨S512x3, .f32⟩
  | 46 => ⟨S512x1x3, .f32⟩
  | 47 => ⟨S512x3, .f32⟩
  | 48 => ⟨S_, .i32⟩
  | 49 => ⟨S_, .i32⟩
  | 50 => ⟨S512, .i32⟩
  | 51 => ⟨S512, .i32⟩
  | 52 => ⟨S512, .i32⟩
  | 53 => ⟨S512x1, .f32⟩
  | 54 => ⟨S512, .f32⟩
  | 55 => ⟨S512, .f32⟩
  | 56 => ⟨S512x1, .f32⟩
  | 57 => ⟨S512, .f32⟩
  | 58 => ⟨S512, .f32⟩
  | 59 => ⟨S512, .i1⟩
  | 60 => ⟨S512x1, .i1⟩
  | 61 => ⟨S512x3, .i1⟩
  | 62 => ⟨S512x3, .f32⟩
  | 63 => ⟨S512x1, .i1⟩
  | 64 => ⟨S512x3, .i1⟩
  | 65 => ⟨S512x3, .f32⟩
  | 66 => ⟨S512, .i32⟩
  | 67 => ⟨S512, .i32⟩
  | 68 => ⟨S512x1, .f32⟩
  | 69 => ⟨S512, .f32⟩
  | 70 => ⟨S_, .f32⟩
  | 71 => ⟨S512, .f32⟩
  | 72 => ⟨S512, .i1⟩
  | 73 => ⟨S512x1, .f32⟩
  | 74 => ⟨S512, .f32⟩
  | 75 => ⟨S_, .i32⟩
  | 76 => ⟨S_, .f32⟩
  | 77 => ⟨S512, .f32⟩
  | 78 => ⟨S512, .f32⟩
  | 79 => ⟨S512x1, .f32⟩
  | 80 => ⟨S512, .f32⟩
  | 81 => ⟨S_, .f32⟩
  | 82 => ⟨S512, .f32⟩
  | 83 => ⟨S512, .i1⟩
  | 84 => ⟨S512x1, .f32⟩
  | 85 => ⟨S512, .f32⟩
  | 86 => ⟨S512, .f32⟩
  | 87 => ⟨S_, .i32⟩
  | 88 => ⟨S_, .f32⟩
  | 89 => ⟨S512, .f32⟩
  | 90 => ⟨S512, .f32⟩
  | 91 => ⟨S512x1, .f32⟩
  | 92 => ⟨S512, .f32⟩
  | 93 => ⟨S_, .f32⟩
  | 94 => ⟨S512, .f32⟩
  | 95 => ⟨S512, .i1⟩
  | 96 => ⟨S512x1, .f32⟩
  | 97 => ⟨S512, .f32⟩
  | 98 => ⟨S512, .f32⟩
  | 99 => ⟨S_, .i32⟩
  | 100 => ⟨S_, .f32⟩
  | 101 => ⟨S512, .f32⟩
  | 102 => ⟨S512, .f32⟩
  | 103 => ⟨S512x1, .f32⟩
  | 104 => ⟨S512x3, .f32⟩
  | 105 => ⟨S512x3, .f32⟩
  | 106 => ⟨S512x3, .f32⟩
  | 107 => ⟨S512x1, .f32⟩
  | 108 => ⟨S512x3, .f32⟩
  | 109 => ⟨S512x3, .f32⟩
  | 110 => ⟨S512x3, .f32⟩
  | 111 => ⟨S512x1, .f32⟩
  | 112 => ⟨S512, .f32⟩
  | 113 => ⟨S512, .f32⟩
  | 114 => ⟨S512x1, .f32⟩
  | 115 => ⟨S512, .f32⟩
  | 116 => ⟨S512, .f32⟩
  | 117 => ⟨S512, .i1⟩
  | 118 => ⟨S512x1, .i1⟩
  | 119 => ⟨S512x3, .i1⟩
  | 120 => ⟨S512x3, .f32⟩
  | 121 => ⟨S512x1, .i1⟩
  | 122 => ⟨S512x3, .i1⟩
  | 123 => ⟨S512x3, .f32⟩
  | 124 => ⟨S512, .i32⟩
  | 125 => ⟨S512, .i32⟩
  | 126 => ⟨S512x1, .f32⟩
  | 127 => ⟨S512, .f32⟩
  | _ => ⟨S6400000x3, .f32⟩

abbrev hbmTy0_1 (i : Nat) : BufTy := match i % 128 with
  | 0 => ⟨S_, .f32⟩
  | 1 => ⟨S512, .f32⟩
  | 2 => ⟨S512, .i1⟩
  | 3 => ⟨S512x1, .f32⟩
  | 4 => ⟨S512, .f32⟩
  | 5 => ⟨S_, .i32⟩
  | 6 => ⟨S_, .f32⟩
  | 7 => ⟨S512, .f32⟩
  | 8 => ⟨S512, .f32⟩
  | 9 => ⟨S512x1, .f32⟩
  | 10 => ⟨S512, .f32⟩
  | 11 => ⟨S_, .f32⟩
  | 12 => ⟨S512, .f32⟩
  | 13 => ⟨S512, .i1⟩
  | 14 => ⟨S512x1, .f32⟩
  | 15 => ⟨S512, .f32⟩
  | 16 => ⟨S512, .f32⟩
  | 17 => ⟨S_, .i32⟩
  | 18 => ⟨S_, .f32⟩
  | 19 => ⟨S512, .f32⟩
  | 20 => ⟨S512, .f32⟩
  | 21 => ⟨S512x1, .f32⟩
  | 22 => ⟨S512, .f32⟩
  | 23 => ⟨S512x1, .f32⟩
  | 24 => ⟨S512, .f32⟩
  | 25 => ⟨S512, .f32⟩
  | 26 => ⟨S512, .f32⟩
  | 27 => ⟨S512x1, .f32⟩
  | 28 => ⟨S512, .f32⟩
  | 29 => ⟨S512, .f32⟩
  | 30 => ⟨S512, .f32⟩
  | 31 => ⟨S512x1, .f32⟩
  | 32 => ⟨S512, .f32⟩
  | 33 => ⟨S512, .f32⟩
  | 34 => ⟨S512, .f32⟩
  | 35 => ⟨S512, .f32⟩
  | 36 => ⟨S512x1, .f32⟩
  | 37 => ⟨S512x6, .f32⟩
  | 38 => ⟨S512x6, .f32⟩
  | _ => ⟨S6400000x3, .f32⟩

abbrev hbmTy (i : Nat) : BufTy := match i / 128 with
  | 0 => hbmTy0_0 i
  | 1 => hbmTy0_1 i
  | _ => ⟨S6400000x3, .f32⟩

abbrev bufTy : (tb : Table) → Fin (tcTables nBuf tb) → BufTy
  | .hbm, ⟨i, _⟩ => hbmTy i
  | .local _ .vmem, ⟨0, _⟩ => ⟨S10000x3, .f32⟩
  | .local _ .vmem, ⟨1, _⟩ => ⟨S10000x3, .f32⟩
  | .local _ .vmem, ⟨2, _⟩ => ⟨S10000x3, .f32⟩
  | .local _ .vmem, ⟨3, _⟩ => ⟨S10000x3, .f32⟩
  | .local _ .vmem, ⟨4, _⟩ => ⟨S10000x9, .f32⟩
  | .local _ .vmem, ⟨5, _⟩ => ⟨S10000x9, .f32⟩
  | _, _ => ⟨S6400000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_call0_v0 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_v15 : Ref sig .tc := ⟨.hbm, 41, rfl⟩
abbrev main_call0_v16 : Ref sig .tc := ⟨.hbm, 42, rfl⟩
abbrev main_call0_v17 : Ref sig .tc := ⟨.hbm, 43, rfl⟩
abbrev main_call0_call1_v0 : Ref sig .tc := ⟨.hbm, 44, rfl⟩
abbrev main_call0_v18 : Ref sig .tc := ⟨.hbm, 45, rfl⟩
abbrev main_call0_v19 : Ref sig .tc := ⟨.hbm, 46, rfl⟩
abbrev main_call0_v20 : Ref sig .tc := ⟨.hbm, 47, rfl⟩
abbrev main_call0_c : Ref sig .tc := ⟨.hbm, 48, rfl⟩
abbrev main_call0_c_0 : Ref sig .tc := ⟨.hbm, 49, rfl⟩
abbrev main_call0_call2_v0 : Ref sig .tc := ⟨.hbm, 50, rfl⟩
abbrev main_call0_call2_v1 : Ref sig .tc := ⟨.hbm, 51, rfl⟩
abbrev main_call0_v21 : Ref sig .tc := ⟨.hbm, 52, rfl⟩
abbrev main_call0_v22 : Ref sig .tc := ⟨.hbm, 53, rfl⟩
abbrev main_call0_v23 : Ref sig .tc := ⟨.hbm, 54, rfl⟩
abbrev main_call0_v24 : Ref sig .tc := ⟨.hbm, 55, rfl⟩
abbrev main_call0_v25 : Ref sig .tc := ⟨.hbm, 56, rfl⟩
abbrev main_call0_v26 : Ref sig .tc := ⟨.hbm, 57, rfl⟩
abbrev main_call0_v27 : Ref sig .tc := ⟨.hbm, 58, rfl⟩
abbrev main_call0_v28 : Ref sig .tc := ⟨.hbm, 59, rfl⟩
abbrev main_call0_v29 : Ref sig .tc := ⟨.hbm, 60, rfl⟩
abbrev main_call0_call3_v0 : Ref sig .tc := ⟨.hbm, 61, rfl⟩
abbrev main_call0_v30 : Ref sig .tc := ⟨.hbm, 62, rfl⟩
abbrev main_call0_v31 : Ref sig .tc := ⟨.hbm, 63, rfl⟩
abbrev main_call0_call4_v0 : Ref sig .tc := ⟨.hbm, 64, rfl⟩
abbrev main_call0_v32 : Ref sig .tc := ⟨.hbm, 65, rfl⟩
abbrev main_call0_v33 : Ref sig .tc := ⟨.hbm, 66, rfl⟩
abbrev main_call0_v34 : Ref sig .tc := ⟨.hbm, 67, rfl⟩
abbrev main_call0_v35 : Ref sig .tc := ⟨.hbm, 68, rfl⟩
abbrev main_call0_v36 : Ref sig .tc := ⟨.hbm, 69, rfl⟩
abbrev main_call0_cst : Ref sig .tc := ⟨.hbm, 70, rfl⟩
abbrev main_call0_v37 : Ref sig .tc := ⟨.hbm, 71, rfl⟩
abbrev main_call0_v38 : Ref sig .tc := ⟨.hbm, 72, rfl⟩
abbrev main_call0_v39 : Ref sig .tc := ⟨.hbm, 73, rfl⟩
abbrev main_call0_v40 : Ref sig .tc := ⟨.hbm, 74, rfl⟩
abbrev main_call0_c_1 : Ref sig .tc := ⟨.hbm, 75, rfl⟩
abbrev main_call0_call6_v0 : Ref sig .tc := ⟨.hbm, 76, rfl⟩
abbrev main_call0_call6_v1 : Ref sig .tc := ⟨.hbm, 77, rfl⟩
abbrev main_call0_v41 : Ref sig .tc := ⟨.hbm, 78, rfl⟩
abbrev main_call0_v42 : Ref sig .tc := ⟨.hbm, 79, rfl⟩
abbrev main_call0_v43 : Ref sig .tc := ⟨.hbm, 80, rfl⟩
abbrev main_call0_cst_2 : Ref sig .tc := ⟨.hbm, 81, rfl⟩
abbrev main_call0_v44 : Ref sig .tc := ⟨.hbm, 82, rfl⟩
abbrev main_call0_v45 : Ref sig .tc := ⟨.hbm, 83, rfl⟩
abbrev main_call0_v46 : Ref sig .tc := ⟨.hbm, 84, rfl⟩
abbrev main_call0_v47 : Ref sig .tc := ⟨.hbm, 85, rfl⟩
abbrev main_call0_v48 : Ref sig .tc := ⟨.hbm, 86, rfl⟩
abbrev main_call0_c_3 : Ref sig .tc := ⟨.hbm, 87, rfl⟩
abbrev main_call0_call7_v0 : Ref sig .tc := ⟨.hbm, 88, rfl⟩
abbrev main_call0_call7_v1 : Ref sig .tc := ⟨.hbm, 89, rfl⟩
abbrev main_call0_v49 : Ref sig .tc := ⟨.hbm, 90, rfl⟩
abbrev main_call0_v50 : Ref sig .tc := ⟨.hbm, 91, rfl⟩
abbrev main_call0_v51 : Ref sig .tc := ⟨.hbm, 92, rfl⟩
abbrev main_call0_cst_4 : Ref sig .tc := ⟨.hbm, 93, rfl⟩
abbrev main_call0_v52 : Ref sig .tc := ⟨.hbm, 94, rfl⟩
abbrev main_call0_v53 : Ref sig .tc := ⟨.hbm, 95, rfl⟩
abbrev main_call0_v54 : Ref sig .tc := ⟨.hbm, 96, rfl⟩
abbrev main_call0_v55 : Ref sig .tc := ⟨.hbm, 97, rfl⟩
abbrev main_call0_v56 : Ref sig .tc := ⟨.hbm, 98, rfl⟩
abbrev main_call0_c_5 : Ref sig .tc := ⟨.hbm, 99, rfl⟩
abbrev main_call0_call8_v0 : Ref sig .tc := ⟨.hbm, 100, rfl⟩
abbrev main_call0_call8_v1 : Ref sig .tc := ⟨.hbm, 101, rfl⟩
abbrev main_call0_v57 : Ref sig .tc := ⟨.hbm, 102, rfl⟩
abbrev main_call0_v58 : Ref sig .tc := ⟨.hbm, 103, rfl⟩
abbrev main_call0_v59 : Ref sig .tc := ⟨.hbm, 104, rfl⟩
abbrev main_call0_v60 : Ref sig .tc := ⟨.hbm, 105, rfl⟩
abbrev main_call0_v61 : Ref sig .tc := ⟨.hbm, 106, rfl⟩
abbrev main_call0_v62 : Ref sig .tc := ⟨.hbm, 107, rfl⟩
abbrev main_call0_v63 : Ref sig .tc := ⟨.hbm, 108, rfl⟩
abbrev main_call0_v64 : Ref sig .tc := ⟨.hbm, 109, rfl⟩
abbrev main_call0_v65 : Ref sig .tc := ⟨.hbm, 110, rfl⟩
abbrev main_call0_v66 : Ref sig .tc := ⟨.hbm, 111, rfl⟩
abbrev main_call0_v67 : Ref sig .tc := ⟨.hbm, 112, rfl⟩
abbrev main_call0_v68 : Ref sig .tc := ⟨.hbm, 113, rfl⟩
abbrev main_call0_v69 : Ref sig .tc := ⟨.hbm, 114, rfl⟩
abbrev main_call0_v70 : Ref sig .tc := ⟨.hbm, 115, rfl⟩
abbrev main_call0_v71 : Ref sig .tc := ⟨.hbm, 116, rfl⟩
abbrev main_call0_v72 : Ref sig .tc := ⟨.hbm, 117, rfl⟩
abbrev main_call0_v73 : Ref sig .tc := ⟨.hbm, 118, rfl⟩
abbrev main_call0_call9_v0 : Ref sig .tc := ⟨.hbm, 119, rfl⟩
abbrev main_call0_v74 : Ref sig .tc := ⟨.hbm, 120, rfl⟩
abbrev main_call0_v75 : Ref sig .tc := ⟨.hbm, 121, rfl⟩
abbrev main_call0_call10_v0 : Ref sig .tc := ⟨.hbm, 122, rfl⟩
abbrev main_call0_v76 : Ref sig .tc := ⟨.hbm, 123, rfl⟩
abbrev main_call0_v77 : Ref sig .tc := ⟨.hbm, 124, rfl⟩
abbrev main_call0_v78 : Ref sig .tc := ⟨.hbm, 125, rfl⟩
abbrev main_call0_v79 : Ref sig .tc := ⟨.hbm, 126, rfl⟩
abbrev main_call0_v80 : Ref sig .tc := ⟨.hbm, 127, rfl⟩
abbrev main_call0_cst_6 : Ref sig .tc := ⟨.hbm, 128, rfl⟩
abbrev main_call0_v81 : Ref sig .tc := ⟨.hbm, 129, rfl⟩
abbrev main_call0_v82 : Ref sig .tc := ⟨.hbm, 130, rfl⟩
abbrev main_call0_v83 : Ref sig .tc := ⟨.hbm, 131, rfl⟩
abbrev main_call0_v84 : Ref sig .tc := ⟨.hbm, 132, rfl⟩
abbrev main_call0_c_7 : Ref sig .tc := ⟨.hbm, 133, rfl⟩
abbrev main_call0_call12_v0 : Ref sig .tc := ⟨.hbm, 134, rfl⟩
abbrev main_call0_call12_v1 : Ref sig .tc := ⟨.hbm, 135, rfl⟩
abbrev main_call0_v85 : Ref sig .tc := ⟨.hbm, 136, rfl⟩
abbrev main_call0_v86 : Ref sig .tc := ⟨.hbm, 137, rfl⟩
abbrev main_call0_v87 : Ref sig .tc := ⟨.hbm, 138, rfl⟩
abbrev main_call0_cst_8 : Ref sig .tc := ⟨.hbm, 139, rfl⟩
abbrev main_call0_v88 : Ref sig .tc := ⟨.hbm, 140, rfl⟩
abbrev main_call0_v89 : Ref sig .tc := ⟨.hbm, 141, rfl⟩
abbrev main_call0_v90 : Ref sig .tc := ⟨.hbm, 142, rfl⟩
abbrev main_call0_v91 : Ref sig .tc := ⟨.hbm, 143, rfl⟩
abbrev main_call0_v92 : Ref sig .tc := ⟨.hbm, 144, rfl⟩
abbrev main_call0_c_9 : Ref sig .tc := ⟨.hbm, 145, rfl⟩
abbrev main_call0_call13_v0 : Ref sig .tc := ⟨.hbm, 146, rfl⟩
abbrev main_call0_call13_v1 : Ref sig .tc := ⟨.hbm, 147, rfl⟩
abbrev main_call0_v93 : Ref sig .tc := ⟨.hbm, 148, rfl⟩
abbrev main_call0_v94 : Ref sig .tc := ⟨.hbm, 149, rfl⟩
abbrev main_call0_v95 : Ref sig .tc := ⟨.hbm, 150, rfl⟩
abbrev main_call0_v96 : Ref sig .tc := ⟨.hbm, 151, rfl⟩
abbrev main_call0_v97 : Ref sig .tc := ⟨.hbm, 152, rfl⟩
abbrev main_call0_v98 : Ref sig .tc := ⟨.hbm, 153, rfl⟩
abbrev main_call0_v99 : Ref sig .tc := ⟨.hbm, 154, rfl⟩
abbrev main_call0_v100 : Ref sig .tc := ⟨.hbm, 155, rfl⟩
abbrev main_call0_v101 : Ref sig .tc := ⟨.hbm, 156, rfl⟩
abbrev main_call0_v102 : Ref sig .tc := ⟨.hbm, 157, rfl⟩
abbrev main_call0_v103 : Ref sig .tc := ⟨.hbm, 158, rfl⟩
abbrev main_call0_v104 : Ref sig .tc := ⟨.hbm, 159, rfl⟩
abbrev main_call0_v105 : Ref sig .tc := ⟨.hbm, 160, rfl⟩
abbrev main_call0_v106 : Ref sig .tc := ⟨.hbm, 161, rfl⟩
abbrev main_v17 : Ref sig .tc := ⟨.hbm, 162, rfl⟩
abbrev main_v18 : Ref sig .tc := ⟨.hbm, 163, rfl⟩
abbrev main_v19 : Ref sig .tc := ⟨.hbm, 164, rfl⟩
abbrev main_v20 : Ref sig .tc := ⟨.hbm, 165, rfl⟩
abbrev main_v21 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![640], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x3_S10000x3_0_0 : ∀ a, (![0, 0] : Fin 2 → Nat) a + S10000x3.size a ≤ S10000x3.size a
  h_S10000x3 : 0 < S10000x3.numel
  slices_S10000x3_o0_1_S10000x1 : S10000x3.Slices ![0, 1] S10000x1
  shapeCasts_S10000x1_S10000 : S10000x1.ShapeCasts S10000
  slices_S10000x3_o0_2_S10000x1 : S10000x3.Slices ![0, 2] S10000x1
  shapeCasts_S10000_S10000x1 : S10000.ShapeCasts S10000x1
  slices_S10000x3_o0_0_S10000x1 : S10000x3.Slices ![0, 0] S10000x1
  concatenates_S10000x3_S10000x1_S10000x1_S10000x1_S10000x6_d1 : Shape.Concatenates [S10000x3, S10000x1, S10000x1, S10000x1] S10000x6 1
  concatenates_S10000x3_S10000x6_S10000x9_d1 : Shape.Concatenates [S10000x3, S10000x6] S10000x9 1
  inb_S10000x9_S10000x9_0_0 : ∀ a, (![0, 0] : Fin 2 → Nat) a + S10000x9.size a ≤ S10000x9.size a
  h_S10000x9 : 0 < S10000x9.numel
  slices_S2x6400000_S1x6400000_1_0 : S2x6400000.Slices ![1, 0] S1x6400000
  shapeCasts_S1x6400000_S6400000 : S1x6400000.ShapeCasts S6400000
  bcast_S_S100000x9 : S_.BroadcastsInDim S100000x9 (![] : Fin 0 → Fin S100000x9.rank)
  bcast_S6400000_S6400000x1_0 : S6400000.BroadcastsInDim S6400000x1 (![0] : Fin 1 → Fin S6400000x1.rank)
  slices_S100000x9_S100000x3_0_0 : S100000x9.Slices ![0, 0] S100000x3
  slices_S100000x9_S100000x6_0_3 : S100000x9.Slices ![0, 3] S100000x6
  slices_S2x6400000_S1x6400000_0_0 : S2x6400000.Slices ![0, 0] S1x6400000
  bcast_S_S100000x3 : S_.BroadcastsInDim S100000x3 (![] : Fin 0 → Fin S100000x3.rank)
  bcast_S_S512x6 : S_.BroadcastsInDim S512x6 (![] : Fin 0 → Fin S512x6.rank)
  bcast_S100000_S100000x1_0 : S100000.BroadcastsInDim S100000x1 (![0] : Fin 1 → Fin S100000x1.rank)
  slices_S512x3x3_S512x1x1_0_1_0 : S512x3x3.Slices ![0, 1, 0] S512x1x1
  shapeCasts_S512x1x1_S512 : S512x1x1.ShapeCasts S512
  slices_S512x3x3_S512x1x1_0_0_0 : S512x3x3.Slices ![0, 0, 0] S512x1x1
  bcast_S512_S512x1_0 : S512.BroadcastsInDim S512x1 (![0] : Fin 1 → Fin S512x1.rank)
  slices_S512x3x3_S512x1x3_0_1_0 : S512x3x3.Slices ![0, 1, 0] S512x1x3
  shapeCasts_S512x1x3_S512x3 : S512x1x3.ShapeCasts S512x3
  slices_S512x3x3_S512x1x3_0_0_0 : S512x3x3.Slices ![0, 0, 0] S512x1x3
  bcast_S512x1_S512x3_0_1 : S512x1.BroadcastsInDim S512x3 (![0, 1] : Fin 2 → Fin S512x3.rank)
  slices_S512x3x3_S512x1x3_0_2_0 : S512x3x3.Slices ![0, 2, 0] S512x1x3
  bcast_S_S512 : S_.BroadcastsInDim S512 (![] : Fin 0 → Fin S512.rank)
  slices_S512x3_S512x1_0_0 : S512x3.Slices ![0, 0] S512x1
  shapeCasts_S512x1_S512 : S512x1.ShapeCasts S512
  slices_S512x3_S512x1_0_1 : S512x3.Slices ![0, 1] S512x1
  slices_S512x3_S512x1_0_2 : S512x3.Slices ![0, 2] S512x1
  bcast_S512x1_S512x6_0_1 : S512x1.BroadcastsInDim S512x6 (![0, 1] : Fin 2 → Fin S512x6.rank)
  scatter_S100000x9_S6400000x1_S6400000x9_1_0_0_1_wf : ScatterDims.WF S100000x9 S6400000x1 S6400000x9 [1] [0] [0] 1
  scatter_S100000x3_S6400000x1_S6400000x3_1_0_0_1_wf : ScatterDims.WF S100000x3 S6400000x1 S6400000x3 [1] [0] [0] 1
  scatter_S512x6_S100000x1_S100000x6_1_0_0_1_wf : ScatterDims.WF S512x6 S100000x1 S100000x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S6400000x3.size a
  hwx0_0 : ∀ i : grid0.Coords, EltTy.bits .f32 = 32 ∨ (Rect.block (s := S6400000x3) S10000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x3.size a ≤ S6400000x3.size a
  hwx0_1 : ∀ i : grid0.Coords, EltTy.bits .f32 = 32 ∨ (Rect.block (s := S6400000x3) S10000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x9.size a ≤ S6400000x9.size a
  hwx0_2 : ∀ i : grid0.Coords, EltTy.bits .f32 = 32 ∨ (Rect.block (s := S6400000x9) S10000x9.size (cc0_transform_2 i) (hinb0_2 i)).WholeWords (EltTy.packing .f32)

variable [Facts₀]

def scatter_S100000x9_S6400000x1_S6400000x9_1_0_0_1 : ScatterDims S100000x9 S6400000x1 S6400000x9 where
  updateWindowDims := [1]
  insertedWindowDims := [0]
  scatterDimsToOperandDims := [0]
  indexVectorDim := 1
  wf := scatter_S100000x9_S6400000x1_S6400000x9_1_0_0_1_wf
def scatter_S100000x3_S6400000x1_S6400000x3_1_0_0_1 : ScatterDims S100000x3 S6400000x1 S6400000x3 where
  updateWindowDims := [1]
  insertedWindowDims := [0]
  scatterDimsToOperandDims := [0]
  indexVectorDim := 1
  wf := scatter_S100000x3_S6400000x1_S6400000x3_1_0_0_1_wf
def scatter_S512x6_S100000x1_S100000x6_1_0_0_1 : ScatterDims S512x6 S100000x1 S100000x6 where
  updateWindowDims := [1]
  insertedWindowDims := [0]
  scatterDimsToOperandDims := [0]
  indexVectorDim := 1
  wf := scatter_S512x6_S100000x1_S100000x6_1_0_0_1_wf

abbrev win0_0 : Pipeline.Window sig grid0 :=
  Pipeline.Window.ofSpec (Memref.whole main_arg1) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S6400000x3 : Shape := ⟨2, ![6400000, 3]⟩
abbrev S2x6400000 : Shape := ⟨2, ![2, 6400000]⟩
abbrev S100000 : Shape := ⟨1, ![100000]⟩
abbrev S512x3x3 : Shape := ⟨3, ![512, 3, 3]⟩
abbrev S1x6400000 : Shape := ⟨2, ![1, 6400000]⟩
abbrev S6400000 : Shape := ⟨1, ![6400000]⟩
abbrev S_ : Shape := ⟨0, ![]⟩
abbrev S100000x3 : Shape := ⟨2, ![100000, 3]⟩
abbrev S6400000x1 : Shape := ⟨2, ![6400000, 1]⟩
abbrev S6400000x6 : Shape := ⟨2, ![6400000, 6]⟩
abbrev S100000x6 : Shape := ⟨2, ![100000, 6]⟩
abbrev S512x6 : Shape := ⟨2, ![512, 6]⟩
abbrev S100000x1 : Shape := ⟨2, ![100000, 1]⟩
abbrev S512x1x1 : Shape := ⟨3, ![512, 1, 1]⟩
abbrev S512 : Shape := ⟨1, ![512]⟩
abbrev S512x1 : Shape := ⟨2, ![512, 1]⟩
abbrev S512x1x3 : Shape := ⟨3, ![512, 1, 3]⟩
abbrev S512x3 : Shape := ⟨2, ![512, 3]⟩

abbrev nBuf : Space → Nat
  | .hbm => 190
  | .vmem => 0
  | .smem => 0
  | _ => 0

abbrev hbmTy0_0 (i : Nat) : BufTy := match i % 128 with
  | 0 => ⟨S6400000x3, .f32⟩
  | 1 => ⟨S6400000x3, .f32⟩
  | 2 => ⟨S2x6400000, .i32⟩
  | 3 => ⟨S100000, .i32⟩
  | 4 => ⟨S512x3x3, .f32⟩
  | 5 => ⟨S1x6400000, .i32⟩
  | 6 => ⟨S6400000, .i32⟩
  | 7 => ⟨S_, .f32⟩
  | 8 => ⟨S100000x3, .f32⟩
  | 9 => ⟨S6400000x1, .i32⟩
  | 10 => ⟨S100000x3, .f32⟩
  | 11 => ⟨S1x6400000, .i32⟩
  | 12 => ⟨S6400000, .i32⟩
  | 13 => ⟨S_, .f32⟩
  | 14 => ⟨S100000x3, .f32⟩
  | 15 => ⟨S6400000x1, .i32⟩
  | 16 => ⟨S100000x3, .f32⟩
  | 17 => ⟨S100000x3, .f32⟩
  | 18 => ⟨S6400000x3, .f32⟩
  | 19 => ⟨S6400000x1, .f32⟩
  | 20 => ⟨S6400000, .f32⟩
  | 21 => ⟨S6400000x1, .f32⟩
  | 22 => ⟨S6400000, .f32⟩
  | 23 => ⟨S6400000, .f32⟩
  | 24 => ⟨S6400000x1, .f32⟩
  | 25 => ⟨S6400000, .f32⟩
  | 26 => ⟨S6400000x1, .f32⟩
  | 27 => ⟨S6400000, .f32⟩
  | 28 => ⟨S6400000, .f32⟩
  | 29 => ⟨S6400000x1, .f32⟩
  | 30 => ⟨S6400000, .f32⟩
  | 31 => ⟨S6400000x1, .f32⟩
  | 32 => ⟨S6400000, .f32⟩
  | 33 => ⟨S6400000, .f32⟩
  | 34 => ⟨S6400000x1, .f32⟩
  | 35 => ⟨S6400000x1, .f32⟩
  | 36 => ⟨S6400000x1, .f32⟩
  | 37 => ⟨S6400000x6, .f32⟩
  | 38 => ⟨S1x6400000, .i32⟩
  | 39 => ⟨S6400000, .i32⟩
  | 40 => ⟨S_, .f32⟩
  | 41 => ⟨S100000x6, .f32⟩
  | 42 => ⟨S6400000x1, .i32⟩
  | 43 => ⟨S100000x6, .f32⟩
  | 44 => ⟨S_, .f32⟩
  | 45 => ⟨S512x6, .f32⟩
  | 46 => ⟨S100000x1, .i32⟩
  | 47 => ⟨S512x6, .f32⟩
  | 48 => ⟨S512x1x1, .f32⟩
  | 49 => ⟨S512, .f32⟩
  | 50 => ⟨S512, .f32⟩
  | 51 => ⟨S512x1x1, .f32⟩
  | 52 => ⟨S512, .f32⟩
  | 53 => ⟨S512, .f32⟩
  | 54 => ⟨S512, .i1⟩
  | 55 => ⟨S512x1, .i1⟩
  | 56 => ⟨S512x1x3, .f32⟩
  | 57 => ⟨S512x3, .f32⟩
  | 58 => ⟨S512x1x3, .f32⟩
  | 59 => ⟨S512x3, .f32⟩
  | 60 => ⟨S512x3, .i1⟩
  | 61 => ⟨S512x3, .f32⟩
  | 62 => ⟨S512x1, .i1⟩
  | 63 => ⟨S512x1x3, .f32⟩
  | 64 => ⟨S512x3, .f32⟩
  | 65 => ⟨S512x1x3, .f32⟩
  | 66 => ⟨S512x3, .f32⟩
  | 67 => ⟨S512x3, .i1⟩
  | 68 => ⟨S512x3, .f32⟩
  | 69 => ⟨S512x1x3, .f32⟩
  | 70 => ⟨S512x3, .f32⟩
  | 71 => ⟨S_, .i32⟩
  | 72 => ⟨S_, .i32⟩
  | 73 => ⟨S512, .i32⟩
  | 74 => ⟨S512, .i32⟩
  | 75 => ⟨S512, .i32⟩
  | 76 => ⟨S512x1, .f32⟩
  | 77 => ⟨S512, .f32⟩
  | 78 => ⟨S512, .f32⟩
  | 79 => ⟨S512x1, .f32⟩
  | 80 => ⟨S512, .f32⟩
  | 81 => ⟨S512, .f32⟩
  | 82 => ⟨S512, .i1⟩
  | 83 => ⟨S512x1, .i1⟩
  | 84 => ⟨S512x3, .i1⟩
  | 85 => ⟨S512x3, .f32⟩
  | 86 => ⟨S512x1, .i1⟩
  | 87 => ⟨S512x3, .i1⟩
  | 88 => ⟨S512x3, .f32⟩
  | 89 => ⟨S512, .i32⟩
  | 90 => ⟨S512, .i32⟩
  | 91 => ⟨S512x1, .f32⟩
  | 92 => ⟨S512, .f32⟩
  | 93 => ⟨S_, .f32⟩
  | 94 => ⟨S512, .f32⟩
  | 95 => ⟨S512, .i1⟩
  | 96 => ⟨S512x1, .f32⟩
  | 97 => ⟨S512, .f32⟩
  | 98 => ⟨S_, .i32⟩
  | 99 => ⟨S_, .f32⟩
  | 100 => ⟨S512, .f32⟩
  | 101 => ⟨S512, .f32⟩
  | 102 => ⟨S512x1, .f32⟩
  | 103 => ⟨S512, .f32⟩
  | 104 => ⟨S_, .f32⟩
  | 105 => ⟨S512, .f32⟩
  | 106 => ⟨S512, .i1⟩
  | 107 => ⟨S512x1, .f32⟩
  | 108 => ⟨S512, .f32⟩
  | 109 => ⟨S512, .f32⟩
  | 110 => ⟨S_, .i32⟩
  | 111 => ⟨S_, .f32⟩
  | 112 => ⟨S512, .f32⟩
  | 113 => ⟨S512, .f32⟩
  | 114 => ⟨S512x1, .f32⟩
  | 115 => ⟨S512, .f32⟩
  | 116 => ⟨S_, .f32⟩
  | 117 => ⟨S512, .f32⟩
  | 118 => ⟨S512, .i1⟩
  | 119 => ⟨S512x1, .f32⟩
  | 120 => ⟨S512, .f32⟩
  | 121 => ⟨S512, .f32⟩
  | 122 => ⟨S_, .i32⟩
  | 123 => ⟨S_, .f32⟩
  | 124 => ⟨S512, .f32⟩
  | 125 => ⟨S512, .f32⟩
  | 126 => ⟨S512x1, .f32⟩
  | 127 => ⟨S512x3, .f32⟩
  | _ => ⟨S6400000x3, .f32⟩

abbrev hbmTy0_1 (i : Nat) : BufTy := match i % 128 with
  | 0 => ⟨S512x3, .f32⟩
  | 1 => ⟨S512x3, .f32⟩
  | 2 => ⟨S512x1, .f32⟩
  | 3 => ⟨S512x3, .f32⟩
  | 4 => ⟨S512x3, .f32⟩
  | 5 => ⟨S512x3, .f32⟩
  | 6 => ⟨S512x1, .f32⟩
  | 7 => ⟨S512, .f32⟩
  | 8 => ⟨S512, .f32⟩
  | 9 => ⟨S512x1, .f32⟩
  | 10 => ⟨S512, .f32⟩
  | 11 => ⟨S512, .f32⟩
  | 12 => ⟨S512, .i1⟩
  | 13 => ⟨S512x1, .i1⟩
  | 14 => ⟨S512x3, .i1⟩
  | 15 => ⟨S512x3, .f32⟩
  | 16 => ⟨S512x1, .i1⟩
  | 17 => ⟨S512x3, .i1⟩
  | 18 => ⟨S512x3, .f32⟩
  | 19 => ⟨S512, .i32⟩
  | 20 => ⟨S512, .i32⟩
  | 21 => ⟨S512x1, .f32⟩
  | 22 => ⟨S512, .f32⟩
  | 23 => ⟨S_, .f32⟩
  | 24 => ⟨S512, .f32⟩
  | 25 => ⟨S512, .i1⟩
  | 26 => ⟨S512x1, .f32⟩
  | 27 => ⟨S512, .f32⟩
  | 28 => ⟨S_, .i32⟩
  | 29 => ⟨S_, .f32⟩
  | 30 => ⟨S512, .f32⟩
  | 31 => ⟨S512, .f32⟩
  | 32 => ⟨S512x1, .f32⟩
  | 33 => ⟨S512, .f32⟩
  | 34 => ⟨S_, .f32⟩
  | 35 => ⟨S512, .f32⟩
  | 36 => ⟨S512, .i1⟩
  | 37 => ⟨S512x1, .f32⟩
  | 38 => ⟨S512, .f32⟩
  | 39 => ⟨S512, .f32⟩
  | 40 => ⟨S_, .i32⟩
  | 41 => ⟨S_, .f32⟩
  | 42 => ⟨S512, .f32⟩
  | 43 => ⟨S512, .f32⟩
  | 44 => ⟨S512x1, .f32⟩
  | 45 => ⟨S512, .f32⟩
  | 46 => ⟨S512x1, .f32⟩
  | 47 => ⟨S512, .f32⟩
  | 48 => ⟨S512, .f32⟩
  | 49 => ⟨S512, .f32⟩
  | 50 => ⟨S512x1, .f32⟩
  | 51 => ⟨S512, .f32⟩
  | 52 => ⟨S512, .f32⟩
  | 53 => ⟨S512, .f32⟩
  | 54 => ⟨S512x1, .f32⟩
  | 55 => ⟨S512, .f32⟩
  | 56 => ⟨S512, .f32⟩
  | 57 => ⟨S512, .f32⟩
  | 58 => ⟨S512, .f32⟩
  | 59 => ⟨S512x1, .f32⟩
  | 60 => ⟨S512x6, .f32⟩
  | 61 => ⟨S512x6, .f32⟩
  | _ => ⟨S6400000x3, .f32⟩

abbrev hbmTy (i : Nat) : BufTy := match i / 128 with
  | 0 => hbmTy0_0 i
  | 1 => hbmTy0_1 i
  | _ => ⟨S6400000x3, .f32⟩

abbrev bufTy : (tb : Table) → Fin (tcTables nBuf tb) → BufTy
  | .hbm, ⟨i, _⟩ => hbmTy i
  | _, _ => ⟨S6400000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_call0_v0 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_v15 : Ref sig .tc := ⟨.hbm, 64, rfl⟩
abbrev main_call0_v16 : Ref sig .tc := ⟨.hbm, 65, rfl⟩
abbrev main_call0_v17 : Ref sig .tc := ⟨.hbm, 66, rfl⟩
abbrev main_call0_call1_v0 : Ref sig .tc := ⟨.hbm, 67, rfl⟩
abbrev main_call0_v18 : Ref sig .tc := ⟨.hbm, 68, rfl⟩
abbrev main_call0_v19 : Ref sig .tc := ⟨.hbm, 69, rfl⟩
abbrev main_call0_v20 : Ref sig .tc := ⟨.hbm, 70, rfl⟩
abbrev main_call0_c : Ref sig .tc := ⟨.hbm, 71, rfl⟩
abbrev main_call0_c_0 : Ref sig .tc := ⟨.hbm, 72, rfl⟩
abbrev main_call0_call2_v0 : Ref sig .tc := ⟨.hbm, 73, rfl⟩
abbrev main_call0_call2_v1 : Ref sig .tc := ⟨.hbm, 74, rfl⟩
abbrev main_call0_v21 : Ref sig .tc := ⟨.hbm, 75, rfl⟩
abbrev main_call0_v22 : Ref sig .tc := ⟨.hbm, 76, rfl⟩
abbrev main_call0_v23 : Ref sig .tc := ⟨.hbm, 77, rfl⟩
abbrev main_call0_v24 : Ref sig .tc := ⟨.hbm, 78, rfl⟩
abbrev main_call0_v25 : Ref sig .tc := ⟨.hbm, 79, rfl⟩
abbrev main_call0_v26 : Ref sig .tc := ⟨.hbm, 80, rfl⟩
abbrev main_call0_v27 : Ref sig .tc := ⟨.hbm, 81, rfl⟩
abbrev main_call0_v28 : Ref sig .tc := ⟨.hbm, 82, rfl⟩
abbrev main_call0_v29 : Ref sig .tc := ⟨.hbm, 83, rfl⟩
abbrev main_call0_call3_v0 : Ref sig .tc := ⟨.hbm, 84, rfl⟩
abbrev main_call0_v30 : Ref sig .tc := ⟨.hbm, 85, rfl⟩
abbrev main_call0_v31 : Ref sig .tc := ⟨.hbm, 86, rfl⟩
abbrev main_call0_call4_v0 : Ref sig .tc := ⟨.hbm, 87, rfl⟩
abbrev main_call0_v32 : Ref sig .tc := ⟨.hbm, 88, rfl⟩
abbrev main_call0_v33 : Ref sig .tc := ⟨.hbm, 89, rfl⟩
abbrev main_call0_v34 : Ref sig .tc := ⟨.hbm, 90, rfl⟩
abbrev main_call0_v35 : Ref sig .tc := ⟨.hbm, 91, rfl⟩
abbrev main_call0_v36 : Ref sig .tc := ⟨.hbm, 92, rfl⟩
abbrev main_call0_cst : Ref sig .tc := ⟨.hbm, 93, rfl⟩
abbrev main_call0_v37 : Ref sig .tc := ⟨.hbm, 94, rfl⟩
abbrev main_call0_v38 : Ref sig .tc := ⟨.hbm, 95, rfl⟩
abbrev main_call0_v39 : Ref sig .tc := ⟨.hbm, 96, rfl⟩
abbrev main_call0_v40 : Ref sig .tc := ⟨.hbm, 97, rfl⟩
abbrev main_call0_c_1 : Ref sig .tc := ⟨.hbm, 98, rfl⟩
abbrev main_call0_call6_v0 : Ref sig .tc := ⟨.hbm, 99, rfl⟩
abbrev main_call0_call6_v1 : Ref sig .tc := ⟨.hbm, 100, rfl⟩
abbrev main_call0_v41 : Ref sig .tc := ⟨.hbm, 101, rfl⟩
abbrev main_call0_v42 : Ref sig .tc := ⟨.hbm, 102, rfl⟩
abbrev main_call0_v43 : Ref sig .tc := ⟨.hbm, 103, rfl⟩
abbrev main_call0_cst_2 : Ref sig .tc := ⟨.hbm, 104, rfl⟩
abbrev main_call0_v44 : Ref sig .tc := ⟨.hbm, 105, rfl⟩
abbrev main_call0_v45 : Ref sig .tc := ⟨.hbm, 106, rfl⟩
abbrev main_call0_v46 : Ref sig .tc := ⟨.hbm, 107, rfl⟩
abbrev main_call0_v47 : Ref sig .tc := ⟨.hbm, 108, rfl⟩
abbrev main_call0_v48 : Ref sig .tc := ⟨.hbm, 109, rfl⟩
abbrev main_call0_c_3 : Ref sig .tc := ⟨.hbm, 110, rfl⟩
abbrev main_call0_call7_v0 : Ref sig .tc := ⟨.hbm, 111, rfl⟩
abbrev main_call0_call7_v1 : Ref sig .tc := ⟨.hbm, 112, rfl⟩
abbrev main_call0_v49 : Ref sig .tc := ⟨.hbm, 113, rfl⟩
abbrev main_call0_v50 : Ref sig .tc := ⟨.hbm, 114, rfl⟩
abbrev main_call0_v51 : Ref sig .tc := ⟨.hbm, 115, rfl⟩
abbrev main_call0_cst_4 : Ref sig .tc := ⟨.hbm, 116, rfl⟩
abbrev main_call0_v52 : Ref sig .tc := ⟨.hbm, 117, rfl⟩
abbrev main_call0_v53 : Ref sig .tc := ⟨.hbm, 118, rfl⟩
abbrev main_call0_v54 : Ref sig .tc := ⟨.hbm, 119, rfl⟩
abbrev main_call0_v55 : Ref sig .tc := ⟨.hbm, 120, rfl⟩
abbrev main_call0_v56 : Ref sig .tc := ⟨.hbm, 121, rfl⟩
abbrev main_call0_c_5 : Ref sig .tc := ⟨.hbm, 122, rfl⟩
abbrev main_call0_call8_v0 : Ref sig .tc := ⟨.hbm, 123, rfl⟩
abbrev main_call0_call8_v1 : Ref sig .tc := ⟨.hbm, 124, rfl⟩
abbrev main_call0_v57 : Ref sig .tc := ⟨.hbm, 125, rfl⟩
abbrev main_call0_v58 : Ref sig .tc := ⟨.hbm, 126, rfl⟩
abbrev main_call0_v59 : Ref sig .tc := ⟨.hbm, 127, rfl⟩
abbrev main_call0_v60 : Ref sig .tc := ⟨.hbm, 128, rfl⟩
abbrev main_call0_v61 : Ref sig .tc := ⟨.hbm, 129, rfl⟩
abbrev main_call0_v62 : Ref sig .tc := ⟨.hbm, 130, rfl⟩
abbrev main_call0_v63 : Ref sig .tc := ⟨.hbm, 131, rfl⟩
abbrev main_call0_v64 : Ref sig .tc := ⟨.hbm, 132, rfl⟩
abbrev main_call0_v65 : Ref sig .tc := ⟨.hbm, 133, rfl⟩
abbrev main_call0_v66 : Ref sig .tc := ⟨.hbm, 134, rfl⟩
abbrev main_call0_v67 : Ref sig .tc := ⟨.hbm, 135, rfl⟩
abbrev main_call0_v68 : Ref sig .tc := ⟨.hbm, 136, rfl⟩
abbrev main_call0_v69 : Ref sig .tc := ⟨.hbm, 137, rfl⟩
abbrev main_call0_v70 : Ref sig .tc := ⟨.hbm, 138, rfl⟩
abbrev main_call0_v71 : Ref sig .tc := ⟨.hbm, 139, rfl⟩
abbrev main_call0_v72 : Ref sig .tc := ⟨.hbm, 140, rfl⟩
abbrev main_call0_v73 : Ref sig .tc := ⟨.hbm, 141, rfl⟩
abbrev main_call0_call9_v0 : Ref sig .tc := ⟨.hbm, 142, rfl⟩
abbrev main_call0_v74 : Ref sig .tc := ⟨.hbm, 143, rfl⟩
abbrev main_call0_v75 : Ref sig .tc := ⟨.hbm, 144, rfl⟩
abbrev main_call0_call10_v0 : Ref sig .tc := ⟨.hbm, 145, rfl⟩
abbrev main_call0_v76 : Ref sig .tc := ⟨.hbm, 146, rfl⟩
abbrev main_call0_v77 : Ref sig .tc := ⟨.hbm, 147, rfl⟩
abbrev main_call0_v78 : Ref sig .tc := ⟨.hbm, 148, rfl⟩
abbrev main_call0_v79 : Ref sig .tc := ⟨.hbm, 149, rfl⟩
abbrev main_call0_v80 : Ref sig .tc := ⟨.hbm, 150, rfl⟩
abbrev main_call0_cst_6 : Ref sig .tc := ⟨.hbm, 151, rfl⟩
abbrev main_call0_v81 : Ref sig .tc := ⟨.hbm, 152, rfl⟩
abbrev main_call0_v82 : Ref sig .tc := ⟨.hbm, 153, rfl⟩
abbrev main_call0_v83 : Ref sig .tc := ⟨.hbm, 154, rfl⟩
abbrev main_call0_v84 : Ref sig .tc := ⟨.hbm, 155, rfl⟩
abbrev main_call0_c_7 : Ref sig .tc := ⟨.hbm, 156, rfl⟩
abbrev main_call0_call12_v0 : Ref sig .tc := ⟨.hbm, 157, rfl⟩
abbrev main_call0_call12_v1 : Ref sig .tc := ⟨.hbm, 158, rfl⟩
abbrev main_call0_v85 : Ref sig .tc := ⟨.hbm, 159, rfl⟩
abbrev main_call0_v86 : Ref sig .tc := ⟨.hbm, 160, rfl⟩
abbrev main_call0_v87 : Ref sig .tc := ⟨.hbm, 161, rfl⟩
abbrev main_call0_cst_8 : Ref sig .tc := ⟨.hbm, 162, rfl⟩
abbrev main_call0_v88 : Ref sig .tc := ⟨.hbm, 163, rfl⟩
abbrev main_call0_v89 : Ref sig .tc := ⟨.hbm, 164, rfl⟩
abbrev main_call0_v90 : Ref sig .tc := ⟨.hbm, 165, rfl⟩
abbrev main_call0_v91 : Ref sig .tc := ⟨.hbm, 166, rfl⟩
abbrev main_call0_v92 : Ref sig .tc := ⟨.hbm, 167, rfl⟩
abbrev main_call0_c_9 : Ref sig .tc := ⟨.hbm, 168, rfl⟩
abbrev main_call0_call13_v0 : Ref sig .tc := ⟨.hbm, 169, rfl⟩
abbrev main_call0_call13_v1 : Ref sig .tc := ⟨.hbm, 170, rfl⟩
abbrev main_call0_v93 : Ref sig .tc := ⟨.hbm, 171, rfl⟩
abbrev main_call0_v94 : Ref sig .tc := ⟨.hbm, 172, rfl⟩
abbrev main_call0_v95 : Ref sig .tc := ⟨.hbm, 173, rfl⟩
abbrev main_call0_v96 : Ref sig .tc := ⟨.hbm, 174, rfl⟩
abbrev main_call0_v97 : Ref sig .tc := ⟨.hbm, 175, rfl⟩
abbrev main_call0_v98 : Ref sig .tc := ⟨.hbm, 176, rfl⟩
abbrev main_call0_v99 : Ref sig .tc := ⟨.hbm, 177, rfl⟩
abbrev main_call0_v100 : Ref sig .tc := ⟨.hbm, 178, rfl⟩
abbrev main_call0_v101 : Ref sig .tc := ⟨.hbm, 179, rfl⟩
abbrev main_call0_v102 : Ref sig .tc := ⟨.hbm, 180, rfl⟩
abbrev main_call0_v103 : Ref sig .tc := ⟨.hbm, 181, rfl⟩
abbrev main_call0_v104 : Ref sig .tc := ⟨.hbm, 182, rfl⟩
abbrev main_call0_v105 : Ref sig .tc := ⟨.hbm, 183, rfl⟩
abbrev main_call0_v106 : Ref sig .tc := ⟨.hbm, 184, rfl⟩
abbrev main_v39 : Ref sig .tc := ⟨.hbm, 185, rfl⟩
abbrev main_v40 : Ref sig .tc := ⟨.hbm, 186, rfl⟩
abbrev main_v41 : Ref sig .tc := ⟨.hbm, 187, rfl⟩
abbrev main_v42 : Ref sig .tc := ⟨.hbm, 188, rfl⟩
abbrev main_v43 : Ref sig .tc := ⟨.hbm, 189, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  bcast_S_S100000x3 : S_.BroadcastsInDim S100000x3 (![] : Fin 0 → Fin S100000x3.rank)
  bcast_S6400000_S6400000x1_0 : S6400000.BroadcastsInDim S6400000x1 (![0] : Fin 1 → Fin S6400000x1.rank)
  slices_S2x6400000_S1x6400000_1_0 : S2x6400000.Slices ![1, 0] S1x6400000
  slices_S6400000x3_S6400000x1_0_0 : S6400000x3.Slices ![0, 0] S6400000x1
  shapeCasts_S6400000x1_S6400000 : S6400000x1.ShapeCasts S6400000
  slices_S6400000x3_S6400000x1_0_1 : S6400000x3.Slices ![0, 1] S6400000x1
  slices_S6400000x3_S6400000x1_0_2 : S6400000x3.Slices ![0, 2] S6400000x1
  concatenates_S6400000x3_S6400000x1_S6400000x1_S6400000x1_S6400000x6_d1 : Shape.Concatenates [S6400000x3, S6400000x1, S6400000x1, S6400000x1] S6400000x6 1
  bcast_S_S100000x6 : S_.BroadcastsInDim S100000x6 (![] : Fin 0 → Fin S100000x6.rank)
  bcast_S_S512x6 : S_.BroadcastsInDim S512x6 (![] : Fin 0 → Fin S512x6.rank)
  bcast_S100000_S100000x1_0 : S100000.BroadcastsInDim S100000x1 (![0] : Fin 1 → Fin S100000x1.rank)
  slices_S512x3x3_S512x1x1_0_1_0 : S512x3x3.Slices ![0, 1, 0] S512x1x1
  shapeCasts_S512x1x1_S512 : S512x1x1.ShapeCasts S512
  slices_S512x3x3_S512x1x1_0_0_0 : S512x3x3.Slices ![0, 0, 0] S512x1x1
  bcast_S512_S512x1_0 : S512.BroadcastsInDim S512x1 (![0] : Fin 1 → Fin S512x1.rank)
  slices_S512x3x3_S512x1x3_0_1_0 : S512x3x3.Slices ![0, 1, 0] S512x1x3
  shapeCasts_S512x1x3_S512x3 : S512x1x3.ShapeCasts S512x3
  slices_S512x3x3_S512x1x3_0_0_0 : S512x3x3.Slices ![0, 0, 0] S512x1x3
  bcast_S512x1_S512x3_0_1 : S512x1.BroadcastsInDim S512x3 (![0, 1] : Fin 2 → Fin S512x3.rank)
  slices_S512x3x3_S512x1x3_0_2_0 : S512x3x3.Slices ![0, 2, 0] S512x1x3
  bcast_S_S512 : S_.BroadcastsInDim S512 (![] : Fin 0 → Fin S512.rank)
  slices_S512x3_S512x1_0_0 : S512x3.Slices ![0, 0] S512x1
  shapeCasts_S512x1_S512 : S512x1.ShapeCasts S512
  slices_S512x3_S512x1_0_1 : S512x3.Slices ![0, 1] S512x1
  slices_S512x3_S512x1_0_2 : S512x3.Slices ![0, 2] S512x1
  bcast_S512x1_S512x6_0_1 : S512x1.BroadcastsInDim S512x6 (![0, 1] : Fin 2 → Fin S512x6.rank)
  scatter_S100000x3_S6400000x1_S6400000x3_1_0_0_1_wf : ScatterDims.WF S100000x3 S6400000x1 S6400000x3 [1] [0] [0] 1
  scatter_S100000x6_S6400000x1_S6400000x6_1_0_0_1_wf : ScatterDims.WF S100000x6 S6400000x1 S6400000x6 [1] [0] [0] 1
  scatter_S512x6_S100000x1_S100000x6_1_0_0_1_wf : ScatterDims.WF S512x6 S100000x1 S100000x6 [1] [0] [0] 1

variable [Facts₀]

def scatter_S100000x3_S6400000x1_S6400000x3_1_0_0_1 : ScatterDims S100000x3 S6400000x1 S6400000x3 where
  updateWindowDims := [1]
  insertedWindowDims := [0]
  scatterDimsToOperandDims := [0]
  indexVectorDim := 1
  wf := scatter_S100000x3_S6400000x1_S6400000x3_1_0_0_1_wf
def scatter_S100000x6_S6400000x1_S6400000x6_1_0_0_1 : ScatterDims S100000x6 S6400000x1 S6400000x6 where
  updateWindowDims := [1]
  insertedWindowDims := [0]
  scatterDimsToOperandDims := [0]
  indexVectorDim := 1
  wf := scatter_S100000x6_S6400000x1_S6400000x6_1_0_0_1_wf
def scatter_S512x6_S100000x1_S100000x6_1_0_0_1 : ScatterDims S512x6 S100000x1 S100000x6 where
  updateWindowDims := [1]
  insertedWindowDims := [0]
  scatterDimsToOperandDims := [0]
  indexVectorDim := 1
  wf := scatter_S512x6_S100000x1_S100000x6_1_0_0_1_wf

class Facts : Prop extends Facts₀ where

variable [Facts]
-- ==== Proof.KernelRun.lean ====
/-
  The run of the word-level kernel program: one pipelined region followed by host lines.

  The region walks the 640 blocks of 10000 edges. At a block it fetches the 10000×3 blocks of the edge vectors and of the
  pair forces, and writes back one 10000×9 block: the forces in columns 0–2, the six virial products in columns 3–8.
  Every block is stored whole, so the output's staging buffer after the body is a function of the two input blocks
  alone, and the pipeline's three arrays (the two edge arrays, read; the fused array, written) end at what the blocks
  say. The 161 host lines that follow (three scatter-adds and the force difference; the 3×3 determinants by
  elimination with row exchanges; the division) each write one buffer of their own and none of the arrays or
  arguments, so the arguments end as launched and each result is the lines' composition applied to the region's
  exit contents.
-/
import proofs.«119113_j84086869721639_2_alg».proof.Proof.Gen.Kernel.Launch
import proofs.«119113_j84086869721639_2_alg».proof.Proof.Gen.Kernel.Skeleton
import proofs.«119113_j84086869721639_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the one region -/

/-- The three stretches of host lines that follow the region: the scatter-adds and the force difference, the
    determinant, and the division by its absolute value. -/
abbrev tail : List (List (HloOp τ sig (Elt F))) := [hostOps1, hostOps1_1, hostOps1_2]

/-- No host line precedes the region: the region finds every buffer as launched. -/
abbrev V0 (c : Dev nD) : Valuation τ sig (Elt F) :=
  StableHlo.after (List.flatten ([] : List (List (HloOp τ sig (Elt F))))) (fun b => m (c, b))
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail trivial trivial main_chain

/-- The later lines touch only the pipeline's arrays and the buffers that bypass the region. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Every later line writes one buffer of its own, which is none of `r`: decided line by line. -/
local macro "no_line_writes" : tactic => `(tactic| (
  refine List.forall_iff_forall_mem.mp ?_
  simp only [hostOps1, hostOps1_1, hostOps1_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (by decide)))

theorem nw_arg0 : ∀ op ∈ (tail : List (List (HloOp τ sig (Elt F)))).flatten, Proc.devRef .tc main_arg0 ∉ op.writes := by no_line_writes

theorem nw_arg1 : ∀ op ∈ (tail : List (List (HloOp τ sig (Elt F)))).flatten, Proc.devRef .tc main_arg1 ∉ op.writes := by no_line_writes
theorem nw_arg2 : ∀ op ∈ (tail : List (List (HloOp τ sig (Elt F)))).flatten, Proc.devRef .tc main_arg2 ∉ op.writes := by no_line_writes
theorem nw_arg3 : ∀ op ∈ (tail : List (List (HloOp τ sig (Elt F)))).flatten, Proc.devRef .tc main_arg3 ∉ op.writes := by no_line_writes
theorem nw_arg4 : ∀ op ∈ (tail : List (List (HloOp τ sig (Elt F)))).flatten, Proc.devRef .tc main_arg4 ∉ op.writes := by no_line_writes
theorem nw_v0 : ∀ op ∈ (tail : List (List (HloOp τ sig (Elt F)))).flatten, Proc.devRef .tc main_v0 ∉ op.writes := by no_line_writes

/-- No later line writes an array of the pipeline (the two edge arrays and the fused array). -/
theorem sfx_keeps : ∀ ops ∈ (tail : List (List (HloOp τ sig (Elt F)))), ∀ op ∈ ops,
    ∀ w, Proc.devRef .tc (Pipeline.arrRef spec0 w) ∉ op.writes := by
  intro ops hops op hop w
  have hmem : op ∈ (tail : List (List (HloOp τ sig (Elt F)))).flatten := List.mem_flatten.mpr ⟨ops, hops, hop⟩
  match w with
  | ⟨0, _⟩ => exact nw_arg1 op hmem
  | ⟨1, _⟩ => exact nw_arg0 op hmem
  | ⟨2, _⟩ => exact nw_v0 op hmem

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, for any proof data
    whose array is the region-entry contents and whose body leaves the block in place (the windows are uncut and
    never idle). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output window's buffer -/

abbrev r3 : Rect S10000x3 := Rect.unit (s := S10000x3) ![0, 0] S10000x3.size inb_S10000x3_S10000x3_0_0
abbrev r9 : Rect S10000x9 := Rect.unit (s := S10000x9) ![0, 0] S10000x9.size inb_S10000x9_S10000x9_0_0

/-- The output window's staging buffer after the body: its one whole-block store of the nine columns computed from
    the two input blocks. -/
def out0_2 (x0 x1 : Vec F S10000x3 .f32) : Vec F S10000x9 .f32 :=
  View.canon [⟨r9, k0_pay1 (View.ld x0 r3) (View.ld x1 r3)⟩]

theorem cover0_2 (p0 : Vec F S10000x9 .f32) (y : S10000x9.Idx) :
    ∃ pc ∈ ([⟨r9, p0⟩] : List (View.Piece (Elt F) S10000x9 .f32)), y ∈ pc.1.set :=
  View.cover_of_tiled [⟨r9, p0⟩] S10000x9.size (by rfl) y

/-! ## The body's triple -/

set_option maxHeartbeats 1000000 in
/-- The body on whole staging buffers, the inputs at read contents and the output at anything, runs to the end
    holding the inputs as they were and the output at `out0_2` of the inputs. -/
theorem sound_kernel (c : Dev nD) (E : Set ℕ) (i : grid0.Coords)
    (arg1 : Memref sig .tc .vmem S10000x3 .f32) (harg1 : arg1.IsWhole) (arg2 : Memref sig .tc .vmem S10000x3 .f32) (harg2 : arg2.IsWhole)
    (arg3 : Memref sig .tc .vmem S10000x9 .f32) (harg3 : arg3.IsWhole)
    (x0 x1 : Vec F S10000x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__edge_kernel i arg1 harg1 arg2 harg2 arg3 harg3) K := by
  simp only [cc0__edge_kernel_eq_skeleton]; unfold cc0__edge_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them; after the body at point `t`
    each input's buffer at its block and the output's at `out0_2` of the two input blocks; the invariant the untouched
    scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; every array of the pipeline ends at what the proof data computes
    and every other unscoped buffer as the later lines leave it. -/
theorem run_main : θ_run defs (onTc (τ := τ) (main (F := F))) (s₀ m ρ)
    (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-! ## The frame and the results, read off the run -/

/-- A buffer that is no array of the pipeline and that no later line writes ends as launched. -/
theorem tail_kept (c : Dev nD) (b : Ref sig .tc) (hb : ∀ w, Pipeline.arrRef spec0 w ≠ b)
    (hnw : ∀ op ∈ (tail : List (List (HloOp τ sig (Elt F)))).flatten, Proc.devRef .tc b ∉ op.writes) :
    Pipeline.afterTail₀ cfgs (dats m) 0 (V0 m) tail c b = m ((c : Thread nD τ).loc b) := by
  unfold Pipeline.afterTail₀
  rw [StableHlo.after_of_forall_not_mem _ _ hnw, Pipeline.withArrays_of_ne _ c (V0 m c) _ b hb]
  rfl

/-- The run re-posted: the two results at what the later lines compute from the region's exit contents, and the five
    argument arrays unchanged (the two edge arrays are input windows of the pipeline: they end at their entry
    contents; the other three bypass the region and no later line writes them). -/
theorem run_read : θ_run defs (onTc (τ := τ) (main (F := F))) ⟨m, fun _ => 0, ρ⟩ (fun r => ∀ c : Dev nD,
      r.2.mem ((c.tc : Thread nD τ).loc main_v13) = Pipeline.afterTail₀ cfgs (dats m) 0 (V0 m) tail c main_v13
      ∧ r.2.mem ((c.tc : Thread nD τ).loc main_v21) = Pipeline.afterTail₀ cfgs (dats m) 0 (V0 m) tail c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v13 (Pipeline.mem_restRefs_of main_v13 (by decide) (by decide)),
     (h c).2 main_v21 (Pipeline.mem_restRefs_of main_v21 (by decide) (by decide)),
     ((h c).1 1).trans (((dats m 0 c).arrAt_in 1 rfl _).trans (A_eq m c 1)),
     ((h c).1 0).trans (((dats m 0 c).arrAt_in 0 rfl _).trans (A_eq m c 0)),
     ((h c).2 main_arg2 (Pipeline.mem_restRefs_of main_arg2 (by decide) (by decide))).trans (tail_kept m c main_arg2 (by decide) nw_arg2),
     ((h c).2 main_arg3 (Pipeline.mem_restRefs_of main_arg3 (by decide) (by decide))).trans (tail_kept m c main_arg3 (by decide) nw_arg3),
     ((h c).2 main_arg4 (Pipeline.mem_restRefs_of main_arg4 (by decide) (by decide))).trans (tail_kept m c main_arg4 (by decide) nw_arg4)⟩)
    (run_main m ρ)

/-- The frame: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2.2) (run_read m ρ)

end Cert.Kernel.Hand

end
-- ==== Proof.KernelIdealRun.lean ====
/-
  The run of the idealized kernel program: one pipelined region followed by host lines.

  The region walks the 640 blocks of 10000 edges. At a block it fetches the 10000×3 blocks of the edge vectors and of the
  pair forces, and writes back one 10000×9 block: the forces in columns 0–2, the six virial products in columns 3–8.
  Every block is stored whole, so the output's staging buffer after the body is a function of the two input blocks
  alone, and the pipeline's three arrays (the two edge arrays, read; the fused array, written) end at what the blocks
  say. The 161 host lines that follow (three scatter-adds and the force difference; the 3×3 determinants by
  elimination with row exchanges; the division) each write one buffer of their own and none of the arrays or
  arguments, so the arguments end as launched and each result is the lines' composition applied to the region's
  exit contents.
-/
import proofs.«119113_j84086869721639_2_alg».proof.Proof.Gen.KernelIdeal.Launch
import proofs.«119113_j84086869721639_2_alg».proof.Proof.Gen.KernelIdeal.Skeleton
import proofs.«119113_j84086869721639_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the one region -/

/-- The three stretches of host lines that follow the region: the scatter-adds and the force difference, the
    determinant, and the division by its absolute value. -/
abbrev tail : List (List (HloOp τ sig (Elt F))) := [hostOps1, hostOps1_1, hostOps1_2]

/-- No host line precedes the region: the region finds every buffer as launched. -/
abbrev V0 (c : Dev nD) : Valuation τ sig (Elt F) :=
  StableHlo.after (List.flatten ([] : List (List (HloOp τ sig (Elt F))))) (fun b => m (c, b))
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail trivial trivial main_chain

/-- The later lines touch only the pipeline's arrays and the buffers that bypass the region. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Every later line writes one buffer of its own, which is none of `r`: decided line by line. -/
local macro "no_line_writes" : tactic => `(tactic| (
  refine List.forall_iff_forall_mem.mp ?_
  simp only [hostOps1, hostOps1_1, hostOps1_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (by decide)))

theorem nw_arg0 : ∀ op ∈ (tail : List (List (HloOp τ sig (Elt F)))).flatten, Proc.devRef .tc main_arg0 ∉ op.writes := by no_line_writes

theorem nw_arg1 : ∀ op ∈ (tail : List (List (HloOp τ sig (Elt F)))).flatten, Proc.devRef .tc main_arg1 ∉ op.writes := by no_line_writes
theorem nw_arg2 : ∀ op ∈ (tail : List (List (HloOp τ sig (Elt F)))).flatten, Proc.devRef .tc main_arg2 ∉ op.writes := by no_line_writes
theorem nw_arg3 : ∀ op ∈ (tail : List (List (HloOp τ sig (Elt F)))).flatten, Proc.devRef .tc main_arg3 ∉ op.writes := by no_line_writes
theorem nw_arg4 : ∀ op ∈ (tail : List (List (HloOp τ sig (Elt F)))).flatten, Proc.devRef .tc main_arg4 ∉ op.writes := by no_line_writes
theorem nw_v0 : ∀ op ∈ (tail : List (List (HloOp τ sig (Elt F)))).flatten, Proc.devRef .tc main_v0 ∉ op.writes := by no_line_writes

/-- No later line writes an array of the pipeline (the two edge arrays and the fused array). -/
theorem sfx_keeps : ∀ ops ∈ (tail : List (List (HloOp τ sig (Elt F)))), ∀ op ∈ ops,
    ∀ w, Proc.devRef .tc (Pipeline.arrRef spec0 w) ∉ op.writes := by
  intro ops hops op hop w
  have hmem : op ∈ (tail : List (List (HloOp τ sig (Elt F)))).flatten := List.mem_flatten.mpr ⟨ops, hops, hop⟩
  match w with
  | ⟨0, _⟩ => exact nw_arg1 op hmem
  | ⟨1, _⟩ => exact nw_arg0 op hmem
  | ⟨2, _⟩ => exact nw_v0 op hmem

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, for any proof data
    whose array is the region-entry contents and whose body leaves the block in place (the windows are uncut and
    never idle). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output window's buffer -/

abbrev r3 : Rect S10000x3 := Rect.unit (s := S10000x3) ![0, 0] S10000x3.size inb_S10000x3_S10000x3_0_0
abbrev r9 : Rect S10000x9 := Rect.unit (s := S10000x9) ![0, 0] S10000x9.size inb_S10000x9_S10000x9_0_0

/-- The output window's staging buffer after the body: its one whole-block store of the nine columns computed from
    the two input blocks. -/
def out0_2 (x0 x1 : Vec F S10000x3 .f32) : Vec F S10000x9 .f32 :=
  View.canon [⟨r9, k0_pay1 (View.ld x0 r3) (View.ld x1 r3)⟩]

theorem cover0_2 (p0 : Vec F S10000x9 .f32) (y : S10000x9.Idx) :
    ∃ pc ∈ ([⟨r9, p0⟩] : List (View.Piece (Elt F) S10000x9 .f32)), y ∈ pc.1.set :=
  View.cover_of_tiled [⟨r9, p0⟩] S10000x9.size (by rfl) y

/-! ## The body's triple -/

set_option maxHeartbeats 1000000 in
/-- The body on whole staging buffers, the inputs at read contents and the output at anything, runs to the end
    holding the inputs as they were and the output at `out0_2` of the inputs. -/
theorem sound_kernel (c : Dev nD) (E : Set ℕ) (i : grid0.Coords)
    (arg1 : Memref sig .tc .vmem S10000x3 .f32) (harg1 : arg1.IsWhole) (arg2 : Memref sig .tc .vmem S10000x3 .f32) (harg2 : arg2.IsWhole)
    (arg3 : Memref sig .tc .vmem S10000x9 .f32) (harg3 : arg3.IsWhole)
    (x0 x1 : Vec F S10000x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__edge_kernel i arg1 harg1 arg2 harg2 arg3 harg3) K := by
  simp only [cc0__edge_kernel_eq_skeleton]; unfold cc0__edge_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them; after the body at point `t`
    each input's buffer at its block and the output's at `out0_2` of the two input blocks; the invariant the untouched
    scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; every array of the pipeline ends at what the proof data computes
    and every other unscoped buffer as the later lines leave it. -/
theorem run_main : θ_run defs (onTc (τ := τ) (main (F := F))) (s₀ m ρ)
    (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-! ## The frame and the results, read off the run -/

/-- A buffer that is no array of the pipeline and that no later line writes ends as launched. -/
theorem tail_kept (c : Dev nD) (b : Ref sig .tc) (hb : ∀ w, Pipeline.arrRef spec0 w ≠ b)
    (hnw : ∀ op ∈ (tail : List (List (HloOp τ sig (Elt F)))).flatten, Proc.devRef .tc b ∉ op.writes) :
    Pipeline.afterTail₀ cfgs (dats m) 0 (V0 m) tail c b = m ((c : Thread nD τ).loc b) := by
  unfold Pipeline.afterTail₀
  rw [StableHlo.after_of_forall_not_mem _ _ hnw, Pipeline.withArrays_of_ne _ c (V0 m c) _ b hb]
  rfl

/-- The run re-posted: the two results at what the later lines compute from the region's exit contents, and the five
    argument arrays unchanged (the two edge arrays are input windows of the pipeline: they end at their entry
    contents; the other three bypass the region and no later line writes them). -/
theorem run_read : θ_run defs (onTc (τ := τ) (main (F := F))) ⟨m, fun _ => 0, ρ⟩ (fun r => ∀ c : Dev nD,
      r.2.mem ((c.tc : Thread nD τ).loc main_v13) = Pipeline.afterTail₀ cfgs (dats m) 0 (V0 m) tail c main_v13
      ∧ r.2.mem ((c.tc : Thread nD τ).loc main_v21) = Pipeline.afterTail₀ cfgs (dats m) 0 (V0 m) tail c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v13 (Pipeline.mem_restRefs_of main_v13 (by decide) (by decide)),
     (h c).2 main_v21 (Pipeline.mem_restRefs_of main_v21 (by decide) (by decide)),
     ((h c).1 1).trans (((dats m 0 c).arrAt_in 1 rfl _).trans (A_eq m c 1)),
     ((h c).1 0).trans (((dats m 0 c).arrAt_in 0 rfl _).trans (A_eq m c 0)),
     ((h c).2 main_arg2 (Pipeline.mem_restRefs_of main_arg2 (by decide) (by decide))).trans (tail_kept m c main_arg2 (by decide) nw_arg2),
     ((h c).2 main_arg3 (Pipeline.mem_restRefs_of main_arg3 (by decide) (by decide))).trans (tail_kept m c main_arg3 (by decide) nw_arg3),
     ((h c).2 main_arg4 (Pipeline.mem_restRefs_of main_arg4 (by decide) (by decide))).trans (tail_kept m c main_arg4 (by decide) nw_arg4)⟩)
    (run_main m ρ)

/-- The frame: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2.2) (run_read m ρ)

end Cert.KernelIdeal.Hand

end
-- ==== Proof.Spec.lean ====
/-
  The per-edge quantities both programs scatter, as functions of the two edge arrays, index by index.

  For edge `e` with edge vector `r = ev[e, ·]` and pair force `f = fj[e, ·]`, the six virial components are
  the three diagonal products `r₀f₀, r₁f₁, r₂f₂` followed by the off-diagonal products `r₁f₂, r₂f₀, r₀f₁`
  (the yz, zx, xy entries). The fused array has nine columns per edge: the force itself in columns 0–2 and the six
  virial components in columns 3–8.
-/
import Idealize.ShloMosaic.Lib.ValueIdx
import Idealize.ShloMosaic.PureOps.Ideal

noncomputable section

namespace Cert.Spec

open Idealize.ShloMosaic Idealize.ShloMosaic.ValueIdx

/-- The six virial components of each edge: column `k` of row `e` is `r₀f₀, r₁f₁, r₂f₂, r₁f₂, r₂f₀, r₀f₁` for
    `k = 0, …, 5`. -/
def vir {E : Nat} (ev fj : (⟨2, ![E, 3]⟩ : Shape).Idx → EReal) : (⟨2, ![E, 6]⟩ : Shape).Idx → EReal := fun i =>
  match (i 1).val with
  | 0 => ev (ix2 (i 0) (0 : Fin 3)) * fj (ix2 (i 0) (0 : Fin 3))
  | 1 => ev (ix2 (i 0) (1 : Fin 3)) * fj (ix2 (i 0) (1 : Fin 3))
  | 2 => ev (ix2 (i 0) (2 : Fin 3)) * fj (ix2 (i 0) (2 : Fin 3))
  | 3 => ev (ix2 (i 0) (1 : Fin 3)) * fj (ix2 (i 0) (2 : Fin 3))
  | 4 => ev (ix2 (i 0) (2 : Fin 3)) * fj (ix2 (i 0) (0 : Fin 3))
  | _ => ev (ix2 (i 0) (0 : Fin 3)) * fj (ix2 (i 0) (1 : Fin 3))

/-- The fused nine-column array: the force in columns 0–2, the virial components in columns 3–8. -/
def fused {E : Nat} (ev fj : (⟨2, ![E, 3]⟩ : Shape).Idx → EReal) : (⟨2, ![E, 9]⟩ : Shape).Idx → EReal := fun i =>
  if h : (i 1).val < 3 then fj (ix2 (i 0) (⟨(i 1).val, h⟩ : Fin 3))
  else vir ev fj (ix2 (i 0) (⟨(i 1).val - 3, by have := idx2_lt1 i; omega⟩ : Fin 6))

/-- Columns 0–2 of the fused array are the force. -/
theorem fused_force {E : Nat} (ev fj : (⟨2, ![E, 3]⟩ : Shape).Idx → EReal) (e : Fin E) (k : Fin 3) :
    fused ev fj (ix2 e (⟨0 + k.val, by omega⟩ : Fin 9)) = fj (ix2 e k) := by
  unfold fused
  have h : ((ix2 e (⟨0 + k.val, by omega⟩ : Fin 9) : (⟨2, ![E, 9]⟩ : Shape).Idx) 1).val < 3 := by
    show 0 + k.val < 3; omega
  rw [dif_pos h]
  congr 1
  refine congrArg (ix2 e) (Fin.ext ?_)
  show 0 + k.val = k.val; omega

/-- Columns 3–8 of the fused array are the virial components. -/
theorem fused_vir {E : Nat} (ev fj : (⟨2, ![E, 3]⟩ : Shape).Idx → EReal) (e : Fin E) (k : Fin 6) :
    fused ev fj (ix2 e (⟨3 + k.val, by omega⟩ : Fin 9)) = vir ev fj (ix2 e k) := by
  unfold fused
  have h : ¬ ((ix2 e (⟨3 + k.val, by omega⟩ : Fin 9) : (⟨2, ![E, 9]⟩ : Shape).Idx) 1).val < 3 := by
    show ¬ 3 + k.val < 3; omega
  rw [dif_neg h]
  congr 1
  refine congrArg (ix2 e) (Fin.ext ?_)
  show 3 + k.val - 3 = k.val; omega

end Cert.Spec

end
-- ==== Proof.KernelPayload.lean ====
/-
  The value the kernel body stores, block by block: the fused nine-column array.

  For a block of `n` edges with edge vectors `r : [n, 3]` and pair forces `f : [n, 3]`, the body forms the elementwise
  product `r ⊙ f` (the three diagonal components `r₀f₀, r₁f₁, r₂f₂`), three one-column products `r₁f₂, r₂f₀, r₀f₁`
  (each a column of `r` times a column of `f`, taken as flat vectors), lays the four side by side into `[n, 6]`, and
  lays `f` in front of that into `[n, 9]`. Column by column this is `Cert.Spec.fused r f`.
-/
import proofs.«119113_j84086869721639_2_alg».proof.Proof.Gen.KernelIdeal.Skeleton
import proofs.«119113_j84086869721639_2_alg».proof.Proof.Spec
import Idealize.ShloMosaic.Lib.Pipeline.Value
import Idealize.ShloMosaic.Lib.ValueIdx
import Idealize.ShloMosaic.PureOps.Ideal

noncomputable section

namespace Cert.KernelIdeal.Hand

open Idealize.ShloMosaic Idealize.ShloMosaic.ValueIdx

/-! ## Columns of a three-column array, for any number of rows -/

section Generic

variable {α : Type} {n : Nat}

/-- Column `o` of an `[n, 3]` array, taken as a flat vector, reads the array at `(p, o)`. -/
theorem col_apply (o : Nat) (ho : o < 3) (v : (⟨2, ![n, 3]⟩ : Shape).Idx → α)
    (hs : (⟨2, ![n, 3]⟩ : Shape).Slices ![0, o] ⟨2, ![n, 1]⟩)
    (hc : (⟨2, ![n, 1]⟩ : Shape).ShapeCasts ⟨1, ![n]⟩) (p : Fin n) :
    shapeCast ⟨1, ![n]⟩ (extractStridedSlice ⟨2, ![n, 1]⟩ ![0, o] v hs) hc (ix1 p) = v (ix2 p (⟨o, ho⟩ : Fin 3)) := by
  refine (shapeCast_apply _ hc (ix1 p) (ix2 p (0 : Fin 1)) (by
    rw [Shape.rowMajor_val_two, Shape.rowMajor_val_one]
    show p.val * 1 + 0 = p.val
    omega)).trans ?_
  exact extractStridedSlice_apply _ v hs (ix2 p (0 : Fin 1)) (ix2 p (⟨o, ho⟩ : Fin 3)) (by
    intro a
    match a with
    | ⟨0, _⟩ => show p.val = 0 + p.val; omega
    | ⟨1, _⟩ => show o = o + 0; rfl)

/-- A flat vector taken as one column reads, at `(p, 0)`, the vector at `p`. -/
theorem asCol_apply (x : (⟨1, ![n]⟩ : Shape).Idx → α) (h : (⟨1, ![n]⟩ : Shape).ShapeCasts ⟨2, ![n, 1]⟩)
    (p : Fin n) (u : Fin 1) : shapeCast ⟨2, ![n, 1]⟩ x h (ix2 p u) = x (ix1 p) :=
  shapeCast_apply x h (ix2 p u) (ix1 p) (by
    have hu : u.val = 0 := by omega
    rw [Shape.rowMajor_val_two, Shape.rowMajor_val_one]
    show p.val = p.val * 1 + u.val
    omega)

end Generic

/-! ## The body's arithmetic, for any number of rows -/

section Payload

variable {n : Nat}

/-- Column `a` of `r` times column `b` of `f`, both as flat vectors, the product taken as one column: at `(p, 0)` it is
    `r[p, a] · f[p, b]`. -/
theorem prodCol_apply (a b : Nat) (ha : a < 3) (hb : b < 3) (v0 v1 : FVec Ideal ⟨2, ![n, 3]⟩ .f32)
    (hsa : (⟨2, ![n, 3]⟩ : Shape).Slices ![0, a] ⟨2, ![n, 1]⟩)
    (hsb : (⟨2, ![n, 3]⟩ : Shape).Slices ![0, b] ⟨2, ![n, 1]⟩)
    (hc : (⟨2, ![n, 1]⟩ : Shape).ShapeCasts ⟨1, ![n]⟩) (hc' : (⟨1, ![n]⟩ : Shape).ShapeCasts ⟨2, ![n, 1]⟩)
    (p : Fin n) (u : Fin 1) :
    shapeCast ⟨2, ![n, 1]⟩
        (mulf (shapeCast ⟨1, ![n]⟩ (extractStridedSlice ⟨2, ![n, 1]⟩ ![0, a] v0 hsa) hc)
          (shapeCast ⟨1, ![n]⟩ (extractStridedSlice ⟨2, ![n, 1]⟩ ![0, b] v1 hsb) hc)) hc' (ix2 p u)
      = v0 (ix2 p (⟨a, ha⟩ : Fin 3)) * v1 (ix2 p (⟨b, hb⟩ : Fin 3)) := by
  refine (asCol_apply _ hc' p u).trans ?_
  show shapeCast ⟨1, ![n]⟩ (extractStridedSlice ⟨2, ![n, 1]⟩ ![0, a] v0 hsa) hc (ix1 p)
      * shapeCast ⟨1, ![n]⟩ (extractStridedSlice ⟨2, ![n, 1]⟩ ![0, b] v1 hsb) hc (ix1 p) = _
  rw [col_apply a ha v0 hsa hc p, col_apply b hb v1 hsb hc p]

/-- The six-column array the body lays out — `r ⊙ f` and the three one-column products — is the array of virial
    components. -/
theorem virCat_eq (v0 v1 : FVec Ideal ⟨2, ![n, 3]⟩ .f32)
    (hs0 : (⟨2, ![n, 3]⟩ : Shape).Slices ![0, 0] ⟨2, ![n, 1]⟩)
    (hs1 : (⟨2, ![n, 3]⟩ : Shape).Slices ![0, 1] ⟨2, ![n, 1]⟩)
    (hs2 : (⟨2, ![n, 3]⟩ : Shape).Slices ![0, 2] ⟨2, ![n, 1]⟩)
    (hc : (⟨2, ![n, 1]⟩ : Shape).ShapeCasts ⟨1, ![n]⟩) (hc' : (⟨1, ![n]⟩ : Shape).ShapeCasts ⟨2, ![n, 1]⟩)
    (h4 : Shape.Concatenates [(⟨2, ![n, 3]⟩ : Shape), ⟨2, ![n, 1]⟩, ⟨2, ![n, 1]⟩, ⟨2, ![n, 1]⟩] ⟨2, ![n, 6]⟩ 1) :
    concatenate (⟨2, ![n, 6]⟩ : Shape) 1
        [⟨(⟨2, ![n, 3]⟩ : Shape), mulf v0 v1⟩,
         ⟨(⟨2, ![n, 1]⟩ : Shape), shapeCast ⟨2, ![n, 1]⟩
            (mulf (shapeCast ⟨1, ![n]⟩ (extractStridedSlice ⟨2, ![n, 1]⟩ ![0, 1] v0 hs1) hc)
              (shapeCast ⟨1, ![n]⟩ (extractStridedSlice ⟨2, ![n, 1]⟩ ![0, 2] v1 hs2) hc)) hc'⟩,
         ⟨(⟨2, ![n, 1]⟩ : Shape), shapeCast ⟨2, ![n, 1]⟩
            (mulf (shapeCast ⟨1, ![n]⟩ (extractStridedSlice ⟨2, ![n, 1]⟩ ![0, 2] v0 hs2) hc)
              (shapeCast ⟨1, ![n]⟩ (extractStridedSlice ⟨2, ![n, 1]⟩ ![0, 0] v1 hs0) hc)) hc'⟩,
         ⟨(⟨2, ![n, 1]⟩ : Shape), shapeCast ⟨2, ![n, 1]⟩
            (mulf (shapeCast ⟨1, ![n]⟩ (extractStridedSlice ⟨2, ![n, 1]⟩ ![0, 0] v0 hs0) hc)
              (shapeCast ⟨1, ![n]⟩ (extractStridedSlice ⟨2, ![n, 1]⟩ ![0, 1] v1 hs1) hc)) hc'⟩] h4
      = Cert.Spec.vir v0 v1 := by
  funext i
  obtain ⟨p, q, rfl⟩ : ∃ (p : Fin n) (q : Fin 6), i = ix2 p q := ⟨i 0, i 1, eq_ix2 i⟩
  have hoff : ∀ (c : Fin 1) (b : Fin 2), b.cast rfl ≠ (1 : Fin 2) →
      ((ix2 p c : (⟨2, ![n, 1]⟩ : Shape).Idx) b).val = ((ix2 p q : (⟨2, ![n, 6]⟩ : Shape).Idx) (b.cast rfl)).val := by
    intro c b
    match b with
    | ⟨0, _⟩ => intro _; rfl
    | ⟨1, _⟩ => intro hb; exact absurd rfl hb
  match q with
  | ⟨0, hq⟩ =>
    refine (concatenate_apply_piece (t := ⟨2, ![n, 6]⟩) (1 : Fin 2) _ _ (ix2 p ⟨0, hq⟩) 0 (by show (_ : Nat) < 4; omega) ⟨2, ![n, 3]⟩ (mulf v0 v1) (by rfl) (by rfl) 0 (by rfl)
      (ix2 p (0 : Fin 3)) ?_ (by rfl)).trans ?_
    · intro b
      match b with
      | ⟨0, _⟩ => intro _; rfl
      | ⟨1, _⟩ => intro hb; exact absurd rfl hb
    · rfl
  | ⟨1, hq⟩ =>
    refine (concatenate_apply_piece (t := ⟨2, ![n, 6]⟩) (1 : Fin 2) _ _ (ix2 p ⟨1, hq⟩) 0 (by show (_ : Nat) < 4; omega) ⟨2, ![n, 3]⟩ (mulf v0 v1) (by rfl) (by rfl) 0 (by rfl)
      (ix2 p (1 : Fin 3)) ?_ (by rfl)).trans ?_
    · intro b
      match b with
      | ⟨0, _⟩ => intro _; rfl
      | ⟨1, _⟩ => intro hb; exact absurd rfl hb
    · rfl
  | ⟨2, hq⟩ =>
    refine (concatenate_apply_piece (t := ⟨2, ![n, 6]⟩) (1 : Fin 2) _ _ (ix2 p ⟨2, hq⟩) 0 (by show (_ : Nat) < 4; omega) ⟨2, ![n, 3]⟩ (mulf v0 v1) (by rfl) (by rfl) 0 (by rfl)
      (ix2 p (2 : Fin 3)) ?_ (by rfl)).trans ?_
    · intro b
      match b with
      | ⟨0, _⟩ => intro _; rfl
      | ⟨1, _⟩ => intro hb; exact absurd rfl hb
    · rfl
  | ⟨3, hq⟩ =>
    refine (concatenate_apply_piece (t := ⟨2, ![n, 6]⟩) (1 : Fin 2) _ _ (ix2 p ⟨3, hq⟩) 1 (by show (_ : Nat) < 4; omega) ⟨2, ![n, 1]⟩
      (shapeCast ⟨2, ![n, 1]⟩
        (mulf (shapeCast ⟨1, ![n]⟩ (extractStridedSlice ⟨2, ![n, 1]⟩ ![0, 1] v0 hs1) hc)
          (shapeCast ⟨1, ![n]⟩ (extractStridedSlice ⟨2, ![n, 1]⟩ ![0, 2] v1 hs2) hc)) hc')
      (by rfl) (by rfl) 3 (by rfl) (ix2 p (0 : Fin 1)) (hoff 0) (by rfl)).trans ?_
    exact prodCol_apply 1 2 (by omega) (by omega) v0 v1 hs1 hs2 hc hc' p 0
  | ⟨4, hq⟩ =>
    refine (concatenate_apply_piece (t := ⟨2, ![n, 6]⟩) (1 : Fin 2) _ _ (ix2 p ⟨4, hq⟩) 2 (by show (_ : Nat) < 4; omega) ⟨2, ![n, 1]⟩
      (shapeCast ⟨2, ![n, 1]⟩
        (mulf (shapeCast ⟨1, ![n]⟩ (extractStridedSlice ⟨2, ![n, 1]⟩ ![0, 2] v0 hs2) hc)
          (shapeCast ⟨1, ![n]⟩ (extractStridedSlice ⟨2, ![n, 1]⟩ ![0, 0] v1 hs0) hc)) hc')
      (by rfl) (by rfl) 4 (by rfl) (ix2 p (0 : Fin 1)) (hoff 0) (by rfl)).trans ?_
    exact prodCol_apply 2 0 (by omega) (by omega) v0 v1 hs2 hs0 hc hc' p 0
  | ⟨5, hq⟩ =>
    refine (concatenate_apply_piece (t := ⟨2, ![n, 6]⟩) (1 : Fin 2) _ _ (ix2 p ⟨5, hq⟩) 3 (by show (_ : Nat) < 4; omega) ⟨2, ![n, 1]⟩
      (shapeCast ⟨2, ![n, 1]⟩
        (mulf (shapeCast ⟨1, ![n]⟩ (extractStridedSlice ⟨2, ![n, 1]⟩ ![0, 0] v0 hs0) hc)
          (shapeCast ⟨1, ![n]⟩ (extractStridedSlice ⟨2, ![n, 1]⟩ ![0, 1] v1 hs1) hc)) hc')
      (by rfl) (by rfl) 5 (by rfl) (ix2 p (0 : Fin 1)) (hoff 0) (by rfl)).trans ?_
    exact prodCol_apply 0 1 (by omega) (by omega) v0 v1 hs0 hs1 hc hc' p 0

/-- The nine-column array the body stores — `f` in front of the six-column array above — is the fused array. -/
theorem payload_eq {n : Nat} (v0 v1 : FVec Ideal ⟨2, ![n, 3]⟩ .f32)
    (hs0 : (⟨2, ![n, 3]⟩ : Shape).Slices ![0, 0] ⟨2, ![n, 1]⟩)
    (hs1 : (⟨2, ![n, 3]⟩ : Shape).Slices ![0, 1] ⟨2, ![n, 1]⟩)
    (hs2 : (⟨2, ![n, 3]⟩ : Shape).Slices ![0, 2] ⟨2, ![n, 1]⟩)
    (hc : (⟨2, ![n, 1]⟩ : Shape).ShapeCasts ⟨1, ![n]⟩) (hc' : (⟨1, ![n]⟩ : Shape).ShapeCasts ⟨2, ![n, 1]⟩)
    (h4 : Shape.Concatenates [(⟨2, ![n, 3]⟩ : Shape), ⟨2, ![n, 1]⟩, ⟨2, ![n, 1]⟩, ⟨2, ![n, 1]⟩] ⟨2, ![n, 6]⟩ 1)
    (h2 : Shape.Concatenates [(⟨2, ![n, 3]⟩ : Shape), ⟨2, ![n, 6]⟩] ⟨2, ![n, 9]⟩ 1) :
    concatenate (⟨2, ![n, 9]⟩ : Shape) 1
        [⟨(⟨2, ![n, 3]⟩ : Shape), v1⟩,
         ⟨(⟨2, ![n, 6]⟩ : Shape), concatenate (⟨2, ![n, 6]⟩ : Shape) 1
            [⟨(⟨2, ![n, 3]⟩ : Shape), mulf v0 v1⟩,
             ⟨(⟨2, ![n, 1]⟩ : Shape), shapeCast ⟨2, ![n, 1]⟩
                (mulf (shapeCast ⟨1, ![n]⟩ (extractStridedSlice ⟨2, ![n, 1]⟩ ![0, 1] v0 hs1) hc)
                  (shapeCast ⟨1, ![n]⟩ (extractStridedSlice ⟨2, ![n, 1]⟩ ![0, 2] v1 hs2) hc)) hc'⟩,
             ⟨(⟨2, ![n, 1]⟩ : Shape), shapeCast ⟨2, ![n, 1]⟩
                (mulf (shapeCast ⟨1, ![n]⟩ (extractStridedSlice ⟨2, ![n, 1]⟩ ![0, 2] v0 hs2) hc)
                  (shapeCast ⟨1, ![n]⟩ (extractStridedSlice ⟨2, ![n, 1]⟩ ![0, 0] v1 hs0) hc)) hc'⟩,
             ⟨(⟨2, ![n, 1]⟩ : Shape), shapeCast ⟨2, ![n, 1]⟩
                (mulf (shapeCast ⟨1, ![n]⟩ (extractStridedSlice ⟨2, ![n, 1]⟩ ![0, 0] v0 hs0) hc)
                  (shapeCast ⟨1, ![n]⟩ (extractStridedSlice ⟨2, ![n, 1]⟩ ![0, 1] v1 hs1) hc)) hc'⟩] h4⟩] h2
      = Cert.Spec.fused v0 v1 := by
  funext i
  obtain ⟨p, q, rfl⟩ : ∃ (p : Fin n) (q : Fin 9), i = ix2 p q := ⟨i 0, i 1, eq_ix2 i⟩
  unfold Cert.Spec.fused
  by_cases h : q.val < 3
  · have h' : ((ix2 p q : (⟨2, ![n, 9]⟩ : Shape).Idx) 1).val < 3 := h
    rw [dif_pos h']
    refine (concatenate_pair_apply_left (t := ⟨2, ![n, 9]⟩) (s₁ := ⟨2, ![n, 3]⟩) (s₂ := ⟨2, ![n, 6]⟩) (1 : Fin 2) v1 _ h2
      (ix2 p q) rfl (ix2 p (⟨q.val, h⟩ : Fin 3)) ?_).trans ?_
    · intro b
      match b with
      | ⟨0, _⟩ => rfl
      | ⟨1, _⟩ => rfl
    · rfl
  · have h' : ¬ ((ix2 p q : (⟨2, ![n, 9]⟩ : Shape).Idx) 1).val < 3 := h
    rw [dif_neg h']
    have hq := q.isLt
    refine (concatenate_pair_apply_right (t := ⟨2, ![n, 9]⟩) (s₁ := ⟨2, ![n, 3]⟩) (s₂ := ⟨2, ![n, 6]⟩) (1 : Fin 2) v1 _ h2
      (ix2 p q) rfl rfl (ix2 p (⟨q.val - 3, by omega⟩ : Fin 6)) ?_ ?_).trans ?_
    · intro b
      match b with
      | ⟨0, _⟩ => intro _; rfl
      | ⟨1, _⟩ => intro hb; exact absurd rfl hb
    · show q.val - 3 + 3 = q.val
      omega
    · exact congrFun (virCat_eq v0 v1 hs0 hs1 hs2 hc hc' h4) _

end Payload

/-! ## The printed payload -/

/-- The value the body stores, from the edge-vector block `v0` and the force block `v1`, is the fused array of the
    block. -/
theorem pay_eq (v0 v1 : Vec Ideal Cert.KernelIdeal.S10000x3 .f32) :
    Cert.KernelIdeal.Gen.k0_pay1 (F := Ideal) v0 v1 = Cert.Spec.fused (E := 10000) v0 v1 := by
  unfold Cert.KernelIdeal.Gen.k0_pay1
  exact payload_eq (n := 10000) v0 v1 _ _ _ _ _ _ _

end Cert.KernelIdeal.Hand

end
-- ==== Proof.SpecRows.lean ====
/-
  The fused array is computed row by row: row `e` of `vir` and of `fused` depends on row `e` of the two edge arrays only.
  So if a row of one pair of arrays is a row of another pair — a block of rows cut out of a longer array — the fused
  rows agree as well.
-/
import proofs.«119113_j84086869721639_2_alg».proof.Proof.Spec

namespace Cert.Spec

open Idealize.ShloMosaic Idealize.ShloMosaic.ValueIdx

/-- Row `p` of `vir ev' fj'` is row `r` of `vir ev fj` when row `p` of `ev'`, `fj'` is row `r` of `ev`, `fj`. -/
theorem vir_row {E E' : Nat} (ev fj : (⟨2, ![E, 3]⟩ : Shape).Idx → EReal) (ev' fj' : (⟨2, ![E', 3]⟩ : Shape).Idx → EReal)
    (r : Fin E) (p : Fin E') (hev : ∀ k : Fin 3, ev' (ix2 p k) = ev (ix2 r k)) (hfj : ∀ k : Fin 3, fj' (ix2 p k) = fj (ix2 r k))
    (q : Fin 6) : vir ev' fj' (ix2 p q) = vir ev fj (ix2 r q) := by
  unfold vir
  show (match q.val with
    | 0 => ev' (ix2 p (0 : Fin 3)) * fj' (ix2 p (0 : Fin 3))
    | 1 => ev' (ix2 p (1 : Fin 3)) * fj' (ix2 p (1 : Fin 3))
    | 2 => ev' (ix2 p (2 : Fin 3)) * fj' (ix2 p (2 : Fin 3))
    | 3 => ev' (ix2 p (1 : Fin 3)) * fj' (ix2 p (2 : Fin 3))
    | 4 => ev' (ix2 p (2 : Fin 3)) * fj' (ix2 p (0 : Fin 3))
    | _ => ev' (ix2 p (0 : Fin 3)) * fj' (ix2 p (1 : Fin 3))) =
    (match q.val with
    | 0 => ev (ix2 r (0 : Fin 3)) * fj (ix2 r (0 : Fin 3))
    | 1 => ev (ix2 r (1 : Fin 3)) * fj (ix2 r (1 : Fin 3))
    | 2 => ev (ix2 r (2 : Fin 3)) * fj (ix2 r (2 : Fin 3))
    | 3 => ev (ix2 r (1 : Fin 3)) * fj (ix2 r (2 : Fin 3))
    | 4 => ev (ix2 r (2 : Fin 3)) * fj (ix2 r (0 : Fin 3))
    | _ => ev (ix2 r (0 : Fin 3)) * fj (ix2 r (1 : Fin 3)))
  simp only [hev, hfj]

/-- The same for the nine fused columns. -/
theorem fused_row {E E' : Nat} (ev fj : (⟨2, ![E, 3]⟩ : Shape).Idx → EReal) (ev' fj' : (⟨2, ![E', 3]⟩ : Shape).Idx → EReal)
    (r : Fin E) (p : Fin E') (hev : ∀ k : Fin 3, ev' (ix2 p k) = ev (ix2 r k)) (hfj : ∀ k : Fin 3, fj' (ix2 p k) = fj (ix2 r k))
    (q : Fin 9) : fused ev' fj' (ix2 p q) = fused ev fj (ix2 r q) := by
  unfold fused
  by_cases h : q.val < 3
  · rw [dif_pos (show ((ix2 p q : (⟨2, ![E', 9]⟩ : Shape).Idx) 1).val < 3 from h),
      dif_pos (show ((ix2 r q : (⟨2, ![E, 9]⟩ : Shape).Idx) 1).val < 3 from h)]
    exact hfj _
  · rw [dif_neg (show ¬ ((ix2 p q : (⟨2, ![E', 9]⟩ : Shape).Idx) 1).val < 3 from h),
      dif_neg (show ¬ ((ix2 r q : (⟨2, ![E, 9]⟩ : Shape).Idx) 1).val < 3 from h)]
    exact vir_row ev fj ev' fj' r p hev hfj _

end Cert.Spec
-- ==== Proof.KernelIdealArray.lean ====
/-
  The fused array after the region, as one function of the two edge arrays.

  Block `t` of each of the three arrays starts at row `10000·t`, column 0. The body's stored value at a block is the
  fused nine columns of the two input blocks, and the fused array is computed row by row, so what point `t` writes
  back is block `t` of the fused array of the whole edge arrays. The 640 blocks tile the array (row `r` lies in block
  `r / 10000`), so after the region the array IS the fused array.
-/
import proofs.«119113_j84086869721639_2_alg».proof.Proof.KernelIdealRun
import proofs.«119113_j84086869721639_2_alg».proof.Proof.KernelPayload
import proofs.«119113_j84086869721639_2_alg».proof.Proof.SpecRows
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The printed index maps, decided over the grid: block `t` of each window is at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The fused array of the whole edge arrays as launched. -/
abbrev fusedArr (c : Dev nD) : S6400000x9.Idx → EReal :=
  Cert.Spec.fused (E := 6400000) (m ((c.tc : Thread nD τ).loc main_arg1)) (m ((c.tc : Thread nD τ).loc main_arg0))

/-- What point `t` writes back is block `t` of the fused array. -/
theorem flushed_eq (c : Dev nD) (t : Fin cfg0.N) :
    (dats m 0 c).flushed 2 t = ((cfg0.win 2).blk t).view.read (Elt Ideal) (fusedArr m c) := by
  show (cfg0.win 2).cut (grid0.coords t) ((dats m 0 c).after 2 t) = _
  rw [after0_2]
  unfold out0_2
  rw [View.canon_unit_zero hz]
  simp only [View.ld_unit_zero (S := S10000x3) hz]
  rw [pay_eq]
  obtain ⟨e0, e1, e2, e3, e4, e5⟩ := idx_facts t
  have ht : t.val < 640 := t.isLt
  funext j
  obtain ⟨p, q, rfl⟩ : ∃ (p : Fin 10000) (q : Fin 9), j = ix2 p q := ⟨j 0, j 1, eq_ix2 j⟩
  have hp : p.val < 10000 := p.isLt
  have hemb : ((cfg0.win 2).blk t).view.emb (ix2 p q) = ix2 (⟨t.val * 10000 + p.val, by omega⟩ : Fin 6400000) q := by
    funext a; apply Fin.ext
    match a with
    | ⟨0, _⟩ => show win0_2.index t (0 : Fin 2) * 10000 + 1 * p.val = t.val * 10000 + p.val; omega
    | ⟨1, _⟩ => show win0_2.index t (1 : Fin 2) * 9 + 1 * q.val = q.val; omega
  show Cert.Spec.fused (E := 10000) (iblk m c 0 t) (iblk m c 1 t) (ix2 p q) = fusedArr m c (((cfg0.win 2).blk t).view.emb (ix2 p q))
  rw [hemb]
  refine Cert.Spec.fused_row _ _ _ _ _ p ?_ ?_ q
  · intro k
    show V m c main_arg1 (((cfg0.win 0).blk t).view.emb (ix2 p k)) = V m c main_arg1 (ix2 (⟨t.val * 10000 + p.val, by omega⟩ : Fin 6400000) k)
    refine congrArg _ ?_
    funext a; apply Fin.ext
    match a with
    | ⟨0, _⟩ => show win0_0.index t (0 : Fin 2) * 10000 + 1 * p.val = t.val * 10000 + p.val; omega
    | ⟨1, _⟩ => show win0_0.index t (1 : Fin 2) * 3 + 1 * k.val = k.val; omega
  · intro k
    show V m c main_arg0 (((cfg0.win 1).blk t).view.emb (ix2 p k)) = V m c main_arg0 (ix2 (⟨t.val * 10000 + p.val, by omega⟩ : Fin 6400000) k)
    refine congrArg _ ?_
    funext a; apply Fin.ext
    match a with
    | ⟨0, _⟩ => show win0_1.index t (0 : Fin 2) * 10000 + 1 * p.val = t.val * 10000 + p.val; omega
    | ⟨1, _⟩ => show win0_1.index t (1 : Fin 2) * 3 + 1 * k.val = k.val; omega

/-- An index of the array is in point `t`'s block iff each coordinate is in the block's range on its axis. -/
theorem mem_blk (t : Fin cfg0.N) (i : S6400000x9.Idx) :
    i ∈ ((cfg0.win 2).blk t).view.set ↔ ∀ a : Fin 2, win0_2.index t a * S10000x9.size a ≤ (i a).val
      ∧ (i a).val < win0_2.index t a * S10000x9.size a + S10000x9.size a := by
  show i ∈ ((View.whole main_v0).slice (win0_2.rect t)).set ↔ _
  rw [View.set_slice_whole, Rect.mem_set_unit]
  exact Iff.rfl

/-- Every index of the array is in the block of the point its row falls in. -/
theorem cover (i : S6400000x9.Idx) :
    ∃ t : Fin cfg0.N, (cfg0.win 2).flush t = true ∧ i ∈ ((cfg0.win 2).blk t).view.set := by
  have hi0 : (i 0).val < 6400000 := (i 0).isLt
  have hi1 : (i 1).val < 9 := (i 1).isLt
  have hlt : (i 0).val / 10000 < cfg0.N := by show (i 0).val / 10000 < 640; omega
  obtain ⟨e0, e1, e2, e3, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 9 ≤ (i 1).val
      ∧ (i 1).val < win0_2.index ⟨(i 0).val / 10000, hlt⟩ (1 : Fin 2) * 9 + 9
    rw [e5]; omega

/-- After the region the fused array holds the fused nine columns of the two edge arrays. -/
theorem final (c : Dev nD) : (dats m 0 c).arrAt 2 cfg0.N = fusedArr m c :=
  (dats m 0 c).arrAt_eq_of_cover 2 (fusedArr m c) (fun t _ => flushed_eq m c t) cover

end Cert.KernelIdeal.Hand

end
-- ==== Proof.KernelIdealDet.lean ====
/-
  The determinant function of the kernel program's host lines as one pure term of its argument.

  Each line is one operation of the function's body, in the body's order, with every call of a
  selection helper replaced by the helper's own operations. The function computes, for each of the 512
  cells, the determinant of the 3×3 matrix by Gaussian elimination with partial pivoting: two pivot
  selections (each a comparison of absolute values followed by row swaps and a sign flip), the
  eliminations guarded against a zero pivot, and the product of the sign with the three diagonal entries.
-/
import proofs.«119113_j84086869721639_2_alg».proof.KernelIdeal

set_option synthInstance.maxSize 4096

noncomputable section

namespace Cert.KernelIdeal.Hand

open Idealize.ShloMosaic Idealize.SL.Sem
open Cert.KernelIdeal
open Cert.KernelIdeal.Facts₀ Cert.KernelIdeal.Facts

variable {F : FTy → Type} [FloatOps F] [Facts]

/-- The determinant of each of the 512 cell matrices, as the function's operations compute it. -/
def det (a : FVec F S512x3x3 .f32) : FVec F S512 .f32 :=
  have v0 : FVec F S512x1x1 .f32 := extractStridedSlice S512x1x1 ![0, 1, 0] a slices_S512x3x3_S512x1x1_0_1_0
  have v1 : FVec F S512 .f32 := shapeCast S512 v0 shapeCasts_S512x1x1_S512
  have v2 : FVec F S512 .f32 := Host.absf v1
  have v3 : FVec F S512x1x1 .f32 := extractStridedSlice S512x1x1 ![0, 0, 0] a slices_S512x3x3_S512x1x1_0_0_0
  have v4 : FVec F S512 .f32 := shapeCast S512 v3 shapeCasts_S512x1x1_S512
  have v5 : FVec F S512 .f32 := Host.absf v4
  have v6 : IVec S512 1 := cmpf .ogt v2 v5
  have v7 : IVec S512x1 1 := broadcastInDim S512x1 ![0] bcast_S512_S512x1_0 v6
  have v8 : FVec F S512x1x3 .f32 := extractStridedSlice S512x1x3 ![0, 1, 0] a slices_S512x3x3_S512x1x3_0_1_0
  have v9 : FVec F S512x3 .f32 := shapeCast S512x3 v8 shapeCasts_S512x1x3_S512x3
  have v10 : FVec F S512x1x3 .f32 := extractStridedSlice S512x1x3 ![0, 0, 0] a slices_S512x3x3_S512x1x3_0_0_0
  have v11 : FVec F S512x3 .f32 := shapeCast S512x3 v10 shapeCasts_S512x1x3_S512x3
  have call0_v0 : IVec S512x3 1 := broadcastInDim S512x3 ![0, 1] bcast_S512x1_S512x3_0_1 v7
  have call0_v1 : FVec F S512x3 .f32 := select call0_v0 v9 v11
  have v13 : IVec S512x1 1 := broadcastInDim S512x1 ![0] bcast_S512_S512x1_0 v6
  have v14 : FVec F S512x1x3 .f32 := extractStridedSlice S512x1x3 ![0, 0, 0] a slices_S512x3x3_S512x1x3_0_0_0
  have v15 : FVec F S512x3 .f32 := shapeCast S512x3 v14 shapeCasts_S512x1x3_S512x3
  have v16 : FVec F S512x1x3 .f32 := extractStridedSlice S512x1x3 ![0, 1, 0] a slices_S512x3x3_S512x1x3_0_1_0
  have v17 : FVec F S512x3 .f32 := shapeCast S512x3 v16 shapeCasts_S512x1x3_S512x3
  have call1_v0 : IVec S512x3 1 := broadcastInDim S512x3 ![0, 1] bcast_S512x1_S512x3_0_1 v13
  have call1_v1 : FVec F S512x3 .f32 := select call1_v0 v15 v17
  have v19 : FVec F S512x1x3 .f32 := extractStridedSlice S512x1x3 ![0, 2, 0] a slices_S512x3x3_S512x1x3_0_2_0
  have v20 : FVec F S512x3 .f32 := shapeCast S512x3 v19 shapeCasts_S512x1x3_S512x3
  have c : IVec S_ 32 := constantI S_ 32 4294967295#32
  have c_0 : IVec S_ 32 := constantI S_ 32 1#32
  have call2_v0 : IVec S512 32 := broadcastInDim S512 ![] bcast_S_S512 c
  have call2_v1 : IVec S512 32 := broadcastInDim S512 ![] bcast_S_S512 c_0
  have call2_v2 : IVec S512 32 := select v6 call2_v0 call2_v1
  have v22 : FVec F S512x1 .f32 := extractStridedSlice S512x1 ![0, 0] v20 slices_S512x3_S512x1_0_0
  have v23 : FVec F S512 .f32 := shapeCast S512 v22 shapeCasts_S512x1_S512
  have v24 : FVec F S512 .f32 := Host.absf v23
  have v25 : FVec F S512x1 .f32 := extractStridedSlice S512x1 ![0, 0] call0_v1 slices_S512x3_S512x1_0_0
  have v26 : FVec F S512 .f32 := shapeCast S512 v25 shapeCasts_S512x1_S512
  have v27 : FVec F S512 .f32 := Host.absf v26
  have v28 : IVec S512 1 := cmpf .ogt v24 v27
  have v29 : IVec S512x1 1 := broadcastInDim S512x1 ![0] bcast_S512_S512x1_0 v28
  have call3_v0 : IVec S512x3 1 := broadcastInDim S512x3 ![0, 1] bcast_S512x1_S512x3_0_1 v29
  have call3_v1 : FVec F S512x3 .f32 := select call3_v0 v20 call0_v1
  have v31 : IVec S512x1 1 := broadcastInDim S512x1 ![0] bcast_S512_S512x1_0 v28
  have call4_v0 : IVec S512x3 1 := broadcastInDim S512x3 ![0, 1] bcast_S512x1_S512x3_0_1 v31
  have call4_v1 : FVec F S512x3 .f32 := select call4_v0 call0_v1 v20
  have v33 : IVec S512 32 := negi call2_v2
  have call5_v0 : IVec S512 32 := select v28 v33 call2_v2
  have v35 : FVec F S512x1 .f32 := extractStridedSlice S512x1 ![0, 0] call3_v1 slices_S512x3_S512x1_0_0
  have v36 : FVec F S512 .f32 := shapeCast S512 v35 shapeCasts_S512x1_S512
  have cst : FVec F S_ .f32 := constant S_ .f32 0x00000000#32
  have v37 : FVec F S512 .f32 := broadcastInDim S512 ![] bcast_S_S512 cst
  have v38 : IVec S512 1 := cmpf .oeq v36 v37
  have v39 : FVec F S512x1 .f32 := extractStridedSlice S512x1 ![0, 0] call3_v1 slices_S512x3_S512x1_0_0
  have v40 : FVec F S512 .f32 := shapeCast S512 v39 shapeCasts_S512x1_S512
  have c_1 : IVec S_ 32 := constantI S_ 32 1#32
  have call6_v0 : FVec F S_ .f32 := sitofp .f32 c_1
  have call6_v1 : FVec F S512 .f32 := broadcastInDim S512 ![] bcast_S_S512 call6_v0
  have call6_v2 : FVec F S512 .f32 := select v38 call6_v1 v40
  have v42 : FVec F S512x1 .f32 := extractStridedSlice S512x1 ![0, 0] call3_v1 slices_S512x3_S512x1_0_0
  have v43 : FVec F S512 .f32 := shapeCast S512 v42 shapeCasts_S512x1_S512
  have cst_2 : FVec F S_ .f32 := constant S_ .f32 0x00000000#32
  have v44 : FVec F S512 .f32 := broadcastInDim S512 ![] bcast_S_S512 cst_2
  have v45 : IVec S512 1 := cmpf .oeq v43 v44
  have v46 : FVec F S512x1 .f32 := extractStridedSlice S512x1 ![0, 0] call1_v1 slices_S512x3_S512x1_0_0
  have v47 : FVec F S512 .f32 := shapeCast S512 v46 shapeCasts_S512x1_S512
  have v48 : FVec F S512 .f32 := Host.divf v47 call6_v2
  have c_3 : IVec S_ 32 := constantI S_ 32 0#32
  have call7_v0 : FVec F S_ .f32 := sitofp .f32 c_3
  have call7_v1 : FVec F S512 .f32 := broadcastInDim S512 ![] bcast_S_S512 call7_v0
  have call7_v2 : FVec F S512 .f32 := select v45 call7_v1 v48
  have v50 : FVec F S512x1 .f32 := extractStridedSlice S512x1 ![0, 0] call3_v1 slices_S512x3_S512x1_0_0
  have v51 : FVec F S512 .f32 := shapeCast S512 v50 shapeCasts_S512x1_S512
  have cst_4 : FVec F S_ .f32 := constant S_ .f32 0x00000000#32
  have v52 : FVec F S512 .f32 := broadcastInDim S512 ![] bcast_S_S512 cst_4
  have v53 : IVec S512 1 := cmpf .oeq v51 v52
  have v54 : FVec F S512x1 .f32 := extractStridedSlice S512x1 ![0, 0] call4_v1 slices_S512x3_S512x1_0_0
  have v55 : FVec F S512 .f32 := shapeCast S512 v54 shapeCasts_S512x1_S512
  have v56 : FVec F S512 .f32 := Host.divf v55 call6_v2
  have c_5 : IVec S_ 32 := constantI S_ 32 0#32
  have call8_v0 : FVec F S_ .f32 := sitofp .f32 c_5
  have call8_v1 : FVec F S512 .f32 := broadcastInDim S512 ![] bcast_S_S512 call8_v0
  have call8_v2 : FVec F S512 .f32 := select v53 call8_v1 v56
  have v58 : FVec F S512x1 .f32 := broadcastInDim S512x1 ![0] bcast_S512_S512x1_0 call7_v2
  have v59 : FVec F S512x3 .f32 := broadcastInDim S512x3 ![0, 1] bcast_S512x1_S512x3_0_1 v58
  have v60 : FVec F S512x3 .f32 := mulf v59 call3_v1
  have v61 : FVec F S512x3 .f32 := subf call1_v1 v60
  have v62 : FVec F S512x1 .f32 := broadcastInDim S512x1 ![0] bcast_S512_S512x1_0 call8_v2
  have v63 : FVec F S512x3 .f32 := broadcastInDim S512x3 ![0, 1] bcast_S512x1_S512x3_0_1 v62
  have v64 : FVec F S512x3 .f32 := mulf v63 call3_v1
  have v65 : FVec F S512x3 .f32 := subf call4_v1 v64
  have v66 : FVec F S512x1 .f32 := extractStridedSlice S512x1 ![0, 1] v65 slices_S512x3_S512x1_0_1
  have v67 : FVec F S512 .f32 := shapeCast S512 v66 shapeCasts_S512x1_S512
  have v68 : FVec F S512 .f32 := Host.absf v67
  have v69 : FVec F S512x1 .f32 := extractStridedSlice S512x1 ![0, 1] v61 slices_S512x3_S512x1_0_1
  have v70 : FVec F S512 .f32 := shapeCast S512 v69 shapeCasts_S512x1_S512
  have v71 : FVec F S512 .f32 := Host.absf v70
  have v72 : IVec S512 1 := cmpf .ogt v68 v71
  have v73 : IVec S512x1 1 := broadcastInDim S512x1 ![0] bcast_S512_S512x1_0 v72
  have call9_v0 : IVec S512x3 1 := broadcastInDim S512x3 ![0, 1] bcast_S512x1_S512x3_0_1 v73
  have call9_v1 : FVec F S512x3 .f32 := select call9_v0 v65 v61
  have v75 : IVec S512x1 1 := broadcastInDim S512x1 ![0] bcast_S512_S512x1_0 v72
  have call10_v0 : IVec S512x3 1 := broadcastInDim S512x3 ![0, 1] bcast_S512x1_S512x3_0_1 v75
  have call10_v1 : FVec F S512x3 .f32 := select call10_v0 v61 v65
  have v77 : IVec S512 32 := negi call5_v0
  have call11_v0 : IVec S512 32 := select v72 v77 call5_v0
  have v79 : FVec F S512x1 .f32 := extractStridedSlice S512x1 ![0, 1] call9_v1 slices_S512x3_S512x1_0_1
  have v80 : FVec F S512 .f32 := shapeCast S512 v79 shapeCasts_S512x1_S512
  have cst_6 : FVec F S_ .f32 := constant S_ .f32 0x00000000#32
  have v81 : FVec F S512 .f32 := broadcastInDim S512 ![] bcast_S_S512 cst_6
  have v82 : IVec S512 1 := cmpf .oeq v80 v81
  have v83 : FVec F S512x1 .f32 := extractStridedSlice S512x1 ![0, 1] call9_v1 slices_S512x3_S512x1_0_1
  have v84 : FVec F S512 .f32 := shapeCast S512 v83 shapeCasts_S512x1_S512
  have c_7 : IVec S_ 32 := constantI S_ 32 1#32
  have call12_v0 : FVec F S_ .f32 := sitofp .f32 c_7
  have call12_v1 : FVec F S512 .f32 := broadcastInDim S512 ![] bcast_S_S512 call12_v0
  have call12_v2 : FVec F S512 .f32 := select v82 call12_v1 v84
  have v86 : FVec F S512x1 .f32 := extractStridedSlice S512x1 ![0, 1] call9_v1 slices_S512x3_S512x1_0_1
  have v87 : FVec F S512 .f32 := shapeCast S512 v86 shapeCasts_S512x1_S512
  have cst_8 : FVec F S_ .f32 := constant S_ .f32 0x00000000#32
  have v88 : FVec F S512 .f32 := broadcastInDim S512 ![] bcast_S_S512 cst_8
  have v89 : IVec S512 1 := cmpf .oeq v87 v88
  have v90 : FVec F S512x1 .f32 := extractStridedSlice S512x1 ![0, 1] call10_v1 slices_S512x3_S512x1_0_1
  have v91 : FVec F S512 .f32 := shapeCast S512 v90 shapeCasts_S512x1_S512
  have v92 : FVec F S512 .f32 := Host.divf v91 call12_v2
  have c_9 : IVec S_ 32 := constantI S_ 32 0#32
  have call13_v0 : FVec F S_ .f32 := sitofp .f32 c_9
  have call13_v1 : FVec F S512 .f32 := broadcastInDim S512 ![] bcast_S_S512 call13_v0
  have call13_v2 : FVec F S512 .f32 := select v89 call13_v1 v92
  have v94 : FVec F S512x1 .f32 := extractStridedSlice S512x1 ![0, 2] call10_v1 slices_S512x3_S512x1_0_2
  have v95 : FVec F S512 .f32 := shapeCast S512 v94 shapeCasts_S512x1_S512
  have v96 : FVec F S512x1 .f32 := extractStridedSlice S512x1 ![0, 2] call9_v1 slices_S512x3_S512x1_0_2
  have v97 : FVec F S512 .f32 := shapeCast S512 v96 shapeCasts_S512x1_S512
  have v98 : FVec F S512 .f32 := mulf call13_v2 v97
  have v99 : FVec F S512 .f32 := subf v95 v98
  have v100 : FVec F S512x1 .f32 := extractStridedSlice S512x1 ![0, 0] call3_v1 slices_S512x3_S512x1_0_0
  have v101 : FVec F S512 .f32 := shapeCast S512 v100 shapeCasts_S512x1_S512
  have v102 : FVec F S512 .f32 := sitofp .f32 call11_v0
  have v103 : FVec F S512 .f32 := mulf v102 v101
  have v104 : FVec F S512x1 .f32 := extractStridedSlice S512x1 ![0, 1] call9_v1 slices_S512x3_S512x1_0_1
  have v105 : FVec F S512 .f32 := shapeCast S512 v104 shapeCasts_S512x1_S512
  have v106 : FVec F S512 .f32 := mulf v103 v105
  have v107 : FVec F S512 .f32 := mulf v106 v99
  v107

end Cert.KernelIdeal.Hand

end
-- ==== Proof.KernelIdealTerms.lean ====
/-
  The two results of the kernel program's host lines as terms over the contents they read.

  The forces are the pair forces scatter-added at row 0 of the edge index, minus columns 0–2 of the fused nine-column
  array scatter-added at row 1. The stress is columns 3–8 of that same scatter-add, scatter-added to the 512 systems at
  the batch index and divided by the absolute value of each system's cell determinant, broadcast along the six
  components.
-/
import proofs.«119113_j84086869721639_2_alg».proof.Proof.KernelIdealDet

set_option synthInstance.maxSize 4096

noncomputable section

namespace Cert.KernelIdeal.Hand

open Idealize.ShloMosaic Idealize.SL.Sem
open Cert.KernelIdeal
open Cert.KernelIdeal.Facts₀ Cert.KernelIdeal.Facts

variable {F : FTy → Type} [FloatOps F] [Facts]

/-- Row 0 of the edge index as a column: the slice [0:1, 0:E], reshaped to [E], broadcast to [E, 1]. -/
def idxCol0 (a2 : IVec S2x6400000 32) : IVec S6400000x1 32 :=
  have v0 : IVec S1x6400000 32 := extractStridedSlice S1x6400000 ![0, 0] a2 slices_S2x6400000_S1x6400000_0_0
  have v1 : IVec S6400000 32 := shapeCast S6400000 v0 shapeCasts_S1x6400000_S6400000
  have v3 : IVec S6400000x1 32 := broadcastInDim S6400000x1 ![0] bcast_S6400000_S6400000x1_0 v1
  v3

/-- Row 1 of the edge index as a column: the slice [1:2, 0:E], reshaped to [E], broadcast to [E, 1]. -/
def idxCol1 (a2 : IVec S2x6400000 32) : IVec S6400000x1 32 :=
  have v5 : IVec S1x6400000 32 := extractStridedSlice S1x6400000 ![1, 0] a2 slices_S2x6400000_S1x6400000_1_0
  have v6 : IVec S6400000 32 := shapeCast S6400000 v5 shapeCasts_S1x6400000_S6400000
  have v8 : IVec S6400000x1 32 := broadcastInDim S6400000x1 ![0] bcast_S6400000_S6400000x1_0 v6
  v8

/-- The zero array of shape [100000, 3]: the scalar zero broadcast. -/
def zeros3 : FVec F S100000x3 .f32 :=
  broadcastInDim S100000x3 ![] bcast_S_S100000x3 (constant S_ .f32 0x00000000#32)

/-- The zero array of shape [100000, 9]. -/
def zeros100000x9 : FVec F S100000x9 .f32 :=
  broadcastInDim S100000x9 ![] bcast_S_S100000x9 (constant S_ .f32 0x00000000#32)

/-- The zero array of shape [512, 6]. -/
def zeros512x6 : FVec F S512x6 .f32 :=
  broadcastInDim S512x6 ![] bcast_S_S512x6 (constant S_ .f32 0x00000000#32)

/-- The fused array scatter-added to atoms at row 1 of the edge index: nine columns per atom. -/
def perAtom9 (a2 : IVec S2x6400000 32) (comb : FVec F S6400000x9 .f32) : FVec F S100000x9 .f32 :=
  Host.scatterAdd scatter_S100000x9_S6400000x1_S6400000x9_1_0_0_1 zeros100000x9 (idxCol1 a2) comb

/-- The forces: the pair forces scatter-added at row 0 of the edge index minus columns 0–2 of the per-atom sums of the
    fused array. -/
def forcesK (a0 : FVec F S6400000x3 .f32) (a2 : IVec S2x6400000 32) (comb : FVec F S6400000x9 .f32) : FVec F S100000x3 .f32 :=
  subf (Host.scatterAdd scatter_S100000x3_S6400000x1_S6400000x3_1_0_0_1 zeros3 (idxCol0 a2) a0)
    (extractStridedSlice S100000x3 ![0, 0] (perAtom9 a2 comb) slices_S100000x9_S100000x3_0_0)

/-- The stress: columns 3–8 of the per-atom sums of the fused array, scatter-added to systems at the batch index, each
    system's six components divided by the absolute value of its cell determinant. -/
def stressK (comb : FVec F S6400000x9 .f32) (a2 : IVec S2x6400000 32) (a3 : IVec S100000 32)
    (a4 : FVec F S512x3x3 .f32) : FVec F S512x6 .f32 :=
  Host.divf
    (Host.scatterAdd scatter_S512x6_S100000x1_S100000x6_1_0_0_1 zeros512x6
      (broadcastInDim S100000x1 ![0] bcast_S100000_S100000x1_0 a3)
      (extractStridedSlice S100000x6 ![0, 3] (perAtom9 a2 comb) slices_S100000x9_S100000x6_0_3))
    (broadcastInDim S512x6 ![0, 1] bcast_S512x1_S512x6_0_1
      (broadcastInDim S512x1 ![0] bcast_S512_S512x1_0 (Host.absf (det a4))))

end Cert.KernelIdeal.Hand

end
-- ==== Proof.KernelIdealTail.lean ====
/-
  What the host lines after the region compute, from ANY contents of the buffers they read.

  The 161 lines are a straight line in three stretches: each line writes one buffer of its own from buffers written
  before it or from the arguments and the fused array. The first stretch (19 lines) makes the force result and the
  per-system sums of the virial; the second (138 lines) is the determinant of the cells and reads nothing the first
  wrote; the third (4 lines) divides the sums by the determinant's absolute value.
-/
import proofs.«119113_j84086869721639_2_alg».proof.Proof.KernelIdealRun
import proofs.«119113_j84086869721639_2_alg».proof.Proof.KernelIdealTerms
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- Lines run one stretch after the other: the contents after both are the second's from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem tail_flatten : (tail (F := F)).flatten = hostOps1 ++ (hostOps1_1 ++ hostOps1_2) := by
  simp only [tail, List.flatten_cons, List.flatten_nil, List.append_nil]

/-- A stretch leaves a buffer none of its lines writes as it found it: decided line by line. -/
local macro "stretch_keeps" : tactic => `(tactic| (
  refine after_of_forall_not_mem _ _ (List.forall_iff_forall_mem.mp ?_)
  simp only [hostOps1, hostOps1_1, hostOps1_2, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (by decide)))

/-! ## The first stretch -/

set_option maxHeartbeats 2000000 in
theorem s1_forces (W : Valuation τ sig (Elt F)) :
    after (hostOps1 (F := F)) W (Proc.devRef .tc main_v13)
      = forcesK (W (Proc.devRef .tc main_arg0)) (W (Proc.devRef .tc main_arg2)) (W (Proc.devRef .tc main_v0)) := by
  simp only [hostOps1]
  after_results_simp
  rfl

/-- The per-system sums of columns 3–8 of the per-atom sums. -/
def sums512 (comb : FVec F S6400000x9 .f32) (a2 : IVec S2x6400000 32) (a3 : IVec S100000 32) : FVec F S512x6 .f32 :=
  Host.scatterAdd scatter_S512x6_S100000x1_S100000x6_1_0_0_1 zeros512x6
    (broadcastInDim S100000x1 ![0] bcast_S100000_S100000x1_0 a3)
    (extractStridedSlice S100000x6 ![0, 3] (perAtom9 a2 comb) slices_S100000x9_S100000x6_0_3)

set_option maxHeartbeats 2000000 in
theorem s1_sums (W : Valuation τ sig (Elt F)) :
    after (hostOps1 (F := F)) W (Proc.devRef .tc main_v16)
      = sums512 (W (Proc.devRef .tc main_v0)) (W (Proc.devRef .tc main_arg2)) (W (Proc.devRef .tc main_arg3)) := by
  simp only [hostOps1]
  after_results_simp
  rfl

theorem s1_arg4 (W : Valuation τ sig (Elt F)) :
    after (hostOps1 (F := F)) W (Proc.devRef .tc main_arg4) = W (Proc.devRef .tc main_arg4) := by stretch_keeps

/-! ## The determinant stretch -/

theorem s2_v13 (W : Valuation τ sig (Elt F)) :
    after (hostOps1_1 (F := F)) W (Proc.devRef .tc main_v13) = W (Proc.devRef .tc main_v13) := by stretch_keeps
theorem s2_v16 (W : Valuation τ sig (Elt F)) :
    after (hostOps1_1 (F := F)) W (Proc.devRef .tc main_v16) = W (Proc.devRef .tc main_v16) := by stretch_keeps

/-- The determinant stretch computes `det` of the cells: both sides unfold, line by line, to the same term. -/
theorem s2_det (W : Valuation τ sig (Elt F)) :
    after (hostOps1_1 (F := F)) W (Proc.devRef .tc main_v17) = det (W (Proc.devRef .tc main_arg4)) := by
  chain_rfl

/-! ## The last stretch -/

theorem s3_v13 (W : Valuation τ sig (Elt F)) :
    after (hostOps1_2 (F := F)) W (Proc.devRef .tc main_v13) = W (Proc.devRef .tc main_v13) := by stretch_keeps

theorem s3_stress (W : Valuation τ sig (Elt F)) :
    after (hostOps1_2 (F := F)) W (Proc.devRef .tc main_v21)
      = Host.divf (W (Proc.devRef .tc main_v16))
          (broadcastInDim S512x6 ![0, 1] bcast_S512x1_S512x6_0_1
            (broadcastInDim S512x1 ![0] bcast_S512_S512x1_0 (Host.absf (W (Proc.devRef .tc main_v17))))) := by
  simp only [hostOps1_2]
  after_results_simp

/-! ## All the lines -/

/-- The force result after the later lines. -/
theorem tail_forces (W : Valuation τ sig (Elt F)) :
    after (tail (F := F)).flatten W (Proc.devRef .tc main_v13)
      = forcesK (W (Proc.devRef .tc main_arg0)) (W (Proc.devRef .tc main_arg2)) (W (Proc.devRef .tc main_v0)) := by
  rw [tail_flatten, after_append, after_append, s3_v13, s2_v13, s1_forces]

/-- The stress result after the later lines. -/
theorem tail_stress (W : Valuation τ sig (Elt F)) :
    after (tail (F := F)).flatten W (Proc.devRef .tc main_v21)
      = stressK (W (Proc.devRef .tc main_v0)) (W (Proc.devRef .tc main_arg2)) (W (Proc.devRef .tc main_arg3))
          (W (Proc.devRef .tc main_arg4)) := by
  rw [tail_flatten, after_append, after_append, s3_stress, s2_v16, s2_det, s1_sums, s1_arg4]
  rfl

end Cert.KernelIdeal.Hand

end
-- ==== Proof.KernelIdealValue.lean ====
/-
  The idealized kernel program's run with its two results named.

  When the region ends, the fused array holds the fused nine columns of the two edge arrays, the two edge arrays and
  every buffer that bypasses the region hold their launch contents. The later lines then compute the forces and the
  stress from those contents.
-/
import proofs.«119113_j84086869721639_2_alg».proof.Proof.KernelIdealArray
import proofs.«119113_j84086869721639_2_alg».proof.Proof.KernelIdealTail

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Core `c`'s buffer contents when the region ends: the pipeline's arrays at what the blocks say, every other buffer
    as launched. -/
abbrev exitVal (c : Dev nD) : Valuation τ sig (Elt Ideal) :=
  Pipeline.withArrays spec0 c (V0 m c) fun w => (dats m 0 c).arrAt w cfg0.N

theorem exit_v0 (c : Dev nD) : exitVal m c (Proc.devRef .tc main_v0) = fusedArr m c :=
  (Pipeline.withArrays_arr spec0 launch0.win.arr_inj c _ _ 2).trans (final m c)

theorem exit_arg0 (c : Dev nD) : exitVal m c (Proc.devRef .tc main_arg0) = m ((c.tc : Thread nD τ).loc main_arg0) :=
  (Pipeline.withArrays_arr spec0 launch0.win.arr_inj c _ _ 1).trans (((dats m 0 c).arrAt_in 1 rfl _).trans (A_eq m c 1))

theorem exit_arg2 (c : Dev nD) : exitVal m c (Proc.devRef .tc main_arg2) = m ((c.tc : Thread nD τ).loc main_arg2) :=
  Pipeline.withArrays_of_ne _ c (V0 m c) _ main_arg2 (by decide)

theorem exit_arg3 (c : Dev nD) : exitVal m c (Proc.devRef .tc main_arg3) = m ((c.tc : Thread nD τ).loc main_arg3) :=
  Pipeline.withArrays_of_ne _ c (V0 m c) _ main_arg3 (by decide)

theorem exit_arg4 (c : Dev nD) : exitVal m c (Proc.devRef .tc main_arg4) = m ((c.tc : Thread nD τ).loc main_arg4) :=
  Pipeline.withArrays_of_ne _ c (V0 m c) _ main_arg4 (by decide)

/-- The force result. -/
theorem forces_val (c : Dev nD) : Pipeline.afterTail₀ cfgs (dats m) 0 (V0 m) tail c main_v13
    = forcesK (F := Ideal) (m ((c.tc : Thread nD τ).loc main_arg0)) (m ((c.tc : Thread nD τ).loc main_arg2)) (fusedArr m c) := by
  unfold Pipeline.afterTail₀
  show StableHlo.after (tail (F := Ideal)).flatten (exitVal m c) (Proc.devRef .tc main_v13) = _
  rw [tail_forces, exit_arg0, exit_arg2, exit_v0]

/-- The stress result. -/
theorem stress_val (c : Dev nD) : Pipeline.afterTail₀ cfgs (dats m) 0 (V0 m) tail c main_v21
    = stressK (F := Ideal) (fusedArr m c) (m ((c.tc : Thread nD τ).loc main_arg2)) (m ((c.tc : Thread nD τ).loc main_arg3))
        (m ((c.tc : Thread nD τ).loc main_arg4)) := by
  unfold Pipeline.afterTail₀
  show StableHlo.after (tail (F := Ideal)).flatten (exitVal m c) (Proc.devRef .tc main_v21) = _
  rw [tail_stress, exit_v0, exit_arg2, exit_arg3, exit_arg4]

/-- Every weakly fair execution of the idealized kernel program terminates with the forces and the stress at these
    terms of the launch contents, and the arguments unchanged. -/
theorem run : θ_run defs (onTc (τ := τ) (main (F := Ideal))) ⟨m, fun _ => 0, ρ⟩ (fun r => ∀ c : Dev nD,
      r.2.mem ((c.tc : Thread nD τ).loc main_v13)
        = forcesK (F := Ideal) (m ((c.tc : Thread nD τ).loc main_arg0)) (m ((c.tc : Thread nD τ).loc main_arg2)) (fusedArr m c)
      ∧ r.2.mem ((c.tc : Thread nD τ).loc main_v21)
        = stressK (F := Ideal) (fusedArr m c) (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (forces_val m c), (h c).2.1.trans (stress_val m c), (h c).2.2⟩)
    (run_read m ρ)

end Cert.KernelIdeal.Hand

end
-- ==== Proof.RefOps.lean ====
/-
  The reference program as three straight lines of operations: the 43 operations of the entry function
  before it calls the determinant function, the 138 operations of that call (the determinant function's
  body with each call of a selection helper replaced by the helper's operations, over the buffers of this
  call), and the entry function's last 4 operations. The entry function is their concatenation, run in order.
-/
import proofs.«119113_j84086869721639_2_alg».proof.ReferenceIdeal
import Idealize.ShloMosaic.Lib.StableHlo.Run
import Idealize.ShloMosaic.Lib.Pipeline.Regions

set_option synthInstance.maxSize 4096

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀ Cert.ReferenceIdeal.Facts

variable {F : FTy → Type} [FloatOps F] [Facts]

/-- The entry function's first 43 operations, in order. -/
abbrev ops1 : List (HloOp τ sig (Elt F)) :=
  [
    StableHlo.unary main_arg2 main_v0 ((extractStridedSlice S1x6400000 ![0, 0] · slices_S2x6400000_S1x6400000_0_0) : (⟨S2x6400000, .i32⟩ : BufTy).Contents (Elt F) → (⟨S1x6400000, .i32⟩ : BufTy).Contents (Elt F)),
    StableHlo.reshape main_v0 main_v1 rfl shapeCasts_S1x6400000_S6400000,
    StableHlo.nullary main_cst (constant S_ .f32 0x00000000#32),
    StableHlo.unary main_cst main_v2 (broadcastInDim S100000x3 ![] bcast_S_S100000x3 : (⟨S_, .f32⟩ : BufTy).Contents (Elt F) → (⟨S100000x3, .f32⟩ : BufTy).Contents (Elt F)),
    StableHlo.unary main_v1 main_v3 (broadcastInDim S6400000x1 ![0] bcast_S6400000_S6400000x1_0 : (⟨S6400000, .i32⟩ : BufTy).Contents (Elt F) → (⟨S6400000x1, .i32⟩ : BufTy).Contents (Elt F)),
    StableHlo.ternary main_v2 main_v3 main_arg0 main_v4 ((fun x i u => Host.scatterAdd scatter_S100000x3_S6400000x1_S6400000x3_1_0_0_1 x i u) : (⟨S100000x3, .f32⟩ : BufTy).Contents (Elt F) → (⟨S6400000x1, .i32⟩ : BufTy).Contents (Elt F) → (⟨S6400000x3, .f32⟩ : BufTy).Contents (Elt F) → (⟨S100000x3, .f32⟩ : BufTy).Contents (Elt F)),
    StableHlo.unary main_arg2 main_v5 ((extractStridedSlice S1x6400000 ![1, 0] · slices_S2x6400000_S1x6400000_1_0) : (⟨S2x6400000, .i32⟩ : BufTy).Contents (Elt F) → (⟨S1x6400000, .i32⟩ : BufTy).Contents (Elt F)),
    StableHlo.reshape main_v5 main_v6 rfl shapeCasts_S1x6400000_S6400000,
    StableHlo.nullary main_cst_0 (constant S_ .f32 0x00000000#32),
    StableHlo.unary main_cst_0 main_v7 (broadcastInDim S100000x3 ![] bcast_S_S100000x3 : (⟨S_, .f32⟩ : BufTy).Contents (Elt F) → (⟨S100000x3, .f32⟩ : BufTy).Contents (Elt F)),
    StableHlo.unary main_v6 main_v8 (broadcastInDim S6400000x1 ![0] bcast_S6400000_S6400000x1_0 : (⟨S6400000, .i32⟩ : BufTy).Contents (Elt F) → (⟨S6400000x1, .i32⟩ : BufTy).Contents (Elt F)),
    StableHlo.ternary main_v7 main_v8 main_arg0 main_v9 ((fun x i u => Host.scatterAdd scatter_S100000x3_S6400000x1_S6400000x3_1_0_0_1 x i u) : (⟨S100000x3, .f32⟩ : BufTy).Contents (Elt F) → (⟨S6400000x1, .i32⟩ : BufTy).Contents (Elt F) → (⟨S6400000x3, .f32⟩ : BufTy).Contents (Elt F) → (⟨S100000x3, .f32⟩ : BufTy).Contents (Elt F)),
    StableHlo.binary main_v4 main_v9 main_v10 (subf : (⟨S100000x3, .f32⟩ : BufTy).Contents (Elt F) → (⟨S100000x3, .f32⟩ : BufTy).Contents (Elt F) → (⟨S100000x3, .f32⟩ : BufTy).Contents (Elt F)),
    StableHlo.binary main_arg1 main_arg0 main_v11 (mulf : (⟨S6400000x3, .f32⟩ : BufTy).Contents (Elt F) → (⟨S6400000x3, .f32⟩ : BufTy).Contents (Elt F) → (⟨S6400000x3, .f32⟩ : BufTy).Contents (Elt F)),
    StableHlo.unary main_arg1 main_v12 ((extractStridedSlice S6400000x1 ![0, 0] · slices_S6400000x3_S6400000x1_0_0) : (⟨S6400000x3, .f32⟩ : BufTy).Contents (Elt F) → (⟨S6400000x1, .f32⟩ : BufTy).Contents (Elt F)),
    StableHlo.reshape main_v12 main_v13 rfl shapeCasts_S6400000x1_S6400000,
    StableHlo.unary main_arg0 main_v14 ((extractStridedSlice S6400000x1 ![0, 1] · slices_S6400000x3_S6400000x1_0_1) : (⟨S6400000x3, .f32⟩ : BufTy).Contents (Elt F) → (⟨S6400000x1, .f32⟩ : BufTy).Contents (Elt F)),
    StableHlo.reshape main_v14 main_v15 rfl shapeCasts_S6400000x1_S6400000,
    StableHlo.binary main_v13 main_v15 main_v16 (mulf : (⟨S6400000, .f32⟩ : BufTy).Contents (Elt F) → (⟨S6400000, .f32⟩ : BufTy).Contents (Elt F) → (⟨S6400000, .f32⟩ : BufTy).Contents (Elt F)),
    StableHlo.unary main_arg1 main_v17 ((extractStridedSlice S6400000x1 ![0, 1] · slices_S6400000x3_S6400000x1_0_1) : (⟨S6400000x3, .f32⟩ : BufTy).Contents (Elt F) → (⟨S6400000x1, .f32⟩ : BufTy).Contents (Elt F)),
    StableHlo.reshape main_v17 main_v18 rfl shapeCasts_S6400000x1_S6400000,
    StableHlo.unary main_arg0 main_v19 ((extractStridedSlice S6400000x1 ![0, 2] · slices_S6400000x3_S6400000x1_0_2) : (⟨S6400000x3, .f32⟩ : BufTy).Contents (Elt F) → (⟨S6400000x1, .f32⟩ : BufTy).Contents (Elt F)),
    StableHlo.reshape main_v19 main_v20 rfl shapeCasts_S6400000x1_S6400000,
    StableHlo.binary main_v18 main_v20 main_v21 (mulf : (⟨S6400000, .f32⟩ : BufTy).Contents (Elt F) → (⟨S6400000, .f32⟩ : BufTy).Contents (Elt F) → (⟨S6400000, .f32⟩ : BufTy).Contents (Elt F)),
    StableHlo.unary main_arg1 main_v22 ((extractStridedSlice S6400000x1 ![0, 2] · slices_S6400000x3_S6400000x1_0_2) : (⟨S6400000x3, .f32⟩ : BufTy).Contents (Elt F) → (⟨S6400000x1, .f32⟩ : BufTy).Contents (Elt F)),
    StableHlo.reshape main_v22 main_v23 rfl shapeCasts_S6400000x1_S6400000,
    StableHlo.unary main_arg0 main_v24 ((extractStridedSlice S6400000x1 ![0, 0] · slices_S6400000x3_S6400000x1_0_0) : (⟨S6400000x3, .f32⟩ : BufTy).Contents (Elt F) → (⟨S6400000x1, .f32⟩ : BufTy).Contents (Elt F)),
    StableHlo.reshape main_v24 main_v25 rfl shapeCasts_S6400000x1_S6400000,
    StableHlo.binary main_v23 main_v25 main_v26 (mulf : (⟨S6400000, .f32⟩ : BufTy).Contents (Elt F) → (⟨S6400000, .f32⟩ : BufTy).Contents (Elt F) → (⟨S6400000, .f32⟩ : BufTy).Contents (Elt F)),
    StableHlo.unary main_v21 main_v27 (broadcastInDim S6400000x1 ![0] bcast_S6400000_S6400000x1_0 : (⟨S6400000, .f32⟩ : BufTy).Contents (Elt F) → (⟨S6400000x1, .f32⟩ : BufTy).Contents (Elt F)),
    StableHlo.unary main_v26 main_v28 (broadcastInDim S6400000x1 ![0] bcast_S6400000_S6400000x1_0 : (⟨S6400000, .f32⟩ : BufTy).Contents (Elt F) → (⟨S6400000x1, .f32⟩ : BufTy).Contents (Elt F)),
    StableHlo.unary main_v16 main_v29 (broadcastInDim S6400000x1 ![0] bcast_S6400000_S6400000x1_0 : (⟨S6400000, .f32⟩ : BufTy).Contents (Elt F) → (⟨S6400000x1, .f32⟩ : BufTy).Contents (Elt F)),
    StableHlo.nary ![main_v11, main_v27, main_v28, main_v29] main_v30 (fun u => concatenate S6400000x6 1 [⟨S6400000x3, u 0⟩, ⟨S6400000x1, u 1⟩, ⟨S6400000x1, u 2⟩, ⟨S6400000x1, u 3⟩] concatenates_S6400000x3_S6400000x1_S6400000x1_S6400000x1_S6400000x6_d1),
    StableHlo.unary main_arg2 main_v31 ((extractStridedSlice S1x6400000 ![1, 0] · slices_S2x6400000_S1x6400000_1_0) : (⟨S2x6400000, .i32⟩ : BufTy).Contents (Elt F) → (⟨S1x6400000, .i32⟩ : BufTy).Contents (Elt F)),
    StableHlo.reshape main_v31 main_v32 rfl shapeCasts_S1x6400000_S6400000,
    StableHlo.nullary main_cst_1 (constant S_ .f32 0x00000000#32),
    StableHlo.unary main_cst_1 main_v33 (broadcastInDim S100000x6 ![] bcast_S_S100000x6 : (⟨S_, .f32⟩ : BufTy).Contents (Elt F) → (⟨S100000x6, .f32⟩ : BufTy).Contents (Elt F)),
    StableHlo.unary main_v32 main_v34 (broadcastInDim S6400000x1 ![0] bcast_S6400000_S6400000x1_0 : (⟨S6400000, .i32⟩ : BufTy).Contents (Elt F) → (⟨S6400000x1, .i32⟩ : BufTy).Contents (Elt F)),
    StableHlo.ternary main_v33 main_v34 main_v30 main_v35 ((fun x i u => Host.scatterAdd scatter_S100000x6_S6400000x1_S6400000x6_1_0_0_1 x i u) : (⟨S100000x6, .f32⟩ : BufTy).Contents (Elt F) → (⟨S6400000x1, .i32⟩ : BufTy).Contents (Elt F) → (⟨S6400000x6, .f32⟩ : BufTy).Contents (Elt F) → (⟨S100000x6, .f32⟩ : BufTy).Contents (Elt F)),
    StableHlo.nullary main_cst_2 (constant S_ .f32 0x00000000#32),
    StableHlo.unary main_cst_2 main_v36 (broadcastInDim S512x6 ![] bcast_S_S512x6 : (⟨S_, .f32⟩ : BufTy).Contents (Elt F) → (⟨S512x6, .f32⟩ : BufTy).Contents (Elt F)),
    StableHlo.unary main_arg3 main_v37 (broadcastInDim S100000x1 ![0] bcast_S100000_S100000x1_0 : (⟨S100000, .i32⟩ : BufTy).Contents (Elt F) → (⟨S100000x1, .i32⟩ : BufTy).Contents (Elt F)),
    StableHlo.ternary main_v36 main_v37 main_v35 main_v38 ((fun x i u => Host.scatterAdd scatter_S512x6_S100000x1_S100000x6_1_0_0_1 x i u) : (⟨S512x6, .f32⟩ : BufTy).Contents (Elt F) → (⟨S100000x1, .i32⟩ : BufTy).Contents (Elt F) → (⟨S100000x6, .f32⟩ : BufTy).Contents (Elt F) → (⟨S512x6, .f32⟩ : BufTy).Contents (Elt F)) ]

set_option maxHeartbeats 40000000 in
/-- The 138 operations of the call of the determinant function, in order. -/
abbrev detOps : List (HloOp τ sig (Elt F)) :=
  [
    StableHlo.TRef.unary (.of main_arg4 : StableHlo.TRef sig ⟨S512x3x3, .f32⟩) (.of main_call0_v0 : StableHlo.TRef sig ⟨S512x1x1, .f32⟩) (extractStridedSlice S512x1x1 ![0, 1, 0] · slices_S512x3x3_S512x1x1_0_1_0),
    StableHlo.TRef.reshape (.of main_call0_v0 : StableHlo.TRef sig ⟨S512x1x1, .f32⟩) (.of main_call0_v1 : StableHlo.TRef sig ⟨S512, .f32⟩) rfl shapeCasts_S512x1x1_S512,
    StableHlo.TRef.unary (.of main_call0_v1 : StableHlo.TRef sig ⟨S512, .f32⟩) (.of main_call0_v2 : StableHlo.TRef sig ⟨S512, .f32⟩) Host.absf,
    StableHlo.TRef.unary (.of main_arg4 : StableHlo.TRef sig ⟨S512x3x3, .f32⟩) (.of main_call0_v3 : StableHlo.TRef sig ⟨S512x1x1, .f32⟩) (extractStridedSlice S512x1x1 ![0, 0, 0] · slices_S512x3x3_S512x1x1_0_0_0),
    StableHlo.TRef.reshape (.of main_call0_v3 : StableHlo.TRef sig ⟨S512x1x1, .f32⟩) (.of main_call0_v4 : StableHlo.TRef sig ⟨S512, .f32⟩) rfl shapeCasts_S512x1x1_S512,
    StableHlo.TRef.unary (.of main_call0_v4 : StableHlo.TRef sig ⟨S512, .f32⟩) (.of main_call0_v5 : StableHlo.TRef sig ⟨S512, .f32⟩) Host.absf,
    StableHlo.TRef.binary (.of main_call0_v2 : StableHlo.TRef sig ⟨S512, .f32⟩) (.of main_call0_v5 : StableHlo.TRef sig ⟨S512, .f32⟩) (.of main_call0_v6 : StableHlo.TRef sig ⟨S512, .i1⟩) (cmpf .ogt),
    StableHlo.TRef.unary (.of main_call0_v6 : StableHlo.TRef sig ⟨S512, .i1⟩) (.of main_call0_v7 : StableHlo.TRef sig ⟨S512x1, .i1⟩) (broadcastInDim S512x1 ![0] bcast_S512_S512x1_0),
    StableHlo.TRef.unary (.of main_arg4 : StableHlo.TRef sig ⟨S512x3x3, .f32⟩) (.of main_call0_v8 : StableHlo.TRef sig ⟨S512x1x3, .f32⟩) (extractStridedSlice S512x1x3 ![0, 1, 0] · slices_S512x3x3_S512x1x3_0_1_0),
    StableHlo.TRef.reshape (.of main_call0_v8 : StableHlo.TRef sig ⟨S512x1x3, .f32⟩) (.of main_call0_v9 : StableHlo.TRef sig ⟨S512x3, .f32⟩) rfl shapeCasts_S512x1x3_S512x3,
    StableHlo.TRef.unary (.of main_arg4 : StableHlo.TRef sig ⟨S512x3x3, .f32⟩) (.of main_call0_v10 : StableHlo.TRef sig ⟨S512x1x3, .f32⟩) (extractStridedSlice S512x1x3 ![0, 0, 0] · slices_S512x3x3_S512x1x3_0_0_0),
    StableHlo.TRef.reshape (.of main_call0_v10 : StableHlo.TRef sig ⟨S512x1x3, .f32⟩) (.of main_call0_v11 : StableHlo.TRef sig ⟨S512x3, .f32⟩) rfl shapeCasts_S512x1x3_S512x3,
    StableHlo.TRef.unary (.of main_call0_v7 : StableHlo.TRef sig ⟨S512x1, .i1⟩) (.of main_call0_call0_v0 : StableHlo.TRef sig ⟨S512x3, .i1⟩) (broadcastInDim S512x3 ![0, 1] bcast_S512x1_S512x3_0_1),
    StableHlo.TRef.ternary (.of main_call0_call0_v0 : StableHlo.TRef sig ⟨S512x3, .i1⟩) (.of main_call0_v9 : StableHlo.TRef sig ⟨S512x3, .f32⟩) (.of main_call0_v11 : StableHlo.TRef sig ⟨S512x3, .f32⟩) (.of main_call0_v12 : StableHlo.TRef sig ⟨S512x3, .f32⟩) select,
    StableHlo.TRef.unary (.of main_call0_v6 : StableHlo.TRef sig ⟨S512, .i1⟩) (.of main_call0_v13 : StableHlo.TRef sig ⟨S512x1, .i1⟩) (broadcastInDim S512x1 ![0] bcast_S512_S512x1_0),
    StableHlo.TRef.unary (.of main_arg4 : StableHlo.TRef sig ⟨S512x3x3, .f32⟩) (.of main_call0_v14 : StableHlo.TRef sig ⟨S512x1x3, .f32⟩) (extractStridedSlice S512x1x3 ![0, 0, 0] · slices_S512x3x3_S512x1x3_0_0_0),
    StableHlo.TRef.reshape (.of main_call0_v14 : StableHlo.TRef sig ⟨S512x1x3, .f32⟩) (.of main_call0_v15 : StableHlo.TRef sig ⟨S512x3, .f32⟩) rfl shapeCasts_S512x1x3_S512x3,
    StableHlo.TRef.unary (.of main_arg4 : StableHlo.TRef sig ⟨S512x3x3, .f32⟩) (.of main_call0_v16 : StableHlo.TRef sig ⟨S512x1x3, .f32⟩) (extractStridedSlice S512x1x3 ![0, 1, 0] · slices_S512x3x3_S512x1x3_0_1_0),
    StableHlo.TRef.reshape (.of main_call0_v16 : StableHlo.TRef sig ⟨S512x1x3, .f32⟩) (.of main_call0_v17 : StableHlo.TRef sig ⟨S512x3, .f32⟩) rfl shapeCasts_S512x1x3_S512x3,
    StableHlo.TRef.unary (.of main_call0_v13 : StableHlo.TRef sig ⟨S512x1, .i1⟩) (.of main_call0_call1_v0 : StableHlo.TRef sig ⟨S512x3, .i1⟩) (broadcastInDim S512x3 ![0, 1] bcast_S512x1_S512x3_0_1),
    StableHlo.TRef.ternary (.of main_call0_call1_v0 : StableHlo.TRef sig ⟨S512x3, .i1⟩) (.of main_call0_v15 : StableHlo.TRef sig ⟨S512x3, .f32⟩) (.of main_call0_v17 : StableHlo.TRef sig ⟨S512x3, .f32⟩) (.of main_call0_v18 : StableHlo.TRef sig ⟨S512x3, .f32⟩) select,
    StableHlo.TRef.unary (.of main_arg4 : StableHlo.TRef sig ⟨S512x3x3, .f32⟩) (.of main_call0_v19 : StableHlo.TRef sig ⟨S512x1x3, .f32⟩) (extractStridedSlice S512x1x3 ![0, 2, 0] · slices_S512x3x3_S512x1x3_0_2_0),
    StableHlo.TRef.reshape (.of main_call0_v19 : StableHlo.TRef sig ⟨S512x1x3, .f32⟩) (.of main_call0_v20 : StableHlo.TRef sig ⟨S512x3, .f32⟩) rfl shapeCasts_S512x1x3_S512x3,
    StableHlo.TRef.nullary (.of main_call0_c : StableHlo.TRef sig ⟨S_, .i32⟩) (constantI S_ 32 4294967295#32),
    StableHlo.TRef.nullary (.of main_call0_c_0 : StableHlo.TRef sig ⟨S_, .i32⟩) (constantI S_ 32 1#32),
    StableHlo.TRef.unary (.of main_call0_c : StableHlo.TRef sig ⟨S_, .i32⟩) (.of main_call0_call2_v0 : StableHlo.TRef sig ⟨S512, .i32⟩) (broadcastInDim S512 ![] bcast_S_S512),
    StableHlo.TRef.unary (.of main_call0_c_0 : StableHlo.TRef sig ⟨S_, .i32⟩) (.of main_call0_call2_v1 : StableHlo.TRef sig ⟨S512, .i32⟩) (broadcastInDim S512 ![] bcast_S_S512),
    StableHlo.TRef.ternary (.of main_call0_v6 : StableHlo.TRef sig ⟨S512, .i1⟩) (.of main_call0_call2_v0 : StableHlo.TRef sig ⟨S512, .i32⟩) (.of main_call0_call2_v1 : StableHlo.TRef sig ⟨S512, .i32⟩) (.of main_call0_v21 : StableHlo.TRef sig ⟨S512, .i32⟩) select,
    StableHlo.TRef.unary (.of main_call0_v20 : StableHlo.TRef sig ⟨S512x3, .f32⟩) (.of main_call0_v22 : StableHlo.TRef sig ⟨S512x1, .f32⟩) (extractStridedSlice S512x1 ![0, 0] · slices_S512x3_S512x1_0_0),
    StableHlo.TRef.reshape (.of main_call0_v22 : StableHlo.TRef sig ⟨S512x1, .f32⟩) (.of main_call0_v23 : StableHlo.TRef sig ⟨S512, .f32⟩) rfl shapeCasts_S512x1_S512,
    StableHlo.TRef.unary (.of main_call0_v23 : StableHlo.TRef sig ⟨S512, .f32⟩) (.of main_call0_v24 : StableHlo.TRef sig ⟨S512, .f32⟩) Host.absf,
    StableHlo.TRef.unary (.of main_call0_v12 : StableHlo.TRef sig ⟨S512x3, .f32⟩) (.of main_call0_v25 : StableHlo.TRef sig ⟨S512x1, .f32⟩) (extractStridedSlice S512x1 ![0, 0] · slices_S512x3_S512x1_0_0),
    StableHlo.TRef.reshape (.of main_call0_v25 : StableHlo.TRef sig ⟨S512x1, .f32⟩) (.of main_call0_v26 : StableHlo.TRef sig ⟨S512, .f32⟩) rfl shapeCasts_S512x1_S512,
    StableHlo.TRef.unary (.of main_call0_v26 : StableHlo.TRef sig ⟨S512, .f32⟩) (.of main_call0_v27 : StableHlo.TRef sig ⟨S512, .f32⟩) Host.absf,
    StableHlo.TRef.binary (.of main_call0_v24 : StableHlo.TRef sig ⟨S512, .f32⟩) (.of main_call0_v27 : StableHlo.TRef sig ⟨S512, .f32⟩) (.of main_call0_v28 : StableHlo.TRef sig ⟨S512, .i1⟩) (cmpf .ogt),
    StableHlo.TRef.unary (.of main_call0_v28 : StableHlo.TRef sig ⟨S512, .i1⟩) (.of main_call0_v29 : StableHlo.TRef sig ⟨S512x1, .i1⟩) (broadcastInDim S512x1 ![0] bcast_S512_S512x1_0),
    StableHlo.TRef.unary (.of main_call0_v29 : StableHlo.TRef sig ⟨S512x1, .i1⟩) (.of main_call0_call3_v0 : StableHlo.TRef sig ⟨S512x3, .i1⟩) (broadcastInDim S512x3 ![0, 1] bcast_S512x1_S512x3_0_1),
    StableHlo.TRef.ternary (.of main_call0_call3_v0 : StableHlo.TRef sig ⟨S512x3, .i1⟩) (.of main_call0_v20 : StableHlo.TRef sig ⟨S512x3, .f32⟩) (.of main_call0_v12 : StableHlo.TRef sig ⟨S512x3, .f32⟩) (.of main_call0_v30 : StableHlo.TRef sig ⟨S512x3, .f32⟩) select,
    StableHlo.TRef.unary (.of main_call0_v28 : StableHlo.TRef sig ⟨S512, .i1⟩) (.of main_call0_v31 : StableHlo.TRef sig ⟨S512x1, .i1⟩) (broadcastInDim S512x1 ![0] bcast_S512_S512x1_0),
    StableHlo.TRef.unary (.of main_call0_v31 : StableHlo.TRef sig ⟨S512x1, .i1⟩) (.of main_call0_call4_v0 : StableHlo.TRef sig ⟨S512x3, .i1⟩) (broadcastInDim S512x3 ![0, 1] bcast_S512x1_S512x3_0_1),
    StableHlo.TRef.ternary (.of main_call0_call4_v0 : StableHlo.TRef sig ⟨S512x3, .i1⟩) (.of main_call0_v12 : StableHlo.TRef sig ⟨S512x3, .f32⟩) (.of main_call0_v20 : StableHlo.TRef sig ⟨S512x3, .f32⟩) (.of main_call0_v32 : StableHlo.TRef sig ⟨S512x3, .f32⟩) select,
    StableHlo.TRef.unary (.of main_call0_v21 : StableHlo.TRef sig ⟨S512, .i32⟩) (.of main_call0_v33 : StableHlo.TRef sig ⟨S512, .i32⟩) negi,
    StableHlo.TRef.ternary (.of main_call0_v28 : StableHlo.TRef sig ⟨S512, .i1⟩) (.of main_call0_v33 : StableHlo.TRef sig ⟨S512, .i32⟩) (.of main_call0_v21 : StableHlo.TRef sig ⟨S512, .i32⟩) (.of main_call0_v34 : StableHlo.TRef sig ⟨S512, .i32⟩) select,
    StableHlo.TRef.unary (.of main_call0_v30 : StableHlo.TRef sig ⟨S512x3, .f32⟩) (.of main_call0_v35 : StableHlo.TRef sig ⟨S512x1, .f32⟩) (extractStridedSlice S512x1 ![0, 0] · slices_S512x3_S512x1_0_0),
    StableHlo.TRef.reshape (.of main_call0_v35 : StableHlo.TRef sig ⟨S512x1, .f32⟩) (.of main_call0_v36 : StableHlo.TRef sig ⟨S512, .f32⟩) rfl shapeCasts_S512x1_S512,
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v37 : StableHlo.TRef sig ⟨S512, .f32⟩) (broadcastInDim S512 ![] bcast_S_S512),
    StableHlo.TRef.binary (.of main_call0_v36 : StableHlo.TRef sig ⟨S512, .f32⟩) (.of main_call0_v37 : StableHlo.TRef sig ⟨S512, .f32⟩) (.of main_call0_v38 : StableHlo.TRef sig ⟨S512, .i1⟩) (cmpf .oeq),
    StableHlo.TRef.unary (.of main_call0_v30 : StableHlo.TRef sig ⟨S512x3, .f32⟩) (.of main_call0_v39 : StableHlo.TRef sig ⟨S512x1, .f32⟩) (extractStridedSlice S512x1 ![0, 0] · slices_S512x3_S512x1_0_0),
    StableHlo.TRef.reshape (.of main_call0_v39 : StableHlo.TRef sig ⟨S512x1, .f32⟩) (.of main_call0_v40 : StableHlo.TRef sig ⟨S512, .f32⟩) rfl shapeCasts_S512x1_S512,
    StableHlo.TRef.nullary (.of main_call0_c_1 : StableHlo.TRef sig ⟨S_, .i32⟩) (constantI S_ 32 1#32),
    StableHlo.TRef.unary (.of main_call0_c_1 : StableHlo.TRef sig ⟨S_, .i32⟩) (.of main_call0_call6_v0 : StableHlo.TRef sig ⟨S_, .f32⟩) (sitofp .f32),
    StableHlo.TRef.unary (.of main_call0_call6_v0 : StableHlo.TRef sig ⟨S_, .f32⟩) (.of main_call0_call6_v1 : StableHlo.TRef sig ⟨S512, .f32⟩) (broadcastInDim S512 ![] bcast_S_S512),
    StableHlo.TRef.ternary (.of main_call0_v38 : StableHlo.TRef sig ⟨S512, .i1⟩) (.of main_call0_call6_v1 : StableHlo.TRef sig ⟨S512, .f32⟩) (.of main_call0_v40 : StableHlo.TRef sig ⟨S512, .f32⟩) (.of main_call0_v41 : StableHlo.TRef sig ⟨S512, .f32⟩) select,
    StableHlo.TRef.unary (.of main_call0_v30 : StableHlo.TRef sig ⟨S512x3, .f32⟩) (.of main_call0_v42 : StableHlo.TRef sig ⟨S512x1, .f32⟩) (extractStridedSlice S512x1 ![0, 0] · slices_S512x3_S512x1_0_0),
    StableHlo.TRef.reshape (.of main_call0_v42 : StableHlo.TRef sig ⟨S512x1, .f32⟩) (.of main_call0_v43 : StableHlo.TRef sig ⟨S512, .f32⟩) rfl shapeCasts_S512x1_S512,
    StableHlo.TRef.nullary (.of main_call0_cst_2 : StableHlo.TRef sig ⟨S_, .f32⟩) (constant S_ .f32 0x00000000#32),
    StableHlo.TRef.unary (.of main_call0_cst_2 : StableHlo.TRef sig ⟨S_, .f32⟩) (.of main_call0_v44 : StableHlo.TRef sig ⟨S512, .f32⟩) (broadcastInDim S512 ![] bcast_S_S512),
    StableHlo.TRef.binary (.of main_call0_v43 : StableHlo.TRef sig ⟨S512, .f32⟩) (.of main_call0_v44 : StableHlo.TRef sig ⟨S512, .f32⟩) (.of main_call0_v45 : StableHlo.TRef sig ⟨S512, .i1⟩) (cmpf .oeq),
    StableHlo.TRef.unary (.of main_call0_v18 : StableHlo.TRef sig ⟨S512x3, .f32⟩) (.of main_call0_v46 : StableHlo.TRef sig ⟨S512x1, .f32⟩) (extractStridedSlice S512x1 ![0, 0] · slices_S512x3_S512x1_0_0),
    StableHlo.TRef.reshape (.of main_call0_v46 : StableHlo.TRef sig ⟨S512x1, .f32⟩) (.of main_call0_v47 : StableHlo.TRef sig ⟨S512, .f32⟩) rfl shapeCasts_S512x1_S512,
    StableHlo.TRef.binary (.of main_call0_v47 : StableHlo.TRef sig ⟨S512, .f32⟩) (.of main_call0_v41 : StableHlo.TRef sig ⟨S512, .f32⟩) (.of main_call0_v48 : StableHlo.TRef sig ⟨S512, .f32⟩) Host.divf,
    StableHlo.TRef.nullary (.of main_call0_c_3 : StableHlo.TRef sig ⟨S_, .i32⟩) (constantI S_ 32 0#32),
    StableHlo.TRef.unary (.of main_call0_c_3 : StableHlo.TRef sig ⟨S_, .i32⟩) (.of main_call0_call7_v0 : StableHlo.TRef sig ⟨S_, .f32⟩) (sitofp .f32),
    StableHlo.TRef.unary (.of main_call0_call7_v0 : StableHlo.TRef sig ⟨S_, .f32⟩) (.of main_call0_call7_v1 : StableHlo.TRef sig ⟨S512, .f32⟩) (broadcastInDim S512 ![] bcast_S_S512),
    StableHlo.TRef.ternary (.of main_call0_v45 : StableHlo.TRef sig ⟨S512, .i1⟩) (.of main_call0_call7_v1 : StableHlo.TRef sig ⟨S512, .f32⟩) (.of main_call0_v48 : StableHlo.TRef sig ⟨S512, .f32⟩) (.of main_call0_v49 : StableHlo.TRef sig ⟨S512, .f32⟩) select,
    StableHlo.TRef.unary (.of main_call0_v30 : StableHlo.TRef sig ⟨S512x3, .f32⟩) (.of main_call0_v50 : StableHlo.TRef sig ⟨S512x1, .f32⟩) (extractStridedSlice S512x1 ![0, 0] · slices_S512x3_S512x1_0_0),
    StableHlo.TRef.reshape (.of main_call0_v50 : StableHlo.TRef sig ⟨S512x1, .f32⟩) (.of main_call0_v51 : StableHlo.TRef sig ⟨S512, .f32⟩) rfl shapeCasts_S512x1_S512,
    StableHlo.TRef.nullary (.of main_call0_cst_4 : StableHlo.TRef sig ⟨S_, .f32⟩) (constant S_ .f32 0x00000000#32),
    StableHlo.TRef.unary (.of main_call0_cst_4 : StableHlo.TRef sig ⟨S_, .f32⟩) (.of main_call0_v52 : StableHlo.TRef sig ⟨S512, .f32⟩) (broadcastInDim S512 ![] bcast_S_S512),
    StableHlo.TRef.binary (.of main_call0_v51 : StableHlo.TRef sig ⟨S512, .f32⟩) (.of main_call0_v52 : StableHlo.TRef sig ⟨S512, .f32⟩) (.of main_call0_v53 : StableHlo.TRef sig ⟨S512, .i1⟩) (cmpf .oeq),
    StableHlo.TRef.unary (.of main_call0_v32 : StableHlo.TRef sig ⟨S512x3, .f32⟩) (.of main_call0_v54 : StableHlo.TRef sig ⟨S512x1, .f32⟩) (extractStridedSlice S512x1 ![0, 0] · slices_S512x3_S512x1_0_0),
    StableHlo.TRef.reshape (.of main_call0_v54 : StableHlo.TRef sig ⟨S512x1, .f32⟩) (.of main_call0_v55 : StableHlo.TRef sig ⟨S512, .f32⟩) rfl shapeCasts_S512x1_S512,
    StableHlo.TRef.binary (.of main_call0_v55 : StableHlo.TRef sig ⟨S512, .f32⟩) (.of main_call0_v41 : StableHlo.TRef sig ⟨S512, .f32⟩) (.of main_call0_v56 : StableHlo.TRef sig ⟨S512, .f32⟩) Host.divf,
    StableHlo.TRef.nullary (.of main_call0_c_5 : StableHlo.TRef sig ⟨S_, .i32⟩) (constantI S_ 32 0#32),
    StableHlo.TRef.unary (.of main_call0_c_5 : StableHlo.TRef sig ⟨S_, .i32⟩) (.of main_call0_call8_v0 : StableHlo.TRef sig ⟨S_, .f32⟩) (sitofp .f32),
    StableHlo.TRef.unary (.of main_call0_call8_v0 : StableHlo.TRef sig ⟨S_, .f32⟩) (.of main_call0_call8_v1 : StableHlo.TRef sig ⟨S512, .f32⟩) (broadcastInDim S512 ![] bcast_S_S512),
    StableHlo.TRef.ternary (.of main_call0_v53 : StableHlo.TRef sig ⟨S512, .i1⟩) (.of main_call0_call8_v1 : StableHlo.TRef sig ⟨S512, .f32⟩) (.of main_call0_v56 : StableHlo.TRef sig ⟨S512, .f32⟩) (.of main_call0_v57 : StableHlo.TRef sig ⟨S512, .f32⟩) select,
    StableHlo.TRef.unary (.of main_call0_v49 : StableHlo.TRef sig ⟨S512, .f32⟩) (.of main_call0_v58 : StableHlo.TRef sig ⟨S512x1, .f32⟩) (broadcastInDim S512x1 ![0] bcast_S512_S512x1_0),
    StableHlo.TRef.unary (.of main_call0_v58 : StableHlo.TRef sig ⟨S512x1, .f32⟩) (.of main_call0_v59 : StableHlo.TRef sig ⟨S512x3, .f32⟩) (broadcastInDim S512x3 ![0, 1] bcast_S512x1_S512x3_0_1),
    StableHlo.TRef.binary (.of main_call0_v59 : StableHlo.TRef sig ⟨S512x3, .f32⟩) (.of main_call0_v30 : StableHlo.TRef sig ⟨S512x3, .f32⟩) (.of main_call0_v60 : StableHlo.TRef sig ⟨S512x3, .f32⟩) mulf,
    StableHlo.TRef.binary (.of main_call0_v18 : StableHlo.TRef sig ⟨S512x3, .f32⟩) (.of main_call0_v60 : StableHlo.TRef sig ⟨S512x3, .f32⟩) (.of main_call0_v61 : StableHlo.TRef sig ⟨S512x3, .f32⟩) subf,
    StableHlo.TRef.unary (.of main_call0_v57 : StableHlo.TRef sig ⟨S512, .f32⟩) (.of main_call0_v62 : StableHlo.TRef sig ⟨S512x1, .f32⟩) (broadcastInDim S512x1 ![0] bcast_S512_S512x1_0),
    StableHlo.TRef.unary (.of main_call0_v62 : StableHlo.TRef sig ⟨S512x1, .f32⟩) (.of main_call0_v63 : StableHlo.TRef sig ⟨S512x3, .f32⟩) (broadcastInDim S512x3 ![0, 1] bcast_S512x1_S512x3_0_1),
    StableHlo.TRef.binary (.of main_call0_v63 : StableHlo.TRef sig ⟨S512x3, .f32⟩) (.of main_call0_v30 : StableHlo.TRef sig ⟨S512x3, .f32⟩) (.of main_call0_v64 : StableHlo.TRef sig ⟨S512x3, .f32⟩) mulf,
    StableHlo.TRef.binary (.of main_call0_v32 : StableHlo.TRef sig ⟨S512x3, .f32⟩) (.of main_call0_v64 : StableHlo.TRef sig ⟨S512x3, .f32⟩) (.of main_call0_v65 : StableHlo.TRef sig ⟨S512x3, .f32⟩) subf,
    StableHlo.TRef.unary (.of main_call0_v65 : StableHlo.TRef sig ⟨S512x3, .f32⟩) (.of main_call0_v66 : StableHlo.TRef sig ⟨S512x1, .f32⟩) (extractStridedSlice S512x1 ![0, 1] · slices_S512x3_S512x1_0_1),
    StableHlo.TRef.reshape (.of main_call0_v66 : StableHlo.TRef sig ⟨S512x1, .f32⟩) (.of main_call0_v67 : StableHlo.TRef sig ⟨S512, .f32⟩) rfl shapeCasts_S512x1_S512,
    StableHlo.TRef.unary (.of main_call0_v67 : StableHlo.TRef sig ⟨S512, .f32⟩) (.of main_call0_v68 : StableHlo.TRef sig ⟨S512, .f32⟩) Host.absf,
    StableHlo.TRef.unary (.of main_call0_v61 : StableHlo.TRef sig ⟨S512x3, .f32⟩) (.of main_call0_v69 : StableHlo.TRef sig ⟨S512x1, .f32⟩) (extractStridedSlice S512x1 ![0, 1] · slices_S512x3_S512x1_0_1),
    StableHlo.TRef.reshape (.of main_call0_v69 : StableHlo.TRef sig ⟨S512x1, .f32⟩) (.of main_call0_v70 : StableHlo.TRef sig ⟨S512, .f32⟩) rfl shapeCasts_S512x1_S512,
    StableHlo.TRef.unary (.of main_call0_v70 : StableHlo.TRef sig ⟨S512, .f32⟩) (.of main_call0_v71 : StableHlo.TRef sig ⟨S512, .f32⟩) Host.absf,
    StableHlo.TRef.binary (.of main_call0_v68 : StableHlo.TRef sig ⟨S512, .f32⟩) (.of main_call0_v71 : StableHlo.TRef sig ⟨S512, .f32⟩) (.of main_call0_v72 : StableHlo.TRef sig ⟨S512, .i1⟩) (cmpf .ogt),
    StableHlo.TRef.unary (.of main_call0_v72 : StableHlo.TRef sig ⟨S512, .i1⟩) (.of main_call0_v73 : StableHlo.TRef sig ⟨S512x1, .i1⟩) (broadcastInDim S512x1 ![0] bcast_S512_S512x1_0),
    StableHlo.TRef.unary (.of main_call0_v73 : StableHlo.TRef sig ⟨S512x1, .i1⟩) (.of main_call0_call9_v0 : StableHlo.TRef sig ⟨S512x3, .i1⟩) (broadcastInDim S512x3 ![0, 1] bcast_S512x1_S512x3_0_1),
    StableHlo.TRef.ternary (.of main_call0_call9_v0 : StableHlo.TRef sig ⟨S512x3, .i1⟩) (.of main_call0_v65 : StableHlo.TRef sig ⟨S512x3, .f32⟩) (.of main_call0_v61 : StableHlo.TRef sig ⟨S512x3, .f32⟩) (.of main_call0_v74 : StableHlo.TRef sig ⟨S512x3, .f32⟩) select,
    StableHlo.TRef.unary (.of main_call0_v72 : StableHlo.TRef sig ⟨S512, .i1⟩) (.of main_call0_v75 : StableHlo.TRef sig ⟨S512x1, .i1⟩) (broadcastInDim S512x1 ![0] bcast_S512_S512x1_0),
    StableHlo.TRef.unary (.of main_call0_v75 : StableHlo.TRef sig ⟨S512x1, .i1⟩) (.of main_call0_call10_v0 : StableHlo.TRef sig ⟨S512x3, .i1⟩) (broadcastInDim S512x3 ![0, 1] bcast_S512x1_S512x3_0_1),
    StableHlo.TRef.ternary (.of main_call0_call10_v0 : StableHlo.TRef sig ⟨S512x3, .i1⟩) (.of main_call0_v61 : StableHlo.TRef sig ⟨S512x3, .f32⟩) (.of main_call0_v65 : StableHlo.TRef sig ⟨S512x3, .f32⟩) (.of main_call0_v76 : StableHlo.TRef sig ⟨S512x3, .f32⟩) select,
    StableHlo.TRef.unary (.of main_call0_v34 : StableHlo.TRef sig ⟨S512, .i32⟩) (.of main_call0_v77 : StableHlo.TRef sig ⟨S512, .i32⟩) negi,
    StableHlo.TRef.ternary (.of main_call0_v72 : StableHlo.TRef sig ⟨S512, .i1⟩) (.of main_call0_v77 : StableHlo.TRef sig ⟨S512, .i32⟩) (.of main_call0_v34 : StableHlo.TRef sig ⟨S512, .i32⟩) (.of main_call0_v78 : StableHlo.TRef sig ⟨S512, .i32⟩) select,
    StableHlo.TRef.unary (.of main_call0_v74 : StableHlo.TRef sig ⟨S512x3, .f32⟩) (.of main_call0_v79 : StableHlo.TRef sig ⟨S512x1, .f32⟩) (extractStridedSlice S512x1 ![0, 1] · slices_S512x3_S512x1_0_1),
    StableHlo.TRef.reshape (.of main_call0_v79 : StableHlo.TRef sig ⟨S512x1, .f32⟩) (.of main_call0_v80 : StableHlo.TRef sig ⟨S512, .f32⟩) rfl shapeCasts_S512x1_S512,
    StableHlo.TRef.nullary (.of main_call0_cst_6 : StableHlo.TRef sig ⟨S_, .f32⟩) (constant S_ .f32 0x00000000#32),
    StableHlo.TRef.unary (.of main_call0_cst_6 : StableHlo.TRef sig ⟨S_, .f32⟩) (.of main_call0_v81 : StableHlo.TRef sig ⟨S512, .f32⟩) (broadcastInDim S512 ![] bcast_S_S512),
    StableHlo.TRef.binary (.of main_call0_v80 : StableHlo.TRef sig ⟨S512, .f32⟩) (.of main_call0_v81 : StableHlo.TRef sig ⟨S512, .f32⟩) (.of main_call0_v82 : StableHlo.TRef sig ⟨S512, .i1⟩) (cmpf .oeq),
    StableHlo.TRef.unary (.of main_call0_v74 : StableHlo.TRef sig ⟨S512x3, .f32⟩) (.of main_call0_v83 : StableHlo.TRef sig ⟨S512x1, .f32⟩) (extractStridedSlice S512x1 ![0, 1] · slices_S512x3_S512x1_0_1),
    StableHlo.TRef.reshape (.of main_call0_v83 : StableHlo.TRef sig ⟨S512x1, .f32⟩) (.of main_call0_v84 : StableHlo.TRef sig ⟨S512, .f32⟩) rfl shapeCasts_S512x1_S512,
    StableHlo.TRef.nullary (.of main_call0_c_7 : StableHlo.TRef sig ⟨S_, .i32⟩) (constantI S_ 32 1#32),
    StableHlo.TRef.unary (.of main_call0_c_7 : StableHlo.TRef sig ⟨S_, .i32⟩) (.of main_call0_call12_v0 : StableHlo.TRef sig ⟨S_, .f32⟩) (sitofp .f32),
    StableHlo.TRef.unary (.of main_call0_call12_v0 : StableHlo.TRef sig ⟨S_, .f32⟩) (.of main_call0_call12_v1 : StableHlo.TRef sig ⟨S512, .f32⟩) (broadcastInDim S512 ![] bcast_S_S512),
    StableHlo.TRef.ternary (.of main_call0_v82 : StableHlo.TRef sig ⟨S512, .i1⟩) (.of main_call0_call12_v1 : StableHlo.TRef sig ⟨S512, .f32⟩) (.of main_call0_v84 : StableHlo.TRef sig ⟨S512, .f32⟩) (.of main_call0_v85 : StableHlo.TRef sig ⟨S512, .f32⟩) select,
    StableHlo.TRef.unary (.of main_call0_v74 : StableHlo.TRef sig ⟨S512x3, .f32⟩) (.of main_call0_v86 : StableHlo.TRef sig ⟨S512x1, .f32⟩) (extractStridedSlice S512x1 ![0, 1] · slices_S512x3_S512x1_0_1),
    StableHlo.TRef.reshape (.of main_call0_v86 : StableHlo.TRef sig ⟨S512x1, .f32⟩) (.of main_call0_v87 : StableHlo.TRef sig ⟨S512, .f32⟩) rfl shapeCasts_S512x1_S512,
    StableHlo.TRef.nullary (.of main_call0_cst_8 : StableHlo.TRef sig ⟨S_, .f32⟩) (constant S_ .f32 0x00000000#32),
    StableHlo.TRef.unary (.of main_call0_cst_8 : StableHlo.TRef sig ⟨S_, .f32⟩) (.of main_call0_v88 : StableHlo.TRef sig ⟨S512, .f32⟩) (broadcastInDim S512 ![] bcast_S_S512),
    StableHlo.TRef.binary (.of main_call0_v87 : StableHlo.TRef sig ⟨S512, .f32⟩) (.of main_call0_v88 : StableHlo.TRef sig ⟨S512, .f32⟩) (.of main_call0_v89 : StableHlo.TRef sig ⟨S512, .i1⟩) (cmpf .oeq),
    StableHlo.TRef.unary (.of main_call0_v76 : StableHlo.TRef sig ⟨S512x3, .f32⟩) (.of main_call0_v90 : StableHlo.TRef sig ⟨S512x1, .f32⟩) (extractStridedSlice S512x1 ![0, 1] · slices_S512x3_S512x1_0_1),
    StableHlo.TRef.reshape (.of main_call0_v90 : StableHlo.TRef sig ⟨S512x1, .f32⟩) (.of main_call0_v91 : StableHlo.TRef sig ⟨S512, .f32⟩) rfl shapeCasts_S512x1_S512,
    StableHlo.TRef.binary (.of main_call0_v91 : StableHlo.TRef sig ⟨S512, .f32⟩) (.of main_call0_v85 : StableHlo.TRef sig ⟨S512, .f32⟩) (.of main_call0_v92 : StableHlo.TRef sig ⟨S512, .f32⟩) Host.divf,
    StableHlo.TRef.nullary (.of main_call0_c_9 : StableHlo.TRef sig ⟨S_, .i32⟩) (constantI S_ 32 0#32),
    StableHlo.TRef.unary (.of main_call0_c_9 : StableHlo.TRef sig ⟨S_, .i32⟩) (.of main_call0_call13_v0 : StableHlo.TRef sig ⟨S_, .f32⟩) (sitofp .f32),
    StableHlo.TRef.unary (.of main_call0_call13_v0 : StableHlo.TRef sig ⟨S_, .f32⟩) (.of main_call0_call13_v1 : StableHlo.TRef sig ⟨S512, .f32⟩) (broadcastInDim S512 ![] bcast_S_S512),
    StableHlo.TRef.ternary (.of main_call0_v89 : StableHlo.TRef sig ⟨S512, .i1⟩) (.of main_call0_call13_v1 : StableHlo.TRef sig ⟨S512, .f32⟩) (.of main_call0_v92 : StableHlo.TRef sig ⟨S512, .f32⟩) (.of main_call0_v93 : StableHlo.TRef sig ⟨S512, .f32⟩) select,
    StableHlo.TRef.unary (.of main_call0_v76 : StableHlo.TRef sig ⟨S512x3, .f32⟩) (.of main_call0_v94 : StableHlo.TRef sig ⟨S512x1, .f32⟩) (extractStridedSlice S512x1 ![0, 2] · slices_S512x3_S512x1_0_2),
    StableHlo.TRef.reshape (.of main_call0_v94 : StableHlo.TRef sig ⟨S512x1, .f32⟩) (.of main_call0_v95 : StableHlo.TRef sig ⟨S512, .f32⟩) rfl shapeCasts_S512x1_S512,
    StableHlo.TRef.unary (.of main_call0_v74 : StableHlo.TRef sig ⟨S512x3, .f32⟩) (.of main_call0_v96 : StableHlo.TRef sig ⟨S512x1, .f32⟩) (extractStridedSlice S512x1 ![0, 2] · slices_S512x3_S512x1_0_2),
    StableHlo.TRef.reshape (.of main_call0_v96 : StableHlo.TRef sig ⟨S512x1, .f32⟩) (.of main_call0_v97 : StableHlo.TRef sig ⟨S512, .f32⟩) rfl shapeCasts_S512x1_S512,
    StableHlo.TRef.binary (.of main_call0_v93 : StableHlo.TRef sig ⟨S512, .f32⟩) (.of main_call0_v97 : StableHlo.TRef sig ⟨S512, .f32⟩) (.of main_call0_v98 : StableHlo.TRef sig ⟨S512, .f32⟩) mulf,
    StableHlo.TRef.binary (.of main_call0_v95 : StableHlo.TRef sig ⟨S512, .f32⟩) (.of main_call0_v98 : StableHlo.TRef sig ⟨S512, .f32⟩) (.of main_call0_v99 : StableHlo.TRef sig ⟨S512, .f32⟩) subf,
    StableHlo.TRef.unary (.of main_call0_v30 : StableHlo.TRef sig ⟨S512x3, .f32⟩) (.of main_call0_v100 : StableHlo.TRef sig ⟨S512x1, .f32⟩) (extractStridedSlice S512x1 ![0, 0] · slices_S512x3_S512x1_0_0),
    StableHlo.TRef.reshape (.of main_call0_v100 : StableHlo.TRef sig ⟨S512x1, .f32⟩) (.of main_call0_v101 : StableHlo.TRef sig ⟨S512, .f32⟩) rfl shapeCasts_S512x1_S512,
    StableHlo.TRef.unary (.of main_call0_v78 : StableHlo.TRef sig ⟨S512, .i32⟩) (.of main_call0_v102 : StableHlo.TRef sig ⟨S512, .f32⟩) (sitofp .f32),
    StableHlo.TRef.binary (.of main_call0_v102 : StableHlo.TRef sig ⟨S512, .f32⟩) (.of main_call0_v101 : StableHlo.TRef sig ⟨S512, .f32⟩) (.of main_call0_v103 : StableHlo.TRef sig ⟨S512, .f32⟩) mulf,
    StableHlo.TRef.unary (.of main_call0_v74 : StableHlo.TRef sig ⟨S512x3, .f32⟩) (.of main_call0_v104 : StableHlo.TRef sig ⟨S512x1, .f32⟩) (extractStridedSlice S512x1 ![0, 1] · slices_S512x3_S512x1_0_1),
    StableHlo.TRef.reshape (.of main_call0_v104 : StableHlo.TRef sig ⟨S512x1, .f32⟩) (.of main_call0_v105 : StableHlo.TRef sig ⟨S512, .f32⟩) rfl shapeCasts_S512x1_S512,
    StableHlo.TRef.binary (.of main_call0_v103 : StableHlo.TRef sig ⟨S512, .f32⟩) (.of main_call0_v105 : StableHlo.TRef sig ⟨S512, .f32⟩) (.of main_call0_v106 : StableHlo.TRef sig ⟨S512, .f32⟩) mulf,
    StableHlo.TRef.binary (.of main_call0_v106 : StableHlo.TRef sig ⟨S512, .f32⟩) (.of main_call0_v99 : StableHlo.TRef sig ⟨S512, .f32⟩) (.of main_v39 : StableHlo.TRef sig ⟨S512, .f32⟩) mulf ]

/-- The entry function's last 4 operations, in order. -/
abbrev ops2 : List (HloOp τ sig (Elt F)) :=
  [
    StableHlo.unary main_v39 main_v40 (Host.absf : (⟨S512, .f32⟩ : BufTy).Contents (Elt F) → (⟨S512, .f32⟩ : BufTy).Contents (Elt F)),
    StableHlo.unary main_v40 main_v41 (broadcastInDim S512x1 ![0] bcast_S512_S512x1_0 : (⟨S512, .f32⟩ : BufTy).Contents (Elt F) → (⟨S512x1, .f32⟩ : BufTy).Contents (Elt F)),
    StableHlo.unary main_v41 main_v42 (broadcastInDim S512x6 ![0, 1] bcast_S512x1_S512x6_0_1 : (⟨S512x1, .f32⟩ : BufTy).Contents (Elt F) → (⟨S512x6, .f32⟩ : BufTy).Contents (Elt F)),
    StableHlo.binary main_v38 main_v42 main_v43 (Host.divf : (⟨S512x6, .f32⟩ : BufTy).Contents (Elt F) → (⟨S512x6, .f32⟩ : BufTy).Contents (Elt F) → (⟨S512x6, .f32⟩ : BufTy).Contents (Elt F)) ]

/-- All 185 operations, in order. -/
abbrev ops : List (HloOp τ sig (Elt F)) := ops1 ++ (detOps ++ ops2)

theorem ops1_sub : (ops1 : List (HloOp τ sig (Elt F))).Forall fun op => op.bufs ⊆ tcRefs τ sig :=
  ⟨unary_bufs_sub .., reshape_bufs_sub .., nullary_bufs_sub .., unary_bufs_sub .., unary_bufs_sub .., ternary_bufs_sub .., unary_bufs_sub .., reshape_bufs_sub .., nullary_bufs_sub .., unary_bufs_sub .., unary_bufs_sub .., ternary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., unary_bufs_sub .., nary_bufs_sub .., unary_bufs_sub .., reshape_bufs_sub .., nullary_bufs_sub .., unary_bufs_sub .., unary_bufs_sub .., ternary_bufs_sub .., nullary_bufs_sub .., unary_bufs_sub .., unary_bufs_sub .., ternary_bufs_sub ..⟩

set_option maxHeartbeats 40000000 in
theorem detOps_sub : (detOps : List (HloOp τ sig (Elt F))).Forall fun op => op.bufs ⊆ tcRefs τ sig :=
  ⟨unary_bufs_sub .., reshape_bufs_sub .., unary_bufs_sub .., unary_bufs_sub .., reshape_bufs_sub .., unary_bufs_sub .., binary_bufs_sub .., unary_bufs_sub .., unary_bufs_sub .., reshape_bufs_sub .., unary_bufs_sub .., reshape_bufs_sub .., unary_bufs_sub .., ternary_bufs_sub .., unary_bufs_sub .., unary_bufs_sub .., reshape_bufs_sub .., unary_bufs_sub .., reshape_bufs_sub .., unary_bufs_sub .., ternary_bufs_sub .., unary_bufs_sub .., reshape_bufs_sub .., nullary_bufs_sub .., nullary_bufs_sub .., unary_bufs_sub .., unary_bufs_sub .., ternary_bufs_sub .., unary_bufs_sub .., reshape_bufs_sub .., unary_bufs_sub .., unary_bufs_sub .., reshape_bufs_sub .., unary_bufs_sub .., binary_bufs_sub .., unary_bufs_sub .., unary_bufs_sub .., ternary_bufs_sub .., unary_bufs_sub .., unary_bufs_sub .., ternary_bufs_sub .., unary_bufs_sub .., ternary_bufs_sub .., unary_bufs_sub .., reshape_bufs_sub .., nullary_bufs_sub .., unary_bufs_sub .., binary_bufs_sub .., unary_bufs_sub .., reshape_bufs_sub .., nullary_bufs_sub .., unary_bufs_sub .., unary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., unary_bufs_sub .., reshape_bufs_sub .., unary_bufs_sub .., unary_bufs_sub .., reshape_bufs_sub .., unary_bufs_sub .., binary_bufs_sub .., unary_bufs_sub .., unary_bufs_sub .., ternary_bufs_sub .., unary_bufs_sub .., unary_bufs_sub .., ternary_bufs_sub .., unary_bufs_sub .., ternary_bufs_sub .., unary_bufs_sub .., reshape_bufs_sub .., nullary_bufs_sub .., unary_bufs_sub .., binary_bufs_sub .., unary_bufs_sub .., reshape_bufs_sub .., nullary_bufs_sub .., unary_bufs_sub .., unary_bufs_sub .., ternary_bufs_sub .., unary_bufs_sub .., reshape_bufs_sub .., nullary_bufs_sub .., unary_bufs_sub .., binary_bufs_sub .., unary_bufs_sub .., reshape_bufs_sub .., binary_bufs_sub .., nullary_bufs_sub .., unary_bufs_sub .., unary_bufs_sub .., ternary_bufs_sub .., unary_bufs_sub .., reshape_bufs_sub .., unary_bufs_sub .., reshape_bufs_sub .., binary_bufs_sub .., binary_bufs_sub .., unary_bufs_sub .., reshape_bufs_sub .., unary_bufs_sub .., binary_bufs_sub .., unary_bufs_sub .., reshape_bufs_sub .., binary_bufs_sub .., binary_bufs_sub ..⟩

theorem ops2_sub : (ops2 : List (HloOp τ sig (Elt F))).Forall fun op => op.bufs ⊆ tcRefs τ sig :=
  ⟨unary_bufs_sub .., unary_bufs_sub .., unary_bufs_sub .., binary_bufs_sub ..⟩

end Cert.ReferenceIdeal.Hand

end
-- ==== Proof.RefRunMain.lean ====
/-
  The run of the reference program: the entry function is its 185 operations run in order, every
  execution terminates, and each buffer ends at the fold of the operations' results over the launch
  contents.
-/
import proofs.«119113_j84086869721639_2_alg».proof.Proof.RefOps

set_option synthInstance.maxSize 4096

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀ Cert.ReferenceIdeal.Facts

variable {F : FTy → Type} [FloatOps F] [Facts]

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The entry function is the three lines in order: its own first 43 operations, the determinant
    function's body at the call's buffers, its own last 4. -/
theorem main_chain (c : Dev nD) :
    main (F := F) c = Pipeline.chain [seq (ops1 (F := F)), seq (detOps (F := F)), seq (ops2 (F := F))] := by
  chain_rfl

/-- The entry function is the one line of all 185 operations. -/
theorem main_eq (c : Dev nD) : main (F := F) c = seq (ops (F := F)) := by
  rw [main_chain, seq_append, seq_append]
  simp only [Pipeline.chain_cons, Pipeline.chain_nil, bind_pure_unit]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨ops1_sub, List.forall_append.2 ⟨detOps_sub, ops2_sub⟩⟩

/-- Every operation of the line determines its results. -/
theorem ops_fresh : ∀ op ∈ (ops : List (HloOp τ sig (Elt F))), op.fresh = ∅ := by
  intro op h
  rcases List.mem_append.1 h with h | h
  · (repeat (cases h with | head => rfl | tail _ h => ?_)); exact nomatch h
  · rcases List.mem_append.1 h with h | h
    · (repeat (cases h with | head => rfl | tail _ h => ?_)); exact nomatch h
    · (repeat (cases h with | head => rfl | tail _ h => ?_)); exact nomatch h

/-- From any memory with zero counters, every weakly fair execution of the entry function terminates, and every
    final state has each buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.RefDet.lean ====
/-
  The determinant function of the reference program as one pure term of its argument.

  Each line is one operation of the function's body, in the body's order, with every call of a
  selection helper replaced by the helper's own operations. The function computes, for each of the 512
  cells, the determinant of the 3×3 matrix by Gaussian elimination with partial pivoting: two pivot
  selections (each a comparison of absolute values followed by row swaps and a sign flip), the
  eliminations guarded against a zero pivot, and the product of the sign with the three diagonal entries.
-/
import proofs.«119113_j84086869721639_2_alg».proof.ReferenceIdeal

set_option synthInstance.maxSize 4096

noncomputable section

namespace Cert.ReferenceIdeal.Hand

open Idealize.ShloMosaic Idealize.SL.Sem
open Cert.ReferenceIdeal
open Cert.ReferenceIdeal.Facts₀ Cert.ReferenceIdeal.Facts

variable {F : FTy → Type} [FloatOps F] [Facts]

/-- The determinant of each of the 512 cell matrices, as the function's operations compute it. -/
def det (a : FVec F S512x3x3 .f32) : FVec F S512 .f32 :=
  have v0 : FVec F S512x1x1 .f32 := extractStridedSlice S512x1x1 ![0, 1, 0] a slices_S512x3x3_S512x1x1_0_1_0
  have v1 : FVec F S512 .f32 := shapeCast S512 v0 shapeCasts_S512x1x1_S512
  have v2 : FVec F S512 .f32 := Host.absf v1
  have v3 : FVec F S512x1x1 .f32 := extractStridedSlice S512x1x1 ![0, 0, 0] a slices_S512x3x3_S512x1x1_0_0_0
  have v4 : FVec F S512 .f32 := shapeCast S512 v3 shapeCasts_S512x1x1_S512
  have v5 : FVec F S512 .f32 := Host.absf v4
  have v6 : IVec S512 1 := cmpf .ogt v2 v5
  have v7 : IVec S512x1 1 := broadcastInDim S512x1 ![0] bcast_S512_S512x1_0 v6
  have v8 : FVec F S512x1x3 .f32 := extractStridedSlice S512x1x3 ![0, 1, 0] a slices_S512x3x3_S512x1x3_0_1_0
  have v9 : FVec F S512x3 .f32 := shapeCast S512x3 v8 shapeCasts_S512x1x3_S512x3
  have v10 : FVec F S512x1x3 .f32 := extractStridedSlice S512x1x3 ![0, 0, 0] a slices_S512x3x3_S512x1x3_0_0_0
  have v11 : FVec F S512x3 .f32 := shapeCast S512x3 v10 shapeCasts_S512x1x3_S512x3
  have call0_v0 : IVec S512x3 1 := broadcastInDim S512x3 ![0, 1] bcast_S512x1_S512x3_0_1 v7
  have call0_v1 : FVec F S512x3 .f32 := select call0_v0 v9 v11
  have v13 : IVec S512x1 1 := broadcastInDim S512x1 ![0] bcast_S512_S512x1_0 v6
  have v14 : FVec F S512x1x3 .f32 := extractStridedSlice S512x1x3 ![0, 0, 0] a slices_S512x3x3_S512x1x3_0_0_0
  have v15 : FVec F S512x3 .f32 := shapeCast S512x3 v14 shapeCasts_S512x1x3_S512x3
  have v16 : FVec F S512x1x3 .f32 := extractStridedSlice S512x1x3 ![0, 1, 0] a slices_S512x3x3_S512x1x3_0_1_0
  have v17 : FVec F S512x3 .f32 := shapeCast S512x3 v16 shapeCasts_S512x1x3_S512x3
  have call1_v0 : IVec S512x3 1 := broadcastInDim S512x3 ![0, 1] bcast_S512x1_S512x3_0_1 v13
  have call1_v1 : FVec F S512x3 .f32 := select call1_v0 v15 v17
  have v19 : FVec F S512x1x3 .f32 := extractStridedSlice S512x1x3 ![0, 2, 0] a slices_S512x3x3_S512x1x3_0_2_0
  have v20 : FVec F S512x3 .f32 := shapeCast S512x3 v19 shapeCasts_S512x1x3_S512x3
  have c : IVec S_ 32 := constantI S_ 32 4294967295#32
  have c_0 : IVec S_ 32 := constantI S_ 32 1#32
  have call2_v0 : IVec S512 32 := broadcastInDim S512 ![] bcast_S_S512 c
  have call2_v1 : IVec S512 32 := broadcastInDim S512 ![] bcast_S_S512 c_0
  have call2_v2 : IVec S512 32 := select v6 call2_v0 call2_v1
  have v22 : FVec F S512x1 .f32 := extractStridedSlice S512x1 ![0, 0] v20 slices_S512x3_S512x1_0_0
  have v23 : FVec F S512 .f32 := shapeCast S512 v22 shapeCasts_S512x1_S512
  have v24 : FVec F S512 .f32 := Host.absf v23
  have v25 : FVec F S512x1 .f32 := extractStridedSlice S512x1 ![0, 0] call0_v1 slices_S512x3_S512x1_0_0
  have v26 : FVec F S512 .f32 := shapeCast S512 v25 shapeCasts_S512x1_S512
  have v27 : FVec F S512 .f32 := Host.absf v26
  have v28 : IVec S512 1 := cmpf .ogt v24 v27
  have v29 : IVec S512x1 1 := broadcastInDim S512x1 ![0] bcast_S512_S512x1_0 v28
  have call3_v0 : IVec S512x3 1 := broadcastInDim S512x3 ![0, 1] bcast_S512x1_S512x3_0_1 v29
  have call3_v1 : FVec F S512x3 .f32 := select call3_v0 v20 call0_v1
  have v31 : IVec S512x1 1 := broadcastInDim S512x1 ![0] bcast_S512_S512x1_0 v28
  have call4_v0 : IVec S512x3 1 := broadcastInDim S512x3 ![0, 1] bcast_S512x1_S512x3_0_1 v31
  have call4_v1 : FVec F S512x3 .f32 := select call4_v0 call0_v1 v20
  have v33 : IVec S512 32 := negi call2_v2
  have call5_v0 : IVec S512 32 := select v28 v33 call2_v2
  have v35 : FVec F S512x1 .f32 := extractStridedSlice S512x1 ![0, 0] call3_v1 slices_S512x3_S512x1_0_0
  have v36 : FVec F S512 .f32 := shapeCast S512 v35 shapeCasts_S512x1_S512
  have cst : FVec F S_ .f32 := constant S_ .f32 0x00000000#32
  have v37 : FVec F S512 .f32 := broadcastInDim S512 ![] bcast_S_S512 cst
  have v38 : IVec S512 1 := cmpf .oeq v36 v37
  have v39 : FVec F S512x1 .f32 := extractStridedSlice S512x1 ![0, 0] call3_v1 slices_S512x3_S512x1_0_0
  have v40 : FVec F S512 .f32 := shapeCast S512 v39 shapeCasts_S512x1_S512
  have c_1 : IVec S_ 32 := constantI S_ 32 1#32
  have call6_v0 : FVec F S_ .f32 := sitofp .f32 c_1
  have call6_v1 : FVec F S512 .f32 := broadcastInDim S512 ![] bcast_S_S512 call6_v0
  have call6_v2 : FVec F S512 .f32 := select v38 call6_v1 v40
  have v42 : FVec F S512x1 .f32 := extractStridedSlice S512x1 ![0, 0] call3_v1 slices_S512x3_S512x1_0_0
  have v43 : FVec F S512 .f32 := shapeCast S512 v42 shapeCasts_S512x1_S512
  have cst_2 : FVec F S_ .f32 := constant S_ .f32 0x00000000#32
  have v44 : FVec F S512 .f32 := broadcastInDim S512 ![] bcast_S_S512 cst_2
  have v45 : IVec S512 1 := cmpf .oeq v43 v44
  have v46 : FVec F S512x1 .f32 := extractStridedSlice S512x1 ![0, 0] call1_v1 slices_S512x3_S512x1_0_0
  have v47 : FVec F S512 .f32 := shapeCast S512 v46 shapeCasts_S512x1_S512
  have v48 : FVec F S512 .f32 := Host.divf v47 call6_v2
  have c_3 : IVec S_ 32 := constantI S_ 32 0#32
  have call7_v0 : FVec F S_ .f32 := sitofp .f32 c_3
  have call7_v1 : FVec F S512 .f32 := broadcastInDim S512 ![] bcast_S_S512 call7_v0
  have call7_v2 : FVec F S512 .f32 := select v45 call7_v1 v48
  have v50 : FVec F S512x1 .f32 := extractStridedSlice S512x1 ![0, 0] call3_v1 slices_S512x3_S512x1_0_0
  have v51 : FVec F S512 .f32 := shapeCast S512 v50 shapeCasts_S512x1_S512
  have cst_4 : FVec F S_ .f32 := constant S_ .f32 0x00000000#32
  have v52 : FVec F S512 .f32 := broadcastInDim S512 ![] bcast_S_S512 cst_4
  have v53 : IVec S512 1 := cmpf .oeq v51 v52
  have v54 : FVec F S512x1 .f32 := extractStridedSlice S512x1 ![0, 0] call4_v1 slices_S512x3_S512x1_0_0
  have v55 : FVec F S512 .f32 := shapeCast S512 v54 shapeCasts_S512x1_S512
  have v56 : FVec F S512 .f32 := Host.divf v55 call6_v2
  have c_5 : IVec S_ 32 := constantI S_ 32 0#32
  have call8_v0 : FVec F S_ .f32 := sitofp .f32 c_5
  have call8_v1 : FVec F S512 .f32 := broadcastInDim S512 ![] bcast_S_S512 call8_v0
  have call8_v2 : FVec F S512 .f32 := select v53 call8_v1 v56
  have v58 : FVec F S512x1 .f32 := broadcastInDim S512x1 ![0] bcast_S512_S512x1_0 call7_v2
  have v59 : FVec F S512x3 .f32 := broadcastInDim S512x3 ![0, 1] bcast_S512x1_S512x3_0_1 v58
  have v60 : FVec F S512x3 .f32 := mulf v59 call3_v1
  have v61 : FVec F S512x3 .f32 := subf call1_v1 v60
  have v62 : FVec F S512x1 .f32 := broadcastInDim S512x1 ![0] bcast_S512_S512x1_0 call8_v2
  have v63 : FVec F S512x3 .f32 := broadcastInDim S512x3 ![0, 1] bcast_S512x1_S512x3_0_1 v62
  have v64 : FVec F S512x3 .f32 := mulf v63 call3_v1
  have v65 : FVec F S512x3 .f32 := subf call4_v1 v64
  have v66 : FVec F S512x1 .f32 := extractStridedSlice S512x1 ![0, 1] v65 slices_S512x3_S512x1_0_1
  have v67 : FVec F S512 .f32 := shapeCast S512 v66 shapeCasts_S512x1_S512
  have v68 : FVec F S512 .f32 := Host.absf v67
  have v69 : FVec F S512x1 .f32 := extractStridedSlice S512x1 ![0, 1] v61 slices_S512x3_S512x1_0_1
  have v70 : FVec F S512 .f32 := shapeCast S512 v69 shapeCasts_S512x1_S512
  have v71 : FVec F S512 .f32 := Host.absf v70
  have v72 : IVec S512 1 := cmpf .ogt v68 v71
  have v73 : IVec S512x1 1 := broadcastInDim S512x1 ![0] bcast_S512_S512x1_0 v72
  have call9_v0 : IVec S512x3 1 := broadcastInDim S512x3 ![0, 1] bcast_S512x1_S512x3_0_1 v73
  have call9_v1 : FVec F S512x3 .f32 := select call9_v0 v65 v61
  have v75 : IVec S512x1 1 := broadcastInDim S512x1 ![0] bcast_S512_S512x1_0 v72
  have call10_v0 : IVec S512x3 1 := broadcastInDim S512x3 ![0, 1] bcast_S512x1_S512x3_0_1 v75
  have call10_v1 : FVec F S512x3 .f32 := select call10_v0 v61 v65
  have v77 : IVec S512 32 := negi call5_v0
  have call11_v0 : IVec S512 32 := select v72 v77 call5_v0
  have v79 : FVec F S512x1 .f32 := extractStridedSlice S512x1 ![0, 1] call9_v1 slices_S512x3_S512x1_0_1
  have v80 : FVec F S512 .f32 := shapeCast S512 v79 shapeCasts_S512x1_S512
  have cst_6 : FVec F S_ .f32 := constant S_ .f32 0x00000000#32
  have v81 : FVec F S512 .f32 := broadcastInDim S512 ![] bcast_S_S512 cst_6
  have v82 : IVec S512 1 := cmpf .oeq v80 v81
  have v83 : FVec F S512x1 .f32 := extractStridedSlice S512x1 ![0, 1] call9_v1 slices_S512x3_S512x1_0_1
  have v84 : FVec F S512 .f32 := shapeCast S512 v83 shapeCasts_S512x1_S512
  have c_7 : IVec S_ 32 := constantI S_ 32 1#32
  have call12_v0 : FVec F S_ .f32 := sitofp .f32 c_7
  have call12_v1 : FVec F S512 .f32 := broadcastInDim S512 ![] bcast_S_S512 call12_v0
  have call12_v2 : FVec F S512 .f32 := select v82 call12_v1 v84
  have v86 : FVec F S512x1 .f32 := extractStridedSlice S512x1 ![0, 1] call9_v1 slices_S512x3_S512x1_0_1
  have v87 : FVec F S512 .f32 := shapeCast S512 v86 shapeCasts_S512x1_S512
  have cst_8 : FVec F S_ .f32 := constant S_ .f32 0x00000000#32
  have v88 : FVec F S512 .f32 := broadcastInDim S512 ![] bcast_S_S512 cst_8
  have v89 : IVec S512 1 := cmpf .oeq v87 v88
  have v90 : FVec F S512x1 .f32 := extractStridedSlice S512x1 ![0, 1] call10_v1 slices_S512x3_S512x1_0_1
  have v91 : FVec F S512 .f32 := shapeCast S512 v90 shapeCasts_S512x1_S512
  have v92 : FVec F S512 .f32 := Host.divf v91 call12_v2
  have c_9 : IVec S_ 32 := constantI S_ 32 0#32
  have call13_v0 : FVec F S_ .f32 := sitofp .f32 c_9
  have call13_v1 : FVec F S512 .f32 := broadcastInDim S512 ![] bcast_S_S512 call13_v0
  have call13_v2 : FVec F S512 .f32 := select v89 call13_v1 v92
  have v94 : FVec F S512x1 .f32 := extractStridedSlice S512x1 ![0, 2] call10_v1 slices_S512x3_S512x1_0_2
  have v95 : FVec F S512 .f32 := shapeCast S512 v94 shapeCasts_S512x1_S512
  have v96 : FVec F S512x1 .f32 := extractStridedSlice S512x1 ![0, 2] call9_v1 slices_S512x3_S512x1_0_2
  have v97 : FVec F S512 .f32 := shapeCast S512 v96 shapeCasts_S512x1_S512
  have v98 : FVec F S512 .f32 := mulf call13_v2 v97
  have v99 : FVec F S512 .f32 := subf v95 v98
  have v100 : FVec F S512x1 .f32 := extractStridedSlice S512x1 ![0, 0] call3_v1 slices_S512x3_S512x1_0_0
  have v101 : FVec F S512 .f32 := shapeCast S512 v100 shapeCasts_S512x1_S512
  have v102 : FVec F S512 .f32 := sitofp .f32 call11_v0
  have v103 : FVec F S512 .f32 := mulf v102 v101
  have v104 : FVec F S512x1 .f32 := extractStridedSlice S512x1 ![0, 1] call9_v1 slices_S512x3_S512x1_0_1
  have v105 : FVec F S512 .f32 := shapeCast S512 v104 shapeCasts_S512x1_S512
  have v106 : FVec F S512 .f32 := mulf v103 v105
  have v107 : FVec F S512 .f32 := mulf v106 v99
  v107

end Cert.ReferenceIdeal.Hand

end
-- ==== Proof.RefTerms.lean ====
/-
  The two results of the reference program as terms over the contents of its five arguments.

  The forces are the difference of two scatter-additions of the pair forces into a zero array of
  shape [100000, 3]: one at the first row of the edge index, one at the second. The stress is the
  per-edge virial (six components per edge: the componentwise product of edge vector and pair force,
  then three off-diagonal products) scatter-added to atoms at the second row of the edge index, then
  to the 512 systems at the batch index, and divided by the absolute value of each system's cell
  determinant, broadcast along the six components.
-/
import proofs.«119113_j84086869721639_2_alg».proof.Proof.RefDet

set_option synthInstance.maxSize 4096

noncomputable section

namespace Cert.ReferenceIdeal.Hand

open Idealize.ShloMosaic Idealize.SL.Sem
open Cert.ReferenceIdeal
open Cert.ReferenceIdeal.Facts₀ Cert.ReferenceIdeal.Facts

variable {F : FTy → Type} [FloatOps F] [Facts]

/-- Row 0 of the edge index as a column: the slice [0:1, 0:E], reshaped to [E], broadcast to [E, 1]. -/
def idxCol0 (a2 : IVec S2x6400000 32) : IVec S6400000x1 32 :=
  have v0 : IVec S1x6400000 32 := extractStridedSlice S1x6400000 ![0, 0] a2 slices_S2x6400000_S1x6400000_0_0
  have v1 : IVec S6400000 32 := shapeCast S6400000 v0 shapeCasts_S1x6400000_S6400000
  have v3 : IVec S6400000x1 32 := broadcastInDim S6400000x1 ![0] bcast_S6400000_S6400000x1_0 v1
  v3

/-- Row 1 of the edge index as a column: the slice [1:2, 0:E], reshaped to [E], broadcast to [E, 1]. -/
def idxCol1 (a2 : IVec S2x6400000 32) : IVec S6400000x1 32 :=
  have v5 : IVec S1x6400000 32 := extractStridedSlice S1x6400000 ![1, 0] a2 slices_S2x6400000_S1x6400000_1_0
  have v6 : IVec S6400000 32 := shapeCast S6400000 v5 shapeCasts_S1x6400000_S6400000
  have v8 : IVec S6400000x1 32 := broadcastInDim S6400000x1 ![0] bcast_S6400000_S6400000x1_0 v6
  v8

/-- The zero array of shape [100000, 3]: the scalar zero broadcast. -/
def zeros3 : FVec F S100000x3 .f32 :=
  broadcastInDim S100000x3 ![] bcast_S_S100000x3 (constant S_ .f32 0x00000000#32)

/-- The zero array of shape [100000, 6]. -/
def zeros100000x6 : FVec F S100000x6 .f32 :=
  broadcastInDim S100000x6 ![] bcast_S_S100000x6 (constant S_ .f32 0x00000000#32)

/-- The zero array of shape [512, 6]. -/
def zeros512x6 : FVec F S512x6 .f32 :=
  broadcastInDim S512x6 ![] bcast_S_S512x6 (constant S_ .f32 0x00000000#32)

/-- The per-edge virial, six columns: the componentwise product of the edge vector `a1` and the pair
    force `a0` in columns 0–2, then the products (column 1 of `a1`)·(column 2 of `a0`),
    (column 2 of `a1`)·(column 0 of `a0`), (column 0 of `a1`)·(column 1 of `a0`) in columns 3–5. -/
def virTerm (a1 a0 : FVec F S6400000x3 .f32) : FVec F S6400000x6 .f32 :=
  have v11 : FVec F S6400000x3 .f32 := mulf a1 a0
  have v12 : FVec F S6400000x1 .f32 := extractStridedSlice S6400000x1 ![0, 0] a1 slices_S6400000x3_S6400000x1_0_0
  have v13 : FVec F S6400000 .f32 := shapeCast S6400000 v12 shapeCasts_S6400000x1_S6400000
  have v14 : FVec F S6400000x1 .f32 := extractStridedSlice S6400000x1 ![0, 1] a0 slices_S6400000x3_S6400000x1_0_1
  have v15 : FVec F S6400000 .f32 := shapeCast S6400000 v14 shapeCasts_S6400000x1_S6400000
  have v16 : FVec F S6400000 .f32 := mulf v13 v15
  have v17 : FVec F S6400000x1 .f32 := extractStridedSlice S6400000x1 ![0, 1] a1 slices_S6400000x3_S6400000x1_0_1
  have v18 : FVec F S6400000 .f32 := shapeCast S6400000 v17 shapeCasts_S6400000x1_S6400000
  have v19 : FVec F S6400000x1 .f32 := extractStridedSlice S6400000x1 ![0, 2] a0 slices_S6400000x3_S6400000x1_0_2
  have v20 : FVec F S6400000 .f32 := shapeCast S6400000 v19 shapeCasts_S6400000x1_S6400000
  have v21 : FVec F S6400000 .f32 := mulf v18 v20
  have v22 : FVec F S6400000x1 .f32 := extractStridedSlice S6400000x1 ![0, 2] a1 slices_S6400000x3_S6400000x1_0_2
  have v23 : FVec F S6400000 .f32 := shapeCast S6400000 v22 shapeCasts_S6400000x1_S6400000
  have v24 : FVec F S6400000x1 .f32 := extractStridedSlice S6400000x1 ![0, 0] a0 slices_S6400000x3_S6400000x1_0_0
  have v25 : FVec F S6400000 .f32 := shapeCast S6400000 v24 shapeCasts_S6400000x1_S6400000
  have v26 : FVec F S6400000 .f32 := mulf v23 v25
  have v27 : FVec F S6400000x1 .f32 := broadcastInDim S6400000x1 ![0] bcast_S6400000_S6400000x1_0 v21
  have v28 : FVec F S6400000x1 .f32 := broadcastInDim S6400000x1 ![0] bcast_S6400000_S6400000x1_0 v26
  have v29 : FVec F S6400000x1 .f32 := broadcastInDim S6400000x1 ![0] bcast_S6400000_S6400000x1_0 v16
  have v30 : FVec F S6400000x6 .f32 := concatenate S6400000x6 1 [⟨S6400000x3, v11⟩, ⟨S6400000x1, v27⟩, ⟨S6400000x1, v28⟩, ⟨S6400000x1, v29⟩] concatenates_S6400000x3_S6400000x1_S6400000x1_S6400000x1_S6400000x6_d1
  v30

/-- The forces: the pair forces scatter-added at row 0 of the edge index minus those at row 1. -/
def forcesR (a0 : FVec F S6400000x3 .f32) (a2 : IVec S2x6400000 32) : FVec F S100000x3 .f32 :=
  subf (Host.scatterAdd scatter_S100000x3_S6400000x1_S6400000x3_1_0_0_1 zeros3 (idxCol0 a2) a0)
    (Host.scatterAdd scatter_S100000x3_S6400000x1_S6400000x3_1_0_0_1 zeros3 (idxCol1 a2) a0)

/-- The per-system virial sums: the per-edge virial scatter-added to atoms at row 1 of the edge index, the
    per-atom sums scatter-added to systems at the batch index. -/
def stressSum (a0 a1 : FVec F S6400000x3 .f32) (a2 : IVec S2x6400000 32) (a3 : IVec S100000 32) :
    FVec F S512x6 .f32 :=
  Host.scatterAdd scatter_S512x6_S100000x1_S100000x6_1_0_0_1 zeros512x6
    (broadcastInDim S100000x1 ![0] bcast_S100000_S100000x1_0 a3)
    (Host.scatterAdd scatter_S100000x6_S6400000x1_S6400000x6_1_0_0_1 zeros100000x6 (idxCol1 a2) (virTerm a1 a0))

/-- The divisor of the stress: the absolute value of each system's cell determinant, broadcast along the six
    components. -/
def volume (a4 : FVec F S512x3x3 .f32) : FVec F S512x6 .f32 :=
  broadcastInDim S512x6 ![0, 1] bcast_S512x1_S512x6_0_1
    (broadcastInDim S512x1 ![0] bcast_S512_S512x1_0 (Host.absf (det a4)))

/-- The stress: each system's six virial sums divided by the absolute value of its cell determinant. -/
def stressR (a0 a1 : FVec F S6400000x3 .f32) (a2 : IVec S2x6400000 32) (a3 : IVec S100000 32)
    (a4 : FVec F S512x3x3 .f32) : FVec F S512x6 .f32 :=
  Host.divf (stressSum a0 a1 a2 a3) (volume a4)

end Cert.ReferenceIdeal.Hand

end
-- ==== Proof.RefRun1.lean ====
/-
  The results of the reference program read back: after the 185 operations the forces buffer holds
  the forces term of the arguments, the stress buffer the stress term, and the five argument
  buffers what they held at launch. Each of the three lines of operations is read separately — the fold
  of a line's results at a buffer is computed operation by operation — and the three are composed.
-/
import proofs.«119113_j84086869721639_2_alg».proof.Proof.RefRunMain
import proofs.«119113_j84086869721639_2_alg».proof.Proof.RefTerms

set_option synthInstance.maxSize 4096

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀ Cert.ReferenceIdeal.Facts

variable {F : FTy → Type} [FloatOps F] [Facts]

attribute [local irreducible] Host.scatterAdd

/-! ## The first line: the entry function's 43 operations before the call -/

set_option maxRecDepth 8192 in
theorem s1_forces (V : Valuation τ sig (Elt F)) :
    after ops1 V (main_v10 : DevRef τ sig) = forcesR (V (main_arg0 : DevRef τ sig)) (V (main_arg2 : DevRef τ sig)) := by
  simp only [after_cons, after_nil]
  rfl

set_option maxRecDepth 8192 in
theorem s1_sum (V : Valuation τ sig (Elt F)) :
    after ops1 V (main_v38 : DevRef τ sig)
      = stressSum (V (main_arg0 : DevRef τ sig)) (V (main_arg1 : DevRef τ sig)) (V (main_arg2 : DevRef τ sig))
          (V (main_arg3 : DevRef τ sig)) := by
  simp only [after_cons, after_nil]
  rfl

set_option maxRecDepth 8192 in
theorem s1_arg0 (V : Valuation τ sig (Elt F)) :
    after ops1 V (main_arg0 : DevRef τ sig) = V (main_arg0 : DevRef τ sig) := by
  simp only [after_cons, after_nil]
  rfl

set_option maxRecDepth 8192 in
theorem s1_arg1 (V : Valuation τ sig (Elt F)) :
    after ops1 V (main_arg1 : DevRef τ sig) = V (main_arg1 : DevRef τ sig) := by
  simp only [after_cons, after_nil]
  rfl

set_option maxRecDepth 8192 in
theorem s1_arg2 (V : Valuation τ sig (Elt F)) :
    after ops1 V (main_arg2 : DevRef τ sig) = V (main_arg2 : DevRef τ sig) := by
  simp only [after_cons, after_nil]
  rfl

set_option maxRecDepth 8192 in
theorem s1_arg3 (V : Valuation τ sig (Elt F)) :
    after ops1 V (main_arg3 : DevRef τ sig) = V (main_arg3 : DevRef τ sig) := by
  simp only [after_cons, after_nil]
  rfl

set_option maxRecDepth 8192 in
theorem s1_arg4 (V : Valuation τ sig (Elt F)) :
    after ops1 V (main_arg4 : DevRef τ sig) = V (main_arg4 : DevRef τ sig) := by
  simp only [after_cons, after_nil]
  rfl

end Cert.ReferenceIdeal.Hand

end
-- ==== Proof.RefRun2.lean ====
/-
  The second line read back: after the 138 operations of the determinant function's call, the call's result
  buffer holds the determinant term of the cell argument, and the buffers the line does not write keep
  their contents. Both sides of each equation are closed terms up to the contents at launch; the equation
  holds by unfolding the fold of the operations' results, operation by operation.
-/
import proofs.«119113_j84086869721639_2_alg».proof.Proof.RefRunMain
import proofs.«119113_j84086869721639_2_alg».proof.Proof.RefTerms

set_option synthInstance.maxSize 4096

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀ Cert.ReferenceIdeal.Facts

variable {F : FTy → Type} [FloatOps F] [Facts]

theorem s2_det (V : Valuation τ sig (Elt F)) :
    after detOps V (main_v39 : DevRef τ sig) = det (V (main_arg4 : DevRef τ sig)) := by
  chain_rfl

theorem s2_v10 (V : Valuation τ sig (Elt F)) :
    after detOps V (main_v10 : DevRef τ sig) = V (main_v10 : DevRef τ sig) := by
  chain_rfl

theorem s2_v38 (V : Valuation τ sig (Elt F)) :
    after detOps V (main_v38 : DevRef τ sig) = V (main_v38 : DevRef τ sig) := by
  chain_rfl

theorem s2_arg0 (V : Valuation τ sig (Elt F)) :
    after detOps V (main_arg0 : DevRef τ sig) = V (main_arg0 : DevRef τ sig) := by
  chain_rfl

theorem s2_arg1 (V : Valuation τ sig (Elt F)) :
    after detOps V (main_arg1 : DevRef τ sig) = V (main_arg1 : DevRef τ sig) := by
  chain_rfl

theorem s2_arg2 (V : Valuation τ sig (Elt F)) :
    after detOps V (main_arg2 : DevRef τ sig) = V (main_arg2 : DevRef τ sig) := by
  chain_rfl

theorem s2_arg3 (V : Valuation τ sig (Elt F)) :
    after detOps V (main_arg3 : DevRef τ sig) = V (main_arg3 : DevRef τ sig) := by
  chain_rfl

theorem s2_arg4 (V : Valuation τ sig (Elt F)) :
    after detOps V (main_arg4 : DevRef τ sig) = V (main_arg4 : DevRef τ sig) := by
  chain_rfl

end Cert.ReferenceIdeal.Hand

end
-- ==== Proof.RefRun3.lean ====
/-
  The third line read back: the entry function's last 4 operations divide the virial sums by the absolute
  value of the determinant, broadcast along the six components; the other buffers keep their contents.
-/
import proofs.«119113_j84086869721639_2_alg».proof.Proof.RefRunMain
import proofs.«119113_j84086869721639_2_alg».proof.Proof.RefTerms

set_option synthInstance.maxSize 4096

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀ Cert.ReferenceIdeal.Facts

variable {F : FTy → Type} [FloatOps F] [Facts]

theorem s3_stress (V : Valuation τ sig (Elt F)) :
    after ops2 V (main_v43 : DevRef τ sig)
      = Host.divf (V (main_v38 : DevRef τ sig))
          (broadcastInDim S512x6 ![0, 1] bcast_S512x1_S512x6_0_1
            (broadcastInDim S512x1 ![0] bcast_S512_S512x1_0 (Host.absf (V (main_v39 : DevRef τ sig))))) := by
  simp only [after_cons, after_nil]
  rfl

theorem s3_v10 (V : Valuation τ sig (Elt F)) :
    after ops2 V (main_v10 : DevRef τ sig) = V (main_v10 : DevRef τ sig) := by
  simp only [after_cons, after_nil]
  rfl

theorem s3_arg0 (V : Valuation τ sig (Elt F)) :
    after ops2 V (main_arg0 : DevRef τ sig) = V (main_arg0 : DevRef τ sig) := by
  simp only [after_cons, after_nil]
  rfl

theorem s3_arg1 (V : Valuation τ sig (Elt F)) :
    after ops2 V (main_arg1 : DevRef τ sig) = V (main_arg1 : DevRef τ sig) := by
  simp only [after_cons, after_nil]
  rfl

theorem s3_arg2 (V : Valuation τ sig (Elt F)) :
    after ops2 V (main_arg2 : DevRef τ sig) = V (main_arg2 : DevRef τ sig) := by
  simp only [after_cons, after_nil]
  rfl

theorem s3_arg3 (V : Valuation τ sig (Elt F)) :
    after ops2 V (main_arg3 : DevRef τ sig) = V (main_arg3 : DevRef τ sig) := by
  simp only [after_cons, after_nil]
  rfl

theorem s3_arg4 (V : Valuation τ sig (Elt F)) :
    after ops2 V (main_arg4 : DevRef τ sig) = V (main_arg4 : DevRef τ sig) := by
  simp only [after_cons, after_nil]
  rfl

end Cert.ReferenceIdeal.Hand

end
-- ==== Proof.RefRun.lean ====
/-
  The run of the reference program with its results as terms of the arguments: every execution
  terminates with the forces buffer at the forces term, the stress buffer at the stress term, and the five
  arguments unchanged. The three lines of operations are read one after the other: what the first
  leaves in the buffers the later lines read is carried through the lines that do not write them.
-/
import proofs.«119113_j84086869721639_2_alg».proof.Proof.RefRun1
import proofs.«119113_j84086869721639_2_alg».proof.Proof.RefRun2
import proofs.«119113_j84086869721639_2_alg».proof.Proof.RefRun3

set_option synthInstance.maxSize 4096

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀ Cert.ReferenceIdeal.Facts

variable {F : FTy → Type} [FloatOps F] [Facts]

theorem ops_eq : (ops : List (HloOp τ sig (Elt F))) = ops1 ++ (detOps ++ ops2) := rfl

/-- After all the operations the forces buffer holds the forces term of the pair forces and the edge index. -/
theorem forces_eq (V : Valuation τ sig (Elt F)) :
    after ops V (main_v10 : DevRef τ sig) = forcesR (V (main_arg0 : DevRef τ sig)) (V (main_arg2 : DevRef τ sig)) := by
  rw [ops_eq, after_append, after_append, s3_v10, s2_v10, s1_forces]

/-- After all the operations the stress buffer holds the stress term of the five arguments. -/
theorem stress_eq (V : Valuation τ sig (Elt F)) :
    after ops V (main_v43 : DevRef τ sig)
      = stressR (V (main_arg0 : DevRef τ sig)) (V (main_arg1 : DevRef τ sig)) (V (main_arg2 : DevRef τ sig))
          (V (main_arg3 : DevRef τ sig)) (V (main_arg4 : DevRef τ sig)) := by
  rw [ops_eq, after_append, after_append, s3_stress, s2_v38, s2_det, s1_sum, s1_arg4]
  rfl

theorem arg0_eq (V : Valuation τ sig (Elt F)) :
    after ops V (main_arg0 : DevRef τ sig) = V (main_arg0 : DevRef τ sig) := by
  rw [ops_eq, after_append, after_append, s3_arg0, s2_arg0, s1_arg0]

theorem arg1_eq (V : Valuation τ sig (Elt F)) :
    after ops V (main_arg1 : DevRef τ sig) = V (main_arg1 : DevRef τ sig) := by
  rw [ops_eq, after_append, after_append, s3_arg1, s2_arg1, s1_arg1]

theorem arg2_eq (V : Valuation τ sig (Elt F)) :
    after ops V (main_arg2 : DevRef τ sig) = V (main_arg2 : DevRef τ sig) := by
  rw [ops_eq, after_append, after_append, s3_arg2, s2_arg2, s1_arg2]

theorem arg3_eq (V : Valuation τ sig (Elt F)) :
    after ops V (main_arg3 : DevRef τ sig) = V (main_arg3 : DevRef τ sig) := by
  rw [ops_eq, after_append, after_append, s3_arg3, s2_arg3, s1_arg3]

theorem arg4_eq (V : Valuation τ sig (Elt F)) :
    after ops V (main_arg4 : DevRef τ sig) = V (main_arg4 : DevRef τ sig) := by
  rw [ops_eq, after_append, after_append, s3_arg4, s2_arg4, s1_arg4]

/-- From any memory with zero counters, for any float values: every weakly fair execution of the entry function
    terminates with the forces at the forces term of the arguments' launch contents, the stress at the stress term, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = forcesR (m ((c.tc : Thread nD τ).loc main_arg0)) (m ((c.tc : Thread nD τ).loc main_arg2))
      ∧ r.2.mem ((c.tc : Thread nD τ).loc main_v43) = stressR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v10).trans (forces_eq _), (h c main_v43).trans (stress_eq _),
      (h c main_arg0).trans (arg0_eq _), (h c main_arg1).trans (arg1_eq _), (h c main_arg2).trans (arg2_eq _),
      (h c main_arg3).trans (arg3_eq _), (h c main_arg4).trans (arg4_eq _)⟩)
    (run_main m ρ)

end Cert.ReferenceIdeal.Hand

end
-- ==== Proof.RefVirial.lean ====
/-
  The per-edge virial of the reference program, index by index: column k of row e is the product the
  specification names — the three diagonal products of edge vector and pair force, then the products of
  components (1, 2), (2, 0), (0, 1).

  A column of an [n, 3] array, taken as the slice [0:n, c:c+1] reshaped to [n], reads at e the array's
  entry (e, c); a vector broadcast to a column [n, 1] reads at (e, 0) the vector's entry e; the concatenation
  of an [n, 3] array and three [n, 1] columns along axis 1 reads at (e, k) the first piece for k < 3 and
  the single column of piece k - 2 otherwise.
-/
import proofs.«119113_j84086869721639_2_alg».proof.Proof.RefTerms
import proofs.«119113_j84086869721639_2_alg».proof.Proof.Spec
import Idealize.ShloMosaic.Lib.ValueIdx
import Idealize.ShloMosaic.Lib.ValueLayout
import Idealize.ShloMosaic.Lib.Pipeline.Value

set_option synthInstance.maxSize 4096

noncomputable section

namespace Cert.ReferenceIdeal.Hand

open Idealize.ShloMosaic Idealize.ShloMosaic.ValueIdx Idealize.SL.Sem
open Cert.ReferenceIdeal
open Cert.ReferenceIdeal.Facts₀ Cert.ReferenceIdeal.Facts

variable [Facts]

/-- Column `c` of an [n, 3] array, as the slice [0:n, c:c+1] reshaped to [n], reads at `e` the entry (e, c). -/
theorem col_apply {α : Type} {n : Nat} (c : Nat) (x : (⟨2, ![n, 3]⟩ : Shape).Idx → α)
    (hs : (⟨2, ![n, 3]⟩ : Shape).Slices ![0, c] ⟨2, ![n, 1]⟩) (hc : (⟨2, ![n, 1]⟩ : Shape).ShapeCasts ⟨1, ![n]⟩)
    (e : Fin n) (k : Fin 3) (hk : k.val = c) :
    shapeCast ⟨1, ![n]⟩ (extractStridedSlice ⟨2, ![n, 1]⟩ ![0, c] x hs) hc (ix1 e) = x (ix2 e k) := by
  rw [shapeCast_apply _ hc (ix1 e) (ix2 e (0 : Fin 1)) (by
    rw [Shape.rowMajor_val_two, Shape.rowMajor_val_one]
    show e.val * 1 + 0 = e.val
    omega)]
  exact slice2_axis1_apply c x hs e 0 k (by rw [hk]; rfl)

/-- A vector broadcast to a column [n, 1] reads at (e, u) the vector's entry e. -/
theorem bcol_apply {α : Type} {n : Nat} (hn : n ≠ 1) (v : (⟨1, ![n]⟩ : Shape).Idx → α)
    (h : (⟨1, ![n]⟩ : Shape).BroadcastsInDim ⟨2, ![n, 1]⟩ (![0] : Fin 1 → Fin 2)) (e : Fin n) (u : Fin 1) :
    broadcastInDim ⟨2, ![n, 1]⟩ ![0] h v (ix2 e u) = v (ix1 e) :=
  broadcastInDim_apply _ h v _ (ix1 e) (fun a => by
    match a with
    | ⟨0, _⟩ =>
      show e.val = if n = 1 then 0 else e.val
      rw [if_neg hn])

/-- The concatenation of an [n, 3] array and three [n, 1] columns along axis 1 reads, at a column below 3, the array. -/
theorem cat_piece0 {α : Type} {n : Nat} (x : (⟨2, ![n, 3]⟩ : Shape).Idx → α) (y0 y1 y2 : (⟨2, ![n, 1]⟩ : Shape).Idx → α)
    (h : Shape.Concatenates [(⟨2, ![n, 3]⟩ : Shape), ⟨2, ![n, 1]⟩, ⟨2, ![n, 1]⟩, ⟨2, ![n, 1]⟩] ⟨2, ![n, 6]⟩ 1)
    (e : Fin n) (k : Fin 6) (c : Fin 3) (hc : c.val = k.val) :
    concatenate ⟨2, ![n, 6]⟩ 1 [⟨⟨2, ![n, 3]⟩, x⟩, ⟨⟨2, ![n, 1]⟩, y0⟩, ⟨⟨2, ![n, 1]⟩, y1⟩, ⟨⟨2, ![n, 1]⟩, y2⟩] h (ix2 e k)
      = x (ix2 e c) :=
  concatenate_apply_piece (t := ⟨2, ![n, 6]⟩) (1 : Fin 2) [⟨⟨2, ![n, 3]⟩, x⟩, ⟨⟨2, ![n, 1]⟩, y0⟩, ⟨⟨2, ![n, 1]⟩, y1⟩, ⟨⟨2, ![n, 1]⟩, y2⟩] h (ix2 e k) 0 (by show (0 : Nat) < 4; omega) ⟨2, ![n, 3]⟩ x rfl rfl 0 rfl (ix2 e c)
    (fun b hb => by
      match b with
      | ⟨0, _⟩ => rfl
      | ⟨1, _⟩ => exact absurd rfl hb)
    (by show 0 + c.val = k.val; omega)

/-- The same concatenation reads, at column 3 + p for p = 0, 1, 2, the single column of the p-th of the three. -/
theorem cat_piece1 {α : Type} {n : Nat} (x : (⟨2, ![n, 3]⟩ : Shape).Idx → α) (y0 y1 y2 : (⟨2, ![n, 1]⟩ : Shape).Idx → α)
    (h : Shape.Concatenates [(⟨2, ![n, 3]⟩ : Shape), ⟨2, ![n, 1]⟩, ⟨2, ![n, 1]⟩, ⟨2, ![n, 1]⟩] ⟨2, ![n, 6]⟩ 1)
    (e : Fin n) (k : Fin 6) (hk : k.val = 3) :
    concatenate ⟨2, ![n, 6]⟩ 1 [⟨⟨2, ![n, 3]⟩, x⟩, ⟨⟨2, ![n, 1]⟩, y0⟩, ⟨⟨2, ![n, 1]⟩, y1⟩, ⟨⟨2, ![n, 1]⟩, y2⟩] h (ix2 e k)
      = y0 (ix2 e (0 : Fin 1)) :=
  concatenate_apply_piece (t := ⟨2, ![n, 6]⟩) (1 : Fin 2) [⟨⟨2, ![n, 3]⟩, x⟩, ⟨⟨2, ![n, 1]⟩, y0⟩, ⟨⟨2, ![n, 1]⟩, y1⟩, ⟨⟨2, ![n, 1]⟩, y2⟩] h (ix2 e k) 1 (by show (1 : Nat) < 4; omega) ⟨2, ![n, 1]⟩ y0 rfl rfl 3 rfl (ix2 e (0 : Fin 1))
    (fun b hb => by
      match b with
      | ⟨0, _⟩ => rfl
      | ⟨1, _⟩ => exact absurd rfl hb)
    (by show 3 + 0 = k.val; omega)

theorem cat_piece2 {α : Type} {n : Nat} (x : (⟨2, ![n, 3]⟩ : Shape).Idx → α) (y0 y1 y2 : (⟨2, ![n, 1]⟩ : Shape).Idx → α)
    (h : Shape.Concatenates [(⟨2, ![n, 3]⟩ : Shape), ⟨2, ![n, 1]⟩, ⟨2, ![n, 1]⟩, ⟨2, ![n, 1]⟩] ⟨2, ![n, 6]⟩ 1)
    (e : Fin n) (k : Fin 6) (hk : k.val = 4) :
    concatenate ⟨2, ![n, 6]⟩ 1 [⟨⟨2, ![n, 3]⟩, x⟩, ⟨⟨2, ![n, 1]⟩, y0⟩, ⟨⟨2, ![n, 1]⟩, y1⟩, ⟨⟨2, ![n, 1]⟩, y2⟩] h (ix2 e k)
      = y1 (ix2 e (0 : Fin 1)) :=
  concatenate_apply_piece (t := ⟨2, ![n, 6]⟩) (1 : Fin 2) [⟨⟨2, ![n, 3]⟩, x⟩, ⟨⟨2, ![n, 1]⟩, y0⟩, ⟨⟨2, ![n, 1]⟩, y1⟩, ⟨⟨2, ![n, 1]⟩, y2⟩] h (ix2 e k) 2 (by show (2 : Nat) < 4; omega) ⟨2, ![n, 1]⟩ y1 rfl rfl 4 rfl (ix2 e (0 : Fin 1))
    (fun b hb => by
      match b with
      | ⟨0, _⟩ => rfl
      | ⟨1, _⟩ => exact absurd rfl hb)
    (by show 4 + 0 = k.val; omega)

theorem cat_piece3 {α : Type} {n : Nat} (x : (⟨2, ![n, 3]⟩ : Shape).Idx → α) (y0 y1 y2 : (⟨2, ![n, 1]⟩ : Shape).Idx → α)
    (h : Shape.Concatenates [(⟨2, ![n, 3]⟩ : Shape), ⟨2, ![n, 1]⟩, ⟨2, ![n, 1]⟩, ⟨2, ![n, 1]⟩] ⟨2, ![n, 6]⟩ 1)
    (e : Fin n) (k : Fin 6) (hk : k.val = 5) :
    concatenate ⟨2, ![n, 6]⟩ 1 [⟨⟨2, ![n, 3]⟩, x⟩, ⟨⟨2, ![n, 1]⟩, y0⟩, ⟨⟨2, ![n, 1]⟩, y1⟩, ⟨⟨2, ![n, 1]⟩, y2⟩] h (ix2 e k)
      = y2 (ix2 e (0 : Fin 1)) :=
  concatenate_apply_piece (t := ⟨2, ![n, 6]⟩) (1 : Fin 2) [⟨⟨2, ![n, 3]⟩, x⟩, ⟨⟨2, ![n, 1]⟩, y0⟩, ⟨⟨2, ![n, 1]⟩, y1⟩, ⟨⟨2, ![n, 1]⟩, y2⟩] h (ix2 e k) 3 (by show (3 : Nat) < 4; omega) ⟨2, ![n, 1]⟩ y2 rfl rfl 5 rfl (ix2 e (0 : Fin 1))
    (fun b hb => by
      match b with
      | ⟨0, _⟩ => rfl
      | ⟨1, _⟩ => exact absurd rfl hb)
    (by show 5 + 0 = k.val; omega)

/-- The per-edge virial term is the specification's, at every index. -/
theorem virTerm_eq (a1 a0 : FVec Ideal S6400000x3 .f32) : virTerm (F := Ideal) a1 a0 = Cert.Spec.vir a1 a0 := by
  funext i
  obtain ⟨e, k, rfl⟩ : ∃ (e : Fin 6400000) (k : Fin 6), i = ix2 e k := ⟨i 0, i 1, eq_ix2 i⟩
  simp only [virTerm]
  match k with
  | ⟨0, _⟩ => exact (cat_piece0 _ _ _ _ _ e _ (0 : Fin 3) rfl).trans rfl
  | ⟨1, _⟩ => exact (cat_piece0 _ _ _ _ _ e _ (1 : Fin 3) rfl).trans rfl
  | ⟨2, _⟩ => exact (cat_piece0 _ _ _ _ _ e _ (2 : Fin 3) rfl).trans rfl
  | ⟨3, _⟩ =>
    rw [cat_piece1 _ _ _ _ _ e _ rfl, bcol_apply (by decide), mulf_apply,
      col_apply 1 a1 _ _ e (1 : Fin 3) rfl, col_apply 2 a0 _ _ e (2 : Fin 3) rfl]
    rfl
  | ⟨4, _⟩ =>
    rw [cat_piece2 _ _ _ _ _ e _ rfl, bcol_apply (by decide), mulf_apply,
      col_apply 2 a1 _ _ e (2 : Fin 3) rfl, col_apply 0 a0 _ _ e (0 : Fin 3) rfl]
    rfl
  | ⟨5, _⟩ =>
    rw [cat_piece3 _ _ _ _ _ e _ rfl, bcol_apply (by decide), mulf_apply,
      col_apply 0 a1 _ _ e (0 : Fin 3) rfl, col_apply 1 a0 _ _ e (1 : Fin 3) rfl]
    rfl

end Cert.ReferenceIdeal.Hand

end
-- ==== Proof.LibSegmentIndex.lean ====
/-
  Indexing by a column of integers, read at an entry: the two halves of a segment sum.

  `x[idx]` for a flat array `x : [N]` and a column of signed integers `idx : [E, 1]` is a gather: entry `e` of the
  result is `x` at `idx[e, 0]` read as a signed integer and clamped into `[0, N − 1]`.

  Rows `upd : [E, C]` added into `[N, C]` at the rows a column `idx : [E, 1]` names is a scatter: update `(e, j)`
  lands on `(idx[e, 0], j)` with `idx[e, 0]` read signed and NOT clamped, and is dropped when that row is outside
  `[0, N)`. So whenever update `(e, j)` lands on `(n, k)`, the signed value of `idx[e, 0]` is `n` and `j = k`.

  Together: a gather through the same column at an entry whose update lands on row `n` reads `x` at `n` — the
  clamp is the identity on a row that is in range.
-/
import Idealize.ShloMosaic.Lib.ValueIdx
import Idealize.ShloMosaic.PureOps.ShapeOps

namespace Cert.Lib.SegmentIndex

open Idealize.ShloMosaic Idealize.ShloMosaic.ValueIdx

variable {α : Type}

/-! ## The gather of a flat array through a column of indices -/

/-- The dimension numbers of `x[idx]` for `x : [N]`, `idx : [E, 1]`, result `[E]`: the operand's one axis collapsed
    and indexed, one-element slices, the index vector along axis 1. -/
abbrev colGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the operand at `idx[e, 0]`, read signed and clamped into `[0, N − 1]`. -/
theorem gather_col_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (colGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (colGatherDims N E wf).start (ix1 e) idx 0 + (colGatherDims N E wf).batchCoord (ix1 e) 0
    + (colGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colGatherDims N E wf).startIndexMap from List.mem_singleton.mpr rfl)]
  have hsi : (colGatherDims N E wf).siIdx (ix1 e) ⟨List.idxOf (0 : Fin 1) (colGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows scattered at the rows a column of indices names -/

/-- The dimension numbers of `zeros([N, C]).at[idx].add(upd)` for `idx : [E, 1]`, `upd : [E, C]`: the updates' axis 1
    is the window axis, the operand's axis 0 is inserted and indexed, the index vector along axis 1. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where update `(e, j)` lands: if on `(n, k)`, then `idx[e, 0]` read signed is `n`, and `j = k`. -/
theorem resultIdx_rows {N C E w : Nat}
    (wf : ScatterDims.WF ⟨2, ![N, C]⟩ ⟨2, ![E, 1]⟩ ⟨2, ![E, C]⟩ [1] [0] [0] 1)
    (idx : IVec ⟨2, ![E, 1]⟩ w) (e : Fin E) (j : Fin C) (n : Fin N) (k : Fin C)
    (h : (rowScatterDims N C E wf).resultIdx? (ix2 e j) idx = some (ix2 n k)) :
    (idx (ix2 e (0 : Fin 1))).toInt = (n.val : Int) ∧ j = k := by
  have hs0 : (rowScatterDims N C E wf).start (ix2 e j) idx 0 = (idx (ix2 e (0 : Fin 1))).toInt := by
    unfold ScatterDims.start
    rw [dif_pos (show (0 : Fin 2) ∈ (rowScatterDims N C E wf).scatterDimsToOperandDims from List.mem_singleton.mpr rfl)]
    have hsi : (rowScatterDims N C E wf).siIdx (ix2 e j)
        ⟨List.idxOf (0 : Fin 2) (rowScatterDims N C E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N C E wf).start (ix2 e j) idx 1 = 0 := by
    unfold ScatterDims.start
    have hmem : (1 : Fin 2) ∉ (rowScatterDims N C E wf).scatterDimsToOperandDims := by
      show (1 : Fin 2) ∉ ([0] : List (Fin 2)); decide
    rw [dif_neg hmem]
  have hw0 : (rowScatterDims N C E wf).window (ix2 e j) 0 = 0 := by
    unfold ScatterDims.window
    have hmem : (0 : Fin 2) ∉ (rowScatterDims N C E wf).sKept := by
      show (0 : Fin 2) ∉ (List.finRange 2).filter (· ∉ ([0] : List (Fin 2))); decide
    rw [dif_neg hmem]
  have hw1 : (rowScatterDims N C E wf).window (ix2 e j) 1 = j.val := by
    unfold ScatterDims.window
    have hmem : (1 : Fin 2) ∈ (rowScatterDims N C E wf).sKept := by
      show (1 : Fin 2) ∈ (List.finRange 2).filter (· ∉ ([0] : List (Fin 2))); decide
    rw [dif_pos hmem]
    rfl
  unfold ScatterDims.resultIdx? at h
  split at h
  · have hi := Option.some.inj h
    have h0 : ((rowScatterDims N C E wf).start (ix2 e j) idx 0 + (rowScatterDims N C E wf).window (ix2 e j) 0).toNat
        = n.val := congrArg (fun f : (⟨2, ![N, C]⟩ : Shape).Idx => (f 0).val) hi
    have h1 : ((rowScatterDims N C E wf).start (ix2 e j) idx 1 + (rowScatterDims N C E wf).window (ix2 e j) 1).toNat
        = k.val := congrArg (fun f : (⟨2, ![N, C]⟩ : Shape).Idx => (f 1).val) hi
    rename_i hall
    have hb0 := (hall 0).1
    rw [hs0, hw0] at h0 hb0
    rw [hs1, hw1] at h1
    refine ⟨by omega, Fin.ext (by omega)⟩
  · cases h

end Cert.Lib.SegmentIndex
-- ==== Proof.LibScatterRows.lean ====
/-
  Rows scattered at the rows a column of integers names, read at an entry.

  For `upd : [E, C]` added into `x : [N, C]` at the rows a column `idx : [E, 1]` names, update `(e, j)` lands on
  `(n, k)` exactly when `idx[e, 0]` read signed is `n` and `j = k`. Hence entry `(n, c)` of the result is
  `x[n, c] + ∑ e, if idx[e, 0] = n then upd[e, c] else 0`: each column is scattered independently of the others, so
  a window of columns of the result is the scatter of the same window of columns of the operand and of the updates.
-/
import Idealize.ShloMosaic.Lib.ValueIdx
import Idealize.ShloMosaic.PureOps.Ideal
import Idealize.ShloMosaic.PureOps.Contract
import Idealize.ShloMosaic.Lib.Pipeline.Value
import proofs.«119113_j84086869721639_2_alg».proof.Proof.LibSegmentIndex

noncomputable section

namespace Cert.Lib.ScatterRows

open Idealize.ShloMosaic Idealize.ShloMosaic.ValueIdx Cert.Lib.SegmentIndex

/-! ## Where an update lands -/

private theorem start0 {N C E w : Nat}
    (wf : ScatterDims.WF ⟨2, ![N, C]⟩ ⟨2, ![E, 1]⟩ ⟨2, ![E, C]⟩ [1] [0] [0] 1)
    (idx : IVec ⟨2, ![E, 1]⟩ w) (e : Fin E) (j : Fin C) :
    (rowScatterDims N C E wf).start (ix2 e j) idx 0 = (idx (ix2 e (0 : Fin 1))).toInt := by
  unfold ScatterDims.start
  rw [dif_pos (show (0 : Fin 2) ∈ (rowScatterDims N C E wf).scatterDimsToOperandDims from List.mem_singleton.mpr rfl)]
  have hsi : (rowScatterDims N C E wf).siIdx (ix2 e j)
      ⟨List.idxOf (0 : Fin 2) (rowScatterDims N C E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

private theorem start1 {N C E w : Nat}
    (wf : ScatterDims.WF ⟨2, ![N, C]⟩ ⟨2, ![E, 1]⟩ ⟨2, ![E, C]⟩ [1] [0] [0] 1)
    (idx : IVec ⟨2, ![E, 1]⟩ w) (e : Fin E) (j : Fin C) :
    (rowScatterDims N C E wf).start (ix2 e j) idx 1 = 0 := by
  unfold ScatterDims.start
  have hmem : (1 : Fin 2) ∉ (rowScatterDims N C E wf).scatterDimsToOperandDims := by
    show (1 : Fin 2) ∉ ([0] : List (Fin 2)); decide
  rw [dif_neg hmem]

private theorem window0 {N C E : Nat}
    (wf : ScatterDims.WF ⟨2, ![N, C]⟩ ⟨2, ![E, 1]⟩ ⟨2, ![E, C]⟩ [1] [0] [0] 1)
    (e : Fin E) (j : Fin C) :
    (rowScatterDims N C E wf).window (ix2 e j) 0 = 0 := by
  unfold ScatterDims.window
  have hmem : (0 : Fin 2) ∉ (rowScatterDims N C E wf).sKept := by
    show (0 : Fin 2) ∉ (List.finRange 2).filter (· ∉ ([0] : List (Fin 2))); decide
  rw [dif_neg hmem]

private theorem window1 {N C E : Nat}
    (wf : ScatterDims.WF ⟨2, ![N, C]⟩ ⟨2, ![E, 1]⟩ ⟨2, ![E, C]⟩ [1] [0] [0] 1)
    (e : Fin E) (j : Fin C) :
    (rowScatterDims N C E wf).window (ix2 e j) 1 = j.val := by
  unfold ScatterDims.window
  have hmem : (1 : Fin 2) ∈ (rowScatterDims N C E wf).sKept := by
    show (1 : Fin 2) ∈ (List.finRange 2).filter (· ∉ ([0] : List (Fin 2))); decide
  rw [dif_pos hmem]
  rfl

/-- Update `(e, j)` lands on `(n, k)` exactly when `idx[e, 0]` read signed is `n` and `j = k`. -/
theorem resultIdx_rows_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (j : Fin C) (n : Fin N) (k : Fin C) :
    (rowScatterDims N C E wf).resultIdx? (ix2 e j) idx = some (ix2 n k)
      ↔ (idx (ix2 e (0 : Fin 1))).toInt = (n.val : Int) ∧ j = k := by
  refine ⟨resultIdx_rows wf idx e j n k, ?_⟩
  rintro ⟨hn, rfl⟩
  have hall : ∀ a : Fin 2,
      0 ≤ (rowScatterDims N C E wf).start (ix2 e j) idx a + (rowScatterDims N C E wf).window (ix2 e j) a
      ∧ (rowScatterDims N C E wf).start (ix2 e j) idx a + (rowScatterDims N C E wf).window (ix2 e j) a
          < (⟨2, ![N, C]⟩ : Shape).size a := by
    intro a
    match a with
    | ⟨0, _⟩ =>
      have h0 := start0 wf idx e j
      have w0 := window0 wf e j
      show 0 ≤ (rowScatterDims N C E wf).start (ix2 e j) idx 0 + ((rowScatterDims N C E wf).window (ix2 e j) 0 : Nat)
        ∧ (rowScatterDims N C E wf).start (ix2 e j) idx 0 + ((rowScatterDims N C E wf).window (ix2 e j) 0 : Nat) < (N : Int)
      rw [h0, w0, hn]
      have := n.isLt
      omega
    | ⟨1, _⟩ =>
      have h1 := start1 wf idx e j
      have w1 := window1 wf e j
      show 0 ≤ (rowScatterDims N C E wf).start (ix2 e j) idx 1 + ((rowScatterDims N C E wf).window (ix2 e j) 1 : Nat)
        ∧ (rowScatterDims N C E wf).start (ix2 e j) idx 1 + ((rowScatterDims N C E wf).window (ix2 e j) 1 : Nat) < (C : Int)
      rw [h1, w1]
      have := j.isLt
      omega
  unfold ScatterDims.resultIdx?
  rw [dif_pos hall]
  congr 1
  funext a
  refine Fin.ext ?_
  match a with
  | ⟨0, _⟩ =>
    show ((rowScatterDims N C E wf).start (ix2 e j) idx 0 + ((rowScatterDims N C E wf).window (ix2 e j) 0 : Nat)).toNat = n.val
    rw [start0 wf idx e j, window0 wf e j, hn]
    omega
  | ⟨1, _⟩ =>
    show ((rowScatterDims N C E wf).start (ix2 e j) idx 1 + ((rowScatterDims N C E wf).window (ix2 e j) 1 : Nat)).toNat = j.val
    rw [start1 wf idx e j, window1 wf e j]
    omega

/-! ## The scatter read at an entry -/

/-- Entry `(n, c)` of the scatter: the operand's entry plus the sum of `upd[e, c]` over the rows `e` whose index, read
    signed, is `n`. -/
theorem hostScatterAdd_rows_apply {N C E w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N C E wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl (fun e _ => ?_)
  simp only [resultIdx_rows_iff]
  by_cases h : (idx (ix2 e (0 : Fin 1))).toInt = (n.val : Int)
  · simp only [h, true_and, if_true]
    exact Finset.sum_ite_eq' Finset.univ c (fun b => upd (ix2 e b)) |>.trans (by simp)
  · simp only [h, false_and, if_false]
    exact Finset.sum_const_zero

/-! ## Columns are scattered independently -/

/-- A window of columns `[o, o + C')` of the scatter into `C` columns is the scatter, through the same index column, of
    that window of columns of the operand and of the updates. -/
theorem hostScatterAdd_cols {N C C' E w o : Nat}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (ho : o + C' ≤ C)
    (x : (⟨2, ![N, C]⟩ : Shape).Idx → EReal) (x' : (⟨2, ![N, C']⟩ : Shape).Idx → EReal)
    (idx : IVec ⟨2, ![E, 1]⟩ w)
    (upd : (⟨2, ![E, C]⟩ : Shape).Idx → EReal) (upd' : (⟨2, ![E, C']⟩ : Shape).Idx → EReal)
    (hx : ∀ (n : Fin N) (k : Fin C'), x' (ix2 n k) = x (ix2 n (⟨o + k.val, by omega⟩ : Fin C)))
    (hu : ∀ (e : Fin E) (k : Fin C'), upd' (ix2 e k) = upd (ix2 e (⟨o + k.val, by omega⟩ : Fin C)))
    (n : Fin N) (k : Fin C') :
    Ideal.hostScatterAdd (rowScatterDims N C E wf) x idx upd (ix2 n (⟨o + k.val, by omega⟩ : Fin C))
      = Ideal.hostScatterAdd (rowScatterDims N C' E wf') x' idx upd' (ix2 n k) := by
  rw [hostScatterAdd_rows_apply, hostScatterAdd_rows_apply, hx]
  congr 1
  refine Finset.sum_congr rfl (fun e _ => ?_)
  rw [hu]

/-! ## The printed forms -/

/-- At the ideal instance the host's accumulating scatter is the exact sum of the updates that land on each entry. -/
theorem scatterAdd_ideal {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- Dimension numbers with window axis `[1]`, inserted axis `[0]`, index map `[0]` and the index vector along axis 1 are
    the row scatter's. -/
theorem eq_rowScatterDims {N C E : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) :
    ∃ wf : ScatterDims.WF ⟨2, ![N, C]⟩ ⟨2, ![E, 1]⟩ ⟨2, ![E, C]⟩ [1] [0] [0] 1, d = rowScatterDims N C E wf := by
  obtain ⟨uw, iw, sd, iv, wf⟩ := d
  dsimp only at h1 h2 h3 h4
  subst h1 h2 h3 h4
  exact ⟨wf, rfl⟩

/-- The scalar constant with all bits zero, broadcast to any shape, is the zero array. -/
theorem zeros_apply {s t : Shape} (dims : Fin s.rank → Fin t.rank) (h : s.BroadcastsInDim t dims) (j : t.Idx) :
    broadcastInDim t dims h (constant s .f32 0x00000000#32 : FVec Ideal s .f32) j = 0 := by
  show Ideal.ofBits .f32 0x00000000#32 = 0
  simp [Ideal.ofBits, Ideal.ieee]

/-- A window of columns `[o, o + C')` sliced out of a row scatter into `C` columns is the row scatter, through the same
    index column, of operands and updates that are that window of columns of the wide ones. -/
theorem slice_scatterAdd_cols {N C C' E w o : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (ho : o + C' ≤ C)
    (d : ScatterDims ⟨2, ![N, C]⟩ ⟨2, ![E, 1]⟩ ⟨2, ![E, C]⟩) (d' : ScatterDims ⟨2, ![N, C']⟩ ⟨2, ![E, 1]⟩ ⟨2, ![E, C']⟩)
    (hd : d = rowScatterDims N C E wf) (hd' : d' = rowScatterDims N C' E wf')
    (x : FVec Ideal ⟨2, ![N, C]⟩ φ) (x' : FVec Ideal ⟨2, ![N, C']⟩ φ) (idx : IVec ⟨2, ![E, 1]⟩ w)
    (upd : FVec Ideal ⟨2, ![E, C]⟩ φ) (upd' : FVec Ideal ⟨2, ![E, C']⟩ φ)
    (hx : ∀ (n : Fin N) (k : Fin C'), x' (ix2 n k) = x (ix2 n (⟨o + k.val, by omega⟩ : Fin C)))
    (hu : ∀ (e : Fin E) (k : Fin C'), upd' (ix2 e k) = upd (ix2 e (⟨o + k.val, by omega⟩ : Fin C)))
    (hs : (⟨2, ![N, C]⟩ : Shape).Slices ![0, o] ⟨2, ![N, C']⟩) :
    extractStridedSlice ⟨2, ![N, C']⟩ ![0, o] (Host.scatterAdd (F := Ideal) d x idx upd) hs
      = Host.scatterAdd (F := Ideal) d' x' idx upd' := by
  subst hd hd'
  funext i
  obtain ⟨n, k, rfl⟩ : ∃ (n : Fin N) (k : Fin C'), i = ix2 n k := ⟨i 0, i 1, eq_ix2 i⟩
  have hk := k.isLt
  refine (extractStridedSlice_apply _ _ hs (ix2 n k) (ix2 n (⟨o + k.val, by omega⟩ : Fin C)) ?_).trans ?_
  · intro a
    match a with
    | ⟨0, _⟩ => show n.val = 0 + n.val; omega
    | ⟨1, _⟩ => rfl
  · exact hostScatterAdd_cols wf wf' ho x x' idx upd upd' hx hu n k

/-- The same with both operands the zero arrays a broadcast scalar constant gives: only the updates need to be
    related. -/
theorem slice_scatterAdd_cols_zero {N C C' E w o : Nat} {s0 : Shape}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (ho : o + C' ≤ C)
    (d : ScatterDims ⟨2, ![N, C]⟩ ⟨2, ![E, 1]⟩ ⟨2, ![E, C]⟩) (d' : ScatterDims ⟨2, ![N, C']⟩ ⟨2, ![E, 1]⟩ ⟨2, ![E, C']⟩)
    (hd : d = rowScatterDims N C E wf) (hd' : d' = rowScatterDims N C' E wf')
    (dims : Fin s0.rank → Fin 2) (hb : s0.BroadcastsInDim ⟨2, ![N, C]⟩ dims) (hb' : s0.BroadcastsInDim ⟨2, ![N, C']⟩ dims)
    (b : BitVec FTy.f32.bits) (idx : IVec ⟨2, ![E, 1]⟩ w)
    (upd : FVec Ideal ⟨2, ![E, C]⟩ .f32) (upd' : FVec Ideal ⟨2, ![E, C']⟩ .f32)
    (hu : ∀ (e : Fin E) (k : Fin C'), upd' (ix2 e k) = upd (ix2 e (⟨o + k.val, by omega⟩ : Fin C)))
    (hs : (⟨2, ![N, C]⟩ : Shape).Slices ![0, o] ⟨2, ![N, C']⟩) :
    extractStridedSlice ⟨2, ![N, C']⟩ ![0, o]
        (Host.scatterAdd (F := Ideal) d (broadcastInDim ⟨2, ![N, C]⟩ dims hb (constant s0 .f32 b)) idx upd) hs
      = Host.scatterAdd (F := Ideal) d' (broadcastInDim ⟨2, ![N, C']⟩ dims hb' (constant s0 .f32 b)) idx upd' :=
  slice_scatterAdd_cols wf wf' ho d d' hd hd' _ _ idx upd upd' (fun _ _ => rfl) hu hs

end Cert.Lib.ScatterRows

end
-- ==== Proof.Bridge.lean ====
/-
  The two programs' result terms are one function of the arguments.

  Both scatter-add rows into atoms at row 1 of the edge index. Such a scatter-add treats the columns independently:
  entry (n, c) of the result is the operand's entry plus the sum, over the edges e whose index is n, of column c of
  row e. So columns 0–2 of the scatter-added fused array are the scatter-added forces, and columns 3–8 are the
  scatter-added virial components. Everything else — the index columns, the zero operands, the determinant, the
  division — is the same text in both programs.
-/
import proofs.«119113_j84086869721639_2_alg».proof.Proof.KernelIdealTerms
import proofs.«119113_j84086869721639_2_alg».proof.Proof.RefTerms
import proofs.«119113_j84086869721639_2_alg».proof.Proof.RefVirial
import proofs.«119113_j84086869721639_2_alg».proof.Proof.LibScatterRows
import proofs.«119113_j84086869721639_2_alg».proof.Proof.Spec

set_option maxRecDepth 16384

noncomputable section

namespace Cert.Bridge

open Idealize.ShloMosaic Idealize.ShloMosaic.ValueIdx Cert.Lib.ScatterRows Cert.Lib.SegmentIndex

variable [hK : Cert.KernelIdeal.Facts] [hR : Cert.ReferenceIdeal.Facts]

/-- The determinant is the same function in both programs. -/
theorem det_eq (a4 : FVec Ideal Cert.KernelIdeal.S512x3x3 .f32) :
    Cert.KernelIdeal.Hand.det (F := Ideal) a4 = Cert.ReferenceIdeal.Hand.det (F := Ideal) a4 := rfl

/-- Columns 0–2 of the per-atom sums of the fused array are the per-atom sums of the forces. -/
theorem perAtom_force (a0 a1 : FVec Ideal Cert.KernelIdeal.S6400000x3 .f32) (a2 : IVec Cert.KernelIdeal.S2x6400000 32) :
    extractStridedSlice Cert.KernelIdeal.S100000x3 ![0, 0]
        (Cert.KernelIdeal.Hand.perAtom9 (F := Ideal) a2 (Cert.Spec.fused (E := 6400000) a1 a0))
        Cert.KernelIdeal.Facts₀.slices_S100000x9_S100000x3_0_0
      = Host.scatterAdd (F := Ideal) Cert.ReferenceIdeal.scatter_S100000x3_S6400000x1_S6400000x3_1_0_0_1
          Cert.ReferenceIdeal.Hand.zeros3 (Cert.ReferenceIdeal.Hand.idxCol1 a2) a0 := by
  unfold Cert.KernelIdeal.Hand.perAtom9 Cert.KernelIdeal.Hand.zeros100000x9 Cert.ReferenceIdeal.Hand.zeros3
  exact slice_scatterAdd_cols_zero (N := 100000) (C := 9) (C' := 3) (E := 6400000) (o := 0)
    Cert.KernelIdeal.Facts₀.scatter_S100000x9_S6400000x1_S6400000x9_1_0_0_1_wf
    Cert.ReferenceIdeal.Facts₀.scatter_S100000x3_S6400000x1_S6400000x3_1_0_0_1_wf (by omega)
    Cert.KernelIdeal.scatter_S100000x9_S6400000x1_S6400000x9_1_0_0_1
    Cert.ReferenceIdeal.scatter_S100000x3_S6400000x1_S6400000x3_1_0_0_1 rfl rfl
    _ _ _ _ (Cert.KernelIdeal.Hand.idxCol1 a2) (Cert.Spec.fused (E := 6400000) a1 a0) a0
    (fun e k => (Cert.Spec.fused_force a1 a0 e k).symm) _

/-- The forces agree. -/
theorem forces_bridge (a0 a1 : FVec Ideal Cert.KernelIdeal.S6400000x3 .f32) (a2 : IVec Cert.KernelIdeal.S2x6400000 32) :
    Cert.KernelIdeal.Hand.forcesK (F := Ideal) a0 a2 (Cert.Spec.fused (E := 6400000) a1 a0)
      = Cert.ReferenceIdeal.Hand.forcesR (F := Ideal) a0 a2 := by
  unfold Cert.KernelIdeal.Hand.forcesK Cert.ReferenceIdeal.Hand.forcesR
  rw [perAtom_force]
  rfl

/-- Columns 3–8 of the per-atom sums of the fused array are the per-atom sums of the virial components. -/
theorem perAtom_vir (a0 a1 : FVec Ideal Cert.KernelIdeal.S6400000x3 .f32) (a2 : IVec Cert.KernelIdeal.S2x6400000 32) :
    extractStridedSlice Cert.KernelIdeal.S100000x6 ![0, 3]
        (Cert.KernelIdeal.Hand.perAtom9 (F := Ideal) a2 (Cert.Spec.fused (E := 6400000) a1 a0))
        Cert.KernelIdeal.Facts₀.slices_S100000x9_S100000x6_0_3
      = Host.scatterAdd (F := Ideal) Cert.ReferenceIdeal.scatter_S100000x6_S6400000x1_S6400000x6_1_0_0_1
          Cert.ReferenceIdeal.Hand.zeros100000x6 (Cert.ReferenceIdeal.Hand.idxCol1 a2)
          (Cert.ReferenceIdeal.Hand.virTerm (F := Ideal) a1 a0) := by
  rw [Cert.ReferenceIdeal.Hand.virTerm_eq]
  unfold Cert.KernelIdeal.Hand.perAtom9 Cert.KernelIdeal.Hand.zeros100000x9 Cert.ReferenceIdeal.Hand.zeros100000x6
  exact slice_scatterAdd_cols_zero (N := 100000) (C := 9) (C' := 6) (E := 6400000) (o := 3)
    Cert.KernelIdeal.Facts₀.scatter_S100000x9_S6400000x1_S6400000x9_1_0_0_1_wf
    Cert.ReferenceIdeal.Facts₀.scatter_S100000x6_S6400000x1_S6400000x6_1_0_0_1_wf (by omega)
    Cert.KernelIdeal.scatter_S100000x9_S6400000x1_S6400000x9_1_0_0_1
    Cert.ReferenceIdeal.scatter_S100000x6_S6400000x1_S6400000x6_1_0_0_1 rfl rfl
    _ _ _ _ (Cert.KernelIdeal.Hand.idxCol1 a2) (Cert.Spec.fused (E := 6400000) a1 a0) (Cert.Spec.vir a1 a0)
    (fun e k => (Cert.Spec.fused_vir a1 a0 e k).symm) _

/-- The stresses agree. -/
theorem stress_bridge (a0 a1 : FVec Ideal Cert.KernelIdeal.S6400000x3 .f32) (a2 : IVec Cert.KernelIdeal.S2x6400000 32)
    (a3 : IVec Cert.KernelIdeal.S100000 32) (a4 : FVec Ideal Cert.KernelIdeal.S512x3x3 .f32) :
    Cert.KernelIdeal.Hand.stressK (F := Ideal) (Cert.Spec.fused (E := 6400000) a1 a0) a2 a3 a4
      = Cert.ReferenceIdeal.Hand.stressR (F := Ideal) a0 a1 a2 a3 a4 := by
  unfold Cert.KernelIdeal.Hand.stressK Cert.ReferenceIdeal.Hand.stressR Cert.ReferenceIdeal.Hand.stressSum
    Cert.ReferenceIdeal.Hand.volume
  rw [perAtom_vir, det_eq]
  rfl

end Cert.Bridge

end
-- ==== Proof.lean ====
/-
  Forces and stress of a batch of atomistic systems from pair forces: the kernel program against the reference.

  Inputs: pair forces f and edge vectors r on 6 400 000 edges, the edge index (two rows of atom numbers), the batch
  index of 100 000 atoms into 512 systems, and the systems' 3×3 cells. Results: the force on each atom, the sum of f
  over the edges whose first atom it is minus the sum over those whose second atom it is; and each system's stress,
  the six virial components r₀f₀, r₁f₁, r₂f₂, r₁f₂, r₂f₀, r₀f₁ summed over the edges into their second atoms and over
  the atoms into their systems, divided by the absolute value of the cell's determinant.

  The reference forms the [E, 6] virial array and scatter-adds it; the kernel program's one region writes a fused
  [E, 9] array — the forces in columns 0–2, the virial in columns 3–8 — which the host lines scatter-add once and then
  slice into its two column ranges. A scatter-add of rows treats the columns independently, so the slices are the
  reference's two scatter-adds; no law beyond reindexing a finite sum is involved, so the precondition is not opened.
  The determinant and everything after the sums are the same lines in both programs.

  The three frames: each kernel program runs its region (every block stored whole) and then 161 host lines that write
  only buffers of their own; the reference is 185 host lines.
-/
import proofs.«119113_j84086869721639_2_alg».proof.Defs
import proofs.«119113_j84086869721639_2_alg».proof.Proof.Gen.Kernel
import proofs.«119113_j84086869721639_2_alg».proof.Proof.Gen.KernelIdeal
import proofs.«119113_j84086869721639_2_alg».proof.Proof.Gen.ReferenceIdeal
import proofs.«119113_j84086869721639_2_alg».proof.Proof.Gen.Pre_finite_inputs
import proofs.«119113_j84086869721639_2_alg».proof.Proof.KernelRun
import proofs.«119113_j84086869721639_2_alg».proof.Proof.KernelIdealValue
import proofs.«119113_j84086869721639_2_alg».proof.Proof.RefRun
import proofs.«119113_j84086869721639_2_alg».proof.Proof.Bridge

noncomputable section

namespace Cert.Proof

open Idealize.ShloMosaic Idealize.SL.Sem

theorem frame_k [Cert.Kernel.Facts] [Cert.Pre_finite_inputs.Facts] : Cert.frame_Kernel :=
  fun m ρ _ => Cert.Kernel.Hand.frame (F := Bits) m ρ

theorem frame_ki [Cert.KernelIdeal.Facts] [Cert.Pre_finite_inputs.Facts] : Cert.frame_KernelIdeal :=
  fun m ρ _ => Cert.KernelIdeal.Hand.frame (F := Ideal) m ρ

theorem frame_ri [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Hand.run (F := Ideal) m ρ)

/-- At the ideal instance both programs end with the reference's two terms of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Hand.forcesR (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => Cert.ReferenceIdeal.Hand.stressR (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.Bridge.forces_bridge _ _ _), (h c).2.1.trans (Cert.Bridge.stress_bridge _ _ _ _ _),
        (h c).2.2⟩)
      (Cert.KernelIdeal.Hand.run m ρ)
  · refine (θ_run Cert.ReferenceIdeal.defs _ _).mono (fun _ h c => ⟨?_, ?_, (h c).2.2⟩)
      (Cert.ReferenceIdeal.Hand.run (F := Ideal) m' ρ')
    · rw [(h c).1, (hagree c).1, (hagree c).2.2.1]
    · rw [(h c).2.1, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
